-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel

variable [Facts]

def fn {F : FTy → Type} [FloatOps F] (main_arg0 : FVec F S64x4096x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  main_v3
-- ==== Kernel.lean ====
abbrev S64x4096x128 : Shape := ⟨3, ![64, 4096, 128]⟩
abbrev S1x4096x128 : Shape := ⟨3, ![1, 4096, 128]⟩
abbrev S1x64x64x128 : Shape := ⟨4, ![1, 64, 64, 128]⟩
abbrev S1x64x1x128 : Shape := ⟨4, ![1, 64, 1, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S1x64x64x128 : S1x4096x128.ShapeCasts S1x64x64x128
  iota_S1x64x64x128_d2_w32 : S1x64x64x128.Iotas .tc 32 [2]
  iota_S1x64x64x128_d1_w32 : S1x64x64x128.Iotas .tc 32 [1]
  rotates_S1x64x64x128_d2 : S1x64x64x128.Rotates 2 none
  slices_S1x64x64x128_o0_0_63_0_S1x64x1x128 : S1x64x64x128.Slices ![0, 0, 63, 0] S1x64x1x128
  shapeCasts_S1x64x1x128_S1x64x128 : S1x64x1x128.ShapeCasts S1x64x128
  slices_S1x64x64x128_o0_0_0_0_S1x64x1x128 : S1x64x64x128.Slices ![0, 0, 0, 0] S1x64x1x128
  iota_S1x64x128_d1_w32 : S1x64x128.Iotas .tc 32 [1]
  rotates_S1x64x128_d1 : S1x64x128.Rotates 1 none
  shapeCasts_S1x64x128_S1x64x1x128 : S1x64x128.ShapeCasts S1x64x1x128
  shapeCasts_S1x64x1x128_S1x64x1x128 : S1x64x1x128.ShapeCasts S1x64x1x128
  broadcasts_S1x64x1x128_S1x64x64x128 : S1x64x1x128.Broadcasts S1x64x64x128
  shapeCasts_S1x64x64x128_S1x4096x128 : S1x64x64x128.ShapeCasts S1x4096x128
  iota_S1x4096x128_d1_w32 : S1x4096x128.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)

variable [Facts₀]

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S_ : Shape := ⟨0, ![]⟩
abbrev S4096 : Shape := ⟨1, ![4096]⟩
abbrev S1x4096x1 : Shape := ⟨3, ![1, 4096, 1]⟩
abbrev S64x4096x128x1 : Shape := ⟨4, ![64, 4096, 128, 1]⟩
abbrev S1 : Shape := ⟨1, ![1]⟩
abbrev S1x1x1x1 : Shape := ⟨4, ![1, 1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S_, .f32⟩
  | .hbm, ⟨2, _⟩ => ⟨S64x4096x128, .f32⟩
  | .hbm, ⟨3, _⟩ => ⟨S64x4096x128, .i1⟩
  | .hbm, ⟨4, _⟩ => ⟨S4096, .i32⟩
  | .hbm, ⟨5, _⟩ => ⟨S1x4096x1, .i32⟩
  | .hbm, ⟨6, _⟩ => ⟨S_, .i32⟩
  | .hbm, ⟨7, _⟩ => ⟨S_, .i32⟩
  | .hbm, ⟨8, _⟩ => ⟨S64x4096x128, .i32⟩
  | .hbm, ⟨9, _⟩ => ⟨S64x4096x128, .i32⟩
  | .hbm, ⟨10, _⟩ => ⟨S64x4096x128, .i32⟩
  | .hbm, ⟨11, _⟩ => ⟨S_, .i32⟩
  | .hbm, ⟨12, _⟩ => ⟨S_, .i32⟩
  | .hbm, ⟨13, _⟩ => ⟨S64x4096x128, .i32⟩
  | .hbm, ⟨14, _⟩ => ⟨S_, .i32⟩
  | .hbm, ⟨15, _⟩ => ⟨S_, .i32⟩
  | .hbm, ⟨16, _⟩ => ⟨S64x4096x128, .i32⟩
  | .hbm, ⟨17, _⟩ => ⟨S64x4096x128, .i32⟩
  | .hbm, ⟨18, _⟩ => ⟨S64x4096x128, .i32⟩
  | .hbm, ⟨19, _⟩ => ⟨S_, .i32⟩
  | .hbm, ⟨20, _⟩ => ⟨S_, .i32⟩
  | .hbm, ⟨21, _⟩ => ⟨S64x4096x128, .i32⟩
  | .hbm, ⟨22, _⟩ => ⟨S_, .i32⟩
  | .hbm, ⟨23, _⟩ => ⟨S64x4096x128, .i32⟩
  | .hbm, ⟨24, _⟩ => ⟨S64x4096x128, .i32⟩
  | .hbm, ⟨25, _⟩ => ⟨S_, .i32⟩
  | .hbm, ⟨26, _⟩ => ⟨S64x4096x128, .i32⟩
  | .hbm, ⟨27, _⟩ => ⟨S64x4096x128, .i1⟩
  | .hbm, ⟨28, _⟩ => ⟨S_, .i32⟩
  | .hbm, ⟨29, _⟩ => ⟨S_, .i32⟩
  | .hbm, ⟨30, _⟩ => ⟨S64x4096x128, .i32⟩
  | .hbm, ⟨31, _⟩ => ⟨S64x4096x128, .i32⟩
  | .hbm, ⟨32, _⟩ => ⟨S_, .i32⟩
  | .hbm, ⟨33, _⟩ => ⟨S64x4096x128, .i32⟩
  | .hbm, ⟨34, _⟩ => ⟨S64x4096x128, .i1⟩
  | .hbm, ⟨35, _⟩ => ⟨S_, .i32⟩
  | .hbm, ⟨36, _⟩ => ⟨S64x4096x128, .i32⟩
  | .hbm, ⟨37, _⟩ => ⟨S64x4096x128, .i32⟩
  | .hbm, ⟨38, _⟩ => ⟨S64x4096x128, .i32⟩
  | .hbm, ⟨39, _⟩ => ⟨S64x4096x128x1, .i32⟩
  | .hbm, ⟨40, _⟩ => ⟨S1, .i32⟩
  | .hbm, ⟨41, _⟩ => ⟨S_, .i32⟩
  | .hbm, ⟨42, _⟩ => ⟨S64x4096x128x1, .i32⟩
  | .hbm, ⟨43, _⟩ => ⟨S64x4096x128x1, .i1⟩
  | .hbm, ⟨44, _⟩ => ⟨S1x1x1x1, .i32⟩
  | .hbm, ⟨45, _⟩ => ⟨S64x4096x128x1, .i32⟩
  | .hbm, ⟨46, _⟩ => ⟨S64x4096x128x1, .i1⟩
  | .hbm, ⟨47, _⟩ => ⟨S64x4096x128x1, .i1⟩
  | .hbm, ⟨48, _⟩ => ⟨S_, .i1⟩
  | .hbm, ⟨49, _⟩ => ⟨S64x4096x128, .i1⟩
  | .hbm, ⟨50, _⟩ => ⟨S64x4096x128, .f32⟩
  | .hbm, ⟨51, _⟩ => ⟨S_, .f32⟩
  | .hbm, ⟨52, _⟩ => ⟨S64x4096x128, .f32⟩
  | .hbm, ⟨53, _⟩ => ⟨S64x4096x128, .f32⟩
  | .hbm, ⟨54, _⟩ => ⟨S_, .i32⟩
  | .hbm, ⟨55, _⟩ => ⟨S64x4096x128, .i32⟩
  | .hbm, ⟨56, _⟩ => ⟨S64x4096x128, .i1⟩
  | .hbm, ⟨57, _⟩ => ⟨S_, .i32⟩
  | .hbm, ⟨58, _⟩ => ⟨S64x4096x128, .i32⟩
  | .hbm, ⟨59, _⟩ => ⟨S64x4096x128, .i32⟩
  | .hbm, ⟨60, _⟩ => ⟨S64x4096x128, .i32⟩
  | .hbm, ⟨61, _⟩ => ⟨S64x4096x128x1, .i32⟩
  | .hbm, ⟨62, _⟩ => ⟨S1, .i32⟩
  | .hbm, ⟨63, _⟩ => ⟨S_, .i32⟩
  | .hbm, ⟨64, _⟩ => ⟨S64x4096x128x1, .i32⟩
  | .hbm, ⟨65, _⟩ => ⟨S64x4096x128x1, .i1⟩
  | .hbm, ⟨66, _⟩ => ⟨S1x1x1x1, .i32⟩
  | .hbm, ⟨67, _⟩ => ⟨S64x4096x128x1, .i32⟩
  | .hbm, ⟨68, _⟩ => ⟨S64x4096x128x1, .i1⟩
  | .hbm, ⟨69, _⟩ => ⟨S64x4096x128x1, .i1⟩
  | .hbm, ⟨70, _⟩ => ⟨S_, .i1⟩
  | .hbm, ⟨71, _⟩ => ⟨S64x4096x128, .i1⟩
  | .hbm, ⟨72, _⟩ => ⟨S64x4096x128, .f32⟩
  | .hbm, ⟨73, _⟩ => ⟨S_, .f32⟩
  | .hbm, ⟨74, _⟩ => ⟨S64x4096x128, .f32⟩
  | .hbm, ⟨75, _⟩ => ⟨S64x4096x128, .f32⟩
  | .hbm, ⟨76, _⟩ => ⟨S64x4096x128, .i32⟩
  | .hbm, ⟨77, _⟩ => ⟨S_, .i32⟩
  | .hbm, ⟨78, _⟩ => ⟨S64x4096x128, .i32⟩
  | .hbm, ⟨79, _⟩ => ⟨S64x4096x128, .i32⟩
  | .hbm, ⟨80, _⟩ => ⟨S64x4096x128, .i32⟩
  | .hbm, ⟨81, _⟩ => ⟨S64x4096x128, .i32⟩
  | .hbm, ⟨82, _⟩ => ⟨S64x4096x128, .f32⟩
  | .hbm, ⟨83, _⟩ => ⟨S64x4096x128, .f32⟩
  | .hbm, ⟨84, _⟩ => ⟨S64x4096x128, .f32⟩
  | .hbm, ⟨85, _⟩ => ⟨S_, .i32⟩
  | .hbm, ⟨86, _⟩ => ⟨S64x4096x128, .i32⟩
  | .hbm, ⟨87, _⟩ => ⟨S64x4096x128, .i32⟩
  | .hbm, ⟨88, _⟩ => ⟨S64x4096x128, .f32⟩
  | .hbm, ⟨89, _⟩ => ⟨S64x4096x128, .f32⟩
  | .hbm, ⟨90, _⟩ => ⟨S64x4096x128, .f32⟩
  | .hbm, ⟨91, _⟩ => ⟨S_, .i32⟩
  | .hbm, ⟨92, _⟩ => ⟨S64x4096x128, .i32⟩
  | .hbm, ⟨93, _⟩ => ⟨S64x4096x128, .i1⟩
  | .hbm, ⟨94, _⟩ => ⟨S64x4096x128, .f32⟩
  | .hbm, ⟨95, _⟩ => ⟨S64x4096x128, .i1⟩
  | .hbm, ⟨96, _⟩ => ⟨S64x4096x128, .i1⟩
  | .hbm, ⟨97, _⟩ => ⟨S64x4096x128, .i32⟩
  | .hbm, ⟨98, _⟩ => ⟨S64x4096x128, .i1⟩
  | .hbm, ⟨99, _⟩ => ⟨S64x4096x128, .i1⟩
  | .hbm, ⟨100, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_v5 : Ref sig .tc := ⟨.hbm, 13, rfl⟩
abbrev main_c_0 : Ref sig .tc := ⟨.hbm, 14, rfl⟩
abbrev main_call2_v0 : Ref sig .tc := ⟨.hbm, 15, rfl⟩
abbrev main_call2_v1 : Ref sig .tc := ⟨.hbm, 16, rfl⟩
abbrev main_call2_v2 : Ref sig .tc := ⟨.hbm, 17, rfl⟩
abbrev main_v6 : Ref sig .tc := ⟨.hbm, 18, rfl⟩
abbrev main_call3_c : Ref sig .tc := ⟨.hbm, 19, rfl⟩
abbrev main_call3_v0 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_call4_v0 : Ref sig .tc := ⟨.hbm, 29, rfl⟩
abbrev main_call4_v1 : Ref sig .tc := ⟨.hbm, 30, rfl⟩
abbrev main_v12 : Ref sig .tc := ⟨.hbm, 31, rfl⟩
abbrev main_call5_c : Ref sig .tc := ⟨.hbm, 32, rfl⟩
abbrev main_call5_v0 : Ref sig .tc := ⟨.hbm, 33, rfl⟩
abbrev main_call5_v1 : Ref sig .tc := ⟨.hbm, 34, rfl⟩
abbrev main_call5_c_0 : Ref sig .tc := ⟨.hbm, 35, rfl⟩
abbrev main_call5_v2 : Ref sig .tc := ⟨.hbm, 36, rfl⟩
abbrev main_call5_v3 : Ref sig .tc := ⟨.hbm, 37, rfl⟩
abbrev main_call5_v4 : Ref sig .tc := ⟨.hbm, 38, rfl⟩
abbrev main_call5_v5 : Ref sig .tc := ⟨.hbm, 39, rfl⟩
abbrev main_call5_c_1 : Ref sig .tc := ⟨.hbm, 40, rfl⟩
abbrev main_call5_c_2 : Ref sig .tc := ⟨.hbm, 41, rfl⟩
abbrev main_call5_v6 : Ref sig .tc := ⟨.hbm, 42, rfl⟩
abbrev main_call5_v7 : Ref sig .tc := ⟨.hbm, 43, rfl⟩
abbrev main_call5_v8 : Ref sig .tc := ⟨.hbm, 44, rfl⟩
abbrev main_call5_v9 : Ref sig .tc := ⟨.hbm, 45, rfl⟩
abbrev main_call5_v10 : Ref sig .tc := ⟨.hbm, 46, rfl⟩
abbrev main_call5_v11 : Ref sig .tc := ⟨.hbm, 47, rfl⟩
abbrev main_call5_c_3 : Ref sig .tc := ⟨.hbm, 48, rfl⟩
abbrev main_call5_v12 : Ref sig .tc := ⟨.hbm, 49, rfl⟩
abbrev main_call5_v13 : Ref sig .tc := ⟨.hbm, 50, rfl⟩
abbrev main_call5_cst : Ref sig .tc := ⟨.hbm, 51, rfl⟩
abbrev main_call5_v14 : Ref sig .tc := ⟨.hbm, 52, rfl⟩
abbrev main_v13 : Ref sig .tc := ⟨.hbm, 53, rfl⟩
abbrev main_call6_c : Ref sig .tc := ⟨.hbm, 54, rfl⟩
abbrev main_call6_v0 : Ref sig .tc := ⟨.hbm, 55, rfl⟩
abbrev main_call6_v1 : Ref sig .tc := ⟨.hbm, 56, rfl⟩
abbrev main_call6_c_0 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_call6_v5 : Ref sig .tc := ⟨.hbm, 61, rfl⟩
abbrev main_call6_c_1 : Ref sig .tc := ⟨.hbm, 62, rfl⟩
abbrev main_call6_c_2 : Ref sig .tc := ⟨.hbm, 63, rfl⟩
abbrev main_call6_v6 : Ref sig .tc := ⟨.hbm, 64, rfl⟩
abbrev main_call6_v7 : Ref sig .tc := ⟨.hbm, 65, rfl⟩
abbrev main_call6_v8 : Ref sig .tc := ⟨.hbm, 66, rfl⟩
abbrev main_call6_v9 : Ref sig .tc := ⟨.hbm, 67, rfl⟩
abbrev main_call6_v10 : Ref sig .tc := ⟨.hbm, 68, rfl⟩
abbrev main_call6_v11 : Ref sig .tc := ⟨.hbm, 69, rfl⟩
abbrev main_call6_c_3 : Ref sig .tc := ⟨.hbm, 70, rfl⟩
abbrev main_call6_v12 : Ref sig .tc := ⟨.hbm, 71, rfl⟩
abbrev main_call6_v13 : Ref sig .tc := ⟨.hbm, 72, rfl⟩
abbrev main_call6_cst : Ref sig .tc := ⟨.hbm, 73, rfl⟩
abbrev main_call6_v14 : Ref sig .tc := ⟨.hbm, 74, rfl⟩
abbrev main_v14 : Ref sig .tc := ⟨.hbm, 75, rfl⟩
abbrev main_v15 : Ref sig .tc := ⟨.hbm, 76, rfl⟩
abbrev main_c_4 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_c_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_c_6 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩

abbrev nD : Nat := 1
abbrev τ : Topo := Topo.v7x

variable {F : FTy → Type} [FloatOps F]

class Facts₀ : Prop where
  bcast_S_S64x4096x128 : S_.BroadcastsInDim S64x4096x128 (![] : Fin 0 → Fin S64x4096x128.rank)
  bcast_S4096_S1x4096x1_1 : S4096.BroadcastsInDim S1x4096x1 (![1] : Fin 1 → Fin S1x4096x1.rank)
  bcast_S1x4096x1_S64x4096x128_0_1_2 : S1x4096x1.BroadcastsInDim S64x4096x128 (![0, 1, 2] : Fin 3 → Fin S64x4096x128.rank)
  bcast_S_S_ : S_.BroadcastsInDim S_ (![] : Fin 0 → Fin S_.rank)
  reduceWindows_S64x4096x128_S64x4096x128_w1s1p0_0_w4096s1p4095_0_w1s1p0_0 : S64x4096x128.ReduceWindows (![1, 4096, 1] : Fin 3 → Nat) ![1, 1, 1] ![0, 4095, 0] ![0, 0, 0] S64x4096x128
  h_S_ : 0 < S_.numel
  reduceWindows_S64x4096x128_S64x4096x128_w1s1p0_0_w4096s1p0_4095_w1s1p0_0 : S64x4096x128.ReduceWindows (![1, 4096, 1] : Fin 3 → Nat) ![1, 1, 1] ![0, 0, 0] ![0, 4095, 0] S64x4096x128
  shapeCasts_S64x4096x128_S64x4096x128x1 : S64x4096x128.ShapeCasts S64x4096x128x1
  bcast_S_S64x4096x128x1 : S_.BroadcastsInDim S64x4096x128x1 (![] : Fin 0 → Fin S64x4096x128x1.rank)
  bcast_S1_S1x1x1x1_3 : S1.BroadcastsInDim S1x1x1x1 (![3] : Fin 1 → Fin S1x1x1x1.rank)
  bcast_S1x1x1x1_S64x4096x128x1_0_1_2_3 : S1x1x1x1.BroadcastsInDim S64x4096x128x1 (![0, 1, 2, 3] : Fin 4 → Fin S64x4096x128x1.rank)
  reducesTo_S64x4096x128x1_S64x4096x128_d3 : S64x4096x128x1.ReducesTo [3] S64x4096x128
  gather_S64x4096x128_S64x4096x128x1_S64x4096x128_n_1_02_02_1_3_111_wf : GatherDims.WF S64x4096x128 S64x4096x128x1 S64x4096x128 [] [1] [0, 2] [1] [0, 2] 3 ![1, 1, 1]

variable [Facts₀]

def gather_S64x4096x128_S64x4096x128x1_S64x4096x128_n_1_02_02_1_3_111 : GatherDims S64x4096x128 S64x4096x128x1 S64x4096x128 where
  offsetDims := []
  collapsedSliceDims := [1]
  operandBatchingDims := [0, 2]
  startIndicesBatchingDims := [0, 2]
  startIndexMap := [1]
  indexVectorDim := 3
  sliceSizes := ![1, 1, 1]
  wf := gather_S64x4096x128_S64x4096x128x1_S64x4096x128_n_1_02_02_1_3_111_wf

class Facts : Prop extends Facts₀ where

variable [Facts]
-- ==== Proof.RefRun.lean ====
/-
  The reference program's run. Its @main is a straight line of one hundred host operations (the operations of the
  functions it calls standing at their calls). Every weakly fair execution terminates with each buffer at the fold of
  the operations over the launch contents; read at the result buffer that fold is the last stage of RefRead (each
  operation writes its function of its operands' buffers to its own buffer and leaves every other buffer alone), and
  read at the argument buffer it is the argument, which no operation writes.
  The operations are listed twice: as the program spells them (an operation inside a called function names its
  buffers through typed references, whose transports are identities here) and over plain references; the two lists
  are equal, @main is the sequence of the first, and the folds are read off the second.
-/
import proofs.«130921_j29815662968985_2_alg».proof.Proof.Gen.ReferenceIdeal
import proofs.«130921_j29815662968985_2_alg».proof.Proof.RefRead
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 100 operations, in order (a called function's operations stand in its call's place, spelt `TRef.…`). -/
abbrev ops : List (HloOp τ sig (Elt F)) :=
  [ nullary main_cst (constant S_ .f32 0x00000000#32),
    unary main_cst main_v0 (broadcastInDim S64x4096x128 ![] bcast_S_S64x4096x128 : (⟨S_, .f32⟩ : BufTy).Contents (Elt F) → (⟨S64x4096x128, .f32⟩ : BufTy).Contents (Elt F)),
    binary main_arg0 main_v0 main_v1 (cmpf .une : (⟨S64x4096x128, .f32⟩ : BufTy).Contents (Elt F) → (⟨S64x4096x128, .f32⟩ : BufTy).Contents (Elt F) → (⟨S64x4096x128, .i1⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    nullary main_c (constantI S_ 32 4294967295#32),
    TRef.unary (TRef.of (T := ⟨S_, .i32⟩) main_c) (TRef.of (T := ⟨S_, .i32⟩) main_call0_v0) id,
    TRef.unary (TRef.of (T := ⟨S1x4096x1, .i32⟩) main_v3) (TRef.of (T := ⟨S64x4096x128, .i32⟩) main_call0_v1) (broadcastInDim S64x4096x128 ![0, 1, 2] bcast_S1x4096x1_S64x4096x128_0_1_2),
    TRef.unary (TRef.of (T := ⟨S_, .i32⟩) main_call0_v0) (TRef.of (T := ⟨S64x4096x128, .i32⟩) main_call0_v2) (broadcastInDim S64x4096x128 ![] bcast_S_S64x4096x128),
    TRef.ternary (TRef.of (T := ⟨S64x4096x128, .i1⟩) main_v1) (TRef.of (T := ⟨S64x4096x128, .i32⟩) main_call0_v1) (TRef.of (T := ⟨S64x4096x128, .i32⟩) main_call0_v2) (TRef.of (T := ⟨S64x4096x128, .i32⟩) main_v4) select,
    TRef.nullary (TRef.of (T := ⟨S_, .i32⟩) main_call1_c) (constantI S_ 32 2147483648#32),
    TRef.unary (TRef.of (T := ⟨S_, .i32⟩) main_call1_c) (TRef.of (T := ⟨S_, .i32⟩) main_call1_v0) (broadcastInDim S_ ![] bcast_S_S_),
    TRef.binary (TRef.of (T := ⟨S64x4096x128, .i32⟩) main_v4) (TRef.of (T := ⟨S_, .i32⟩) main_call1_v0) (TRef.of (T := ⟨S64x4096x128, .i32⟩) main_v5) (fun x v => Host.reduceWindow IntOp.maxsi ![1, 4096, 1] ![1, 1, 1] ![0, 4095, 0] ![0, 0, 0] x v reduceWindows_S64x4096x128_S64x4096x128_w1s1p0_0_w4096s1p4095_0_w1s1p0_0 h_S_),
    nullary main_c_0 (constantI S_ 32 4096#32),
    TRef.unary (TRef.of (T := ⟨S_, .i32⟩) main_c_0) (TRef.of (T := ⟨S_, .i32⟩) main_call2_v0) id,
    TRef.unary (TRef.of (T := ⟨S1x4096x1, .i32⟩) main_v3) (TRef.of (T := ⟨S64x4096x128, .i32⟩) main_call2_v1) (broadcastInDim S64x4096x128 ![0, 1, 2] bcast_S1x4096x1_S64x4096x128_0_1_2),
    TRef.unary (TRef.of (T := ⟨S_, .i32⟩) main_call2_v0) (TRef.of (T := ⟨S64x4096x128, .i32⟩) main_call2_v2) (broadcastInDim S64x4096x128 ![] bcast_S_S64x4096x128),
    TRef.ternary (TRef.of (T := ⟨S64x4096x128, .i1⟩) main_v1) (TRef.of (T := ⟨S64x4096x128, .i32⟩) main_call2_v1) (TRef.of (T := ⟨S64x4096x128, .i32⟩) main_call2_v2) (TRef.of (T := ⟨S64x4096x128, .i32⟩) main_v6) select,
    TRef.nullary (TRef.of (T := ⟨S_, .i32⟩) main_call3_c) (constantI S_ 32 2147483647#32),
    TRef.unary (TRef.of (T := ⟨S_, .i32⟩) main_call3_c) (TRef.of (T := ⟨S_, .i32⟩) main_call3_v0) (broadcastInDim S_ ![] bcast_S_S_),
    TRef.binary (TRef.of (T := ⟨S64x4096x128, .i32⟩) main_v6) (TRef.of (T := ⟨S_, .i32⟩) main_call3_v0) (TRef.of (T := ⟨S64x4096x128, .i32⟩) main_v7) (fun x v => Host.reduceWindow IntOp.minsi ![1, 4096, 1] ![1, 1, 1] ![0, 0, 0] ![0, 4095, 0] x v reduceWindows_S64x4096x128_S64x4096x128_w1s1p0_0_w4096s1p0_4095_w1s1p0_0 h_S_),
    nullary main_c_1 (constantI S_ 32 0#32),
    unary main_c_1 main_v8 (broadcastInDim S64x4096x128 ![] bcast_S_S64x4096x128 : (⟨S_, .i32⟩ : BufTy).Contents (Elt F) → (⟨S64x4096x128, .i32⟩ : BufTy).Contents (Elt F)),
    binary main_v5 main_v8 main_v9 (maxsi : (⟨S64x4096x128, .i32⟩ : BufTy).Contents (Elt F) → (⟨S64x4096x128, .i32⟩ : BufTy).Contents (Elt F) → (⟨S64x4096x128, .i32⟩ : BufTy).Contents (Elt F)),
    nullary main_c_2 (constantI S_ 32 4096#32),
    unary main_c_2 main_v10 (broadcastInDim S64x4096x128 ![] bcast_S_S64x4096x128 : (⟨S_, .i32⟩ : BufTy).Contents (Elt F) → (⟨S64x4096x128, .i32⟩ : BufTy).Contents (Elt F)),
    binary main_v7 main_v10 main_v11 (cmpi .slt : (⟨S64x4096x128, .i32⟩ : BufTy).Contents (Elt F) → (⟨S64x4096x128, .i32⟩ : BufTy).Contents (Elt F) → (⟨S64x4096x128, .i1⟩ : BufTy).Contents (Elt F)),
    nullary main_c_3 (constantI S_ 32 4095#32),
    TRef.unary (TRef.of (T := ⟨S_, .i32⟩) main_c_3) (TRef.of (T := ⟨S_, .i32⟩) main_call4_v0) id,
    TRef.unary (TRef.of (T := ⟨S_, .i32⟩) main_call4_v0) (TRef.of (T := ⟨S64x4096x128, .i32⟩) main_call4_v1) (broadcastInDim S64x4096x128 ![] bcast_S_S64x4096x128),
    TRef.ternary (TRef.of (T := ⟨S64x4096x128, .i1⟩) main_v11) (TRef.of (T := ⟨S64x4096x128, .i32⟩) main_v7) (TRef.of (T := ⟨S64x4096x128, .i32⟩) main_call4_v1) (TRef.of (T := ⟨S64x4096x128, .i32⟩) main_v12) select,
    TRef.nullary (TRef.of (T := ⟨S_, .i32⟩) main_call5_c) (constantI S_ 32 0#32),
    TRef.unary (TRef.of (T := ⟨S_, .i32⟩) main_call5_c) (TRef.of (T := ⟨S64x4096x128, .i32⟩) main_call5_v0) (broadcastInDim S64x4096x128 ![] bcast_S_S64x4096x128),
    TRef.binary (TRef.of (T := ⟨S64x4096x128, .i32⟩) main_v9) (TRef.of (T := ⟨S64x4096x128, .i32⟩) main_call5_v0) (TRef.of (T := ⟨S64x4096x128, .i1⟩) main_call5_v1) (cmpi .slt),
    TRef.nullary (TRef.of (T := ⟨S_, .i32⟩) main_call5_c_0) (constantI S_ 32 4096#32),
    TRef.unary (TRef.of (T := ⟨S_, .i32⟩) main_call5_c_0) (TRef.of (T := ⟨S64x4096x128, .i32⟩) main_call5_v2) (broadcastInDim S64x4096x128 ![] bcast_S_S64x4096x128),
    TRef.binary (TRef.of (T := ⟨S64x4096x128, .i32⟩) main_v9) (TRef.of (T := ⟨S64x4096x128, .i32⟩) main_call5_v2) (TRef.of (T := ⟨S64x4096x128, .i32⟩) main_call5_v3) addi,
    TRef.ternary (TRef.of (T := ⟨S64x4096x128, .i1⟩) main_call5_v1) (TRef.of (T := ⟨S64x4096x128, .i32⟩) main_call5_v3) (TRef.of (T := ⟨S64x4096x128, .i32⟩) main_v9) (TRef.of (T := ⟨S64x4096x128, .i32⟩) main_call5_v4) select,
    TRef.reshape (TRef.of (T := ⟨S64x4096x128, .i32⟩) main_call5_v4) (TRef.of (T := ⟨S64x4096x128x1, .i32⟩) main_call5_v5) rfl shapeCasts_S64x4096x128_S64x4096x128x1,
    TRef.nullary (TRef.of (T := ⟨S1, .i32⟩) main_call5_c_1) (constantI S1 32 4095#32),
    TRef.nullary (TRef.of (T := ⟨S_, .i32⟩) main_call5_c_2) (constantI S_ 32 0#32),
    TRef.unary (TRef.of (T := ⟨S_, .i32⟩) main_call5_c_2) (TRef.of (T := ⟨S64x4096x128x1, .i32⟩) main_call5_v6) (broadcastInDim S64x4096x128x1 ![] bcast_S_S64x4096x128x1),
    TRef.binary (TRef.of (T := ⟨S64x4096x128x1, .i32⟩) main_call5_v5) (TRef.of (T := ⟨S64x4096x128x1, .i32⟩) main_call5_v6) (TRef.of (T := ⟨S64x4096x128x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S64x4096x128x1, .i32⟩) main_call5_v9) (broadcastInDim S64x4096x128x1 ![0, 1, 2, 3] bcast_S1x1x1x1_S64x4096x128x1_0_1_2_3),
    TRef.binary (TRef.of (T := ⟨S64x4096x128x1, .i32⟩) main_call5_v5) (TRef.of (T := ⟨S64x4096x128x1, .i32⟩) main_call5_v9) (TRef.of (T := ⟨S64x4096x128x1, .i1⟩) main_call5_v10) (cmpi .sle),
    TRef.binary (TRef.of (T := ⟨S64x4096x128x1, .i1⟩) main_call5_v7) (TRef.of (T := ⟨S64x4096x128x1, .i1⟩) main_call5_v10) (TRef.of (T := ⟨S64x4096x128x1, .i1⟩) main_call5_v11) andi,
    TRef.nullary (TRef.of (T := ⟨S_, .i1⟩) main_call5_c_3) (constantI S_ 1 1#1),
    TRef.binary (TRef.of (T := ⟨S64x4096x128x1, .i1⟩) main_call5_v11) (TRef.of (T := ⟨S_, .i1⟩) main_call5_c_3) (TRef.of (T := ⟨S64x4096x128, .i1⟩) main_call5_v12) (fun x v => Host.reduce IntOp.andi x v reducesTo_S64x4096x128x1_S64x4096x128_d3 h_S_),
    TRef.binary (TRef.of (T := ⟨S64x4096x128, .f32⟩) main_arg0) (TRef.of (T := ⟨S64x4096x128x1, .i32⟩) main_call5_v5) (TRef.of (T := ⟨S64x4096x128, .f32⟩) main_call5_v13) (fun x i => Host.gather gather_S64x4096x128_S64x4096x128x1_S64x4096x128_n_1_02_02_1_3_111 x i),
    TRef.nullary (TRef.of (T := ⟨S_, .f32⟩) main_call5_cst) (constant S_ .f32 0x7FC00000#32),
    TRef.unary (TRef.of (T := ⟨S_, .f32⟩) main_call5_cst) (TRef.of (T := ⟨S64x4096x128, .f32⟩) main_call5_v14) (broadcastInDim S64x4096x128 ![] bcast_S_S64x4096x128),
    TRef.ternary (TRef.of (T := ⟨S64x4096x128, .i1⟩) main_call5_v12) (TRef.of (T := ⟨S64x4096x128, .f32⟩) main_call5_v13) (TRef.of (T := ⟨S64x4096x128, .f32⟩) main_call5_v14) (TRef.of (T := ⟨S64x4096x128, .f32⟩) main_v13) select,
    TRef.nullary (TRef.of (T := ⟨S_, .i32⟩) main_call6_c) (constantI S_ 32 0#32),
    TRef.unary (TRef.of (T := ⟨S_, .i32⟩) main_call6_c) (TRef.of (T := ⟨S64x4096x128, .i32⟩) main_call6_v0) (broadcastInDim S64x4096x128 ![] bcast_S_S64x4096x128),
    TRef.binary (TRef.of (T := ⟨S64x4096x128, .i32⟩) main_v12) (TRef.of (T := ⟨S64x4096x128, .i32⟩) main_call6_v0) (TRef.of (T := ⟨S64x4096x128, .i1⟩) main_call6_v1) (cmpi .slt),
    TRef.nullary (TRef.of (T := ⟨S_, .i32⟩) main_call6_c_0) (constantI S_ 32 4096#32),
    TRef.unary (TRef.of (T := ⟨S_, .i32⟩) main_call6_c_0) (TRef.of (T := ⟨S64x4096x128, .i32⟩) main_call6_v2) (broadcastInDim S64x4096x128 ![] bcast_S_S64x4096x128),
    TRef.binary (TRef.of (T := ⟨S64x4096x128, .i32⟩) main_v12) (TRef.of (T := ⟨S64x4096x128, .i32⟩) main_call6_v2) (TRef.of (T := ⟨S64x4096x128, .i32⟩) main_call6_v3) addi,
    TRef.ternary (TRef.of (T := ⟨S64x4096x128, .i1⟩) main_call6_v1) (TRef.of (T := ⟨S64x4096x128, .i32⟩) main_call6_v3) (TRef.of (T := ⟨S64x4096x128, .i32⟩) main_v12) (TRef.of (T := ⟨S64x4096x128, .i32⟩) main_call6_v4) select,
    TRef.reshape (TRef.of (T := ⟨S64x4096x128, .i32⟩) main_call6_v4) (TRef.of (T := ⟨S64x4096x128x1, .i32⟩) main_call6_v5) rfl shapeCasts_S64x4096x128_S64x4096x128x1,
    TRef.nullary (TRef.of (T := ⟨S1, .i32⟩) main_call6_c_1) (constantI S1 32 4095#32),
    TRef.nullary (TRef.of (T := ⟨S_, .i32⟩) main_call6_c_2) (constantI S_ 32 0#32),
    TRef.unary (TRef.of (T := ⟨S_, .i32⟩) main_call6_c_2) (TRef.of (T := ⟨S64x4096x128x1, .i32⟩) main_call6_v6) (broadcastInDim S64x4096x128x1 ![] bcast_S_S64x4096x128x1),
    TRef.binary (TRef.of (T := ⟨S64x4096x128x1, .i32⟩) main_call6_v5) (TRef.of (T := ⟨S64x4096x128x1, .i32⟩) main_call6_v6) (TRef.of (T := ⟨S64x4096x128x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S64x4096x128x1, .i32⟩) main_call6_v9) (broadcastInDim S64x4096x128x1 ![0, 1, 2, 3] bcast_S1x1x1x1_S64x4096x128x1_0_1_2_3),
    TRef.binary (TRef.of (T := ⟨S64x4096x128x1, .i32⟩) main_call6_v5) (TRef.of (T := ⟨S64x4096x128x1, .i32⟩) main_call6_v9) (TRef.of (T := ⟨S64x4096x128x1, .i1⟩) main_call6_v10) (cmpi .sle),
    TRef.binary (TRef.of (T := ⟨S64x4096x128x1, .i1⟩) main_call6_v7) (TRef.of (T := ⟨S64x4096x128x1, .i1⟩) main_call6_v10) (TRef.of (T := ⟨S64x4096x128x1, .i1⟩) main_call6_v11) andi,
    TRef.nullary (TRef.of (T := ⟨S_, .i1⟩) main_call6_c_3) (constantI S_ 1 1#1),
    TRef.binary (TRef.of (T := ⟨S64x4096x128x1, .i1⟩) main_call6_v11) (TRef.of (T := ⟨S_, .i1⟩) main_call6_c_3) (TRef.of (T := ⟨S64x4096x128, .i1⟩) main_call6_v12) (fun x v => Host.reduce IntOp.andi x v reducesTo_S64x4096x128x1_S64x4096x128_d3 h_S_),
    TRef.binary (TRef.of (T := ⟨S64x4096x128, .f32⟩) main_arg0) (TRef.of (T := ⟨S64x4096x128x1, .i32⟩) main_call6_v5) (TRef.of (T := ⟨S64x4096x128, .f32⟩) main_call6_v13) (fun x i => Host.gather gather_S64x4096x128_S64x4096x128x1_S64x4096x128_n_1_02_02_1_3_111 x i),
    TRef.nullary (TRef.of (T := ⟨S_, .f32⟩) main_call6_cst) (constant S_ .f32 0x7FC00000#32),
    TRef.unary (TRef.of (T := ⟨S_, .f32⟩) main_call6_cst) (TRef.of (T := ⟨S64x4096x128, .f32⟩) main_call6_v14) (broadcastInDim S64x4096x128 ![] bcast_S_S64x4096x128),
    TRef.ternary (TRef.of (T := ⟨S64x4096x128, .i1⟩) main_call6_v12) (TRef.of (T := ⟨S64x4096x128, .f32⟩) main_call6_v13) (TRef.of (T := ⟨S64x4096x128, .f32⟩) main_call6_v14) (TRef.of (T := ⟨S64x4096x128, .f32⟩) main_v14) select,
    binary main_v12 main_v9 main_v15 (subi : (⟨S64x4096x128, .i32⟩ : BufTy).Contents (Elt F) → (⟨S64x4096x128, .i32⟩ : BufTy).Contents (Elt F) → (⟨S64x4096x128, .i32⟩ : BufTy).Contents (Elt F)),
    nullary main_c_4 (constantI S_ 32 1#32),
    unary main_c_4 main_v16 (broadcastInDim S64x4096x128 ![] bcast_S_S64x4096x128 : (⟨S_, .i32⟩ : BufTy).Contents (Elt F) → (⟨S64x4096x128, .i32⟩ : BufTy).Contents (Elt F)),
    binary main_v15 main_v16 main_v17 (subi : (⟨S64x4096x128, .i32⟩ : BufTy).Contents (Elt F) → (⟨S64x4096x128, .i32⟩ : BufTy).Contents (Elt F) → (⟨S64x4096x128, .i32⟩ : BufTy).Contents (Elt F)),
    unary main_v3 main_v18 (broadcastInDim S64x4096x128 ![0, 1, 2] bcast_S1x4096x1_S64x4096x128_0_1_2 : (⟨S1x4096x1, .i32⟩ : BufTy).Contents (Elt F) → (⟨S64x4096x128, .i32⟩ : BufTy).Contents (Elt F)),
    binary main_v18 main_v9 main_v19 (subi : (⟨S64x4096x128, .i32⟩ : BufTy).Contents (Elt F) → (⟨S64x4096x128, .i32⟩ : BufTy).Contents (Elt F) → (⟨S64x4096x128, .i32⟩ : BufTy).Contents (Elt F)),
    unary main_v19 main_v20 (sitofp .f32 : (⟨S64x4096x128, .i32⟩ : BufTy).Contents (Elt F) → (⟨S64x4096x128, .f32⟩ : BufTy).Contents (Elt F)),
    binary main_v14 main_v13 main_v21 (subf : (⟨S64x4096x128, .f32⟩ : BufTy).Contents (Elt F) → (⟨S64x4096x128, .f32⟩ : BufTy).Contents (Elt F) → (⟨S64x4096x128, .f32⟩ : BufTy).Contents (Elt F)),
    binary main_v20 main_v21 main_v22 (mulf : (⟨S64x4096x128, .f32⟩ : BufTy).Contents (Elt F) → (⟨S64x4096x128, .f32⟩ : BufTy).Contents (Elt F) → (⟨S64x4096x128, .f32⟩ : BufTy).Contents (Elt F)),
    nullary main_c_5 (constantI S_ 32 1#32),
    unary main_c_5 main_v23 (broadcastInDim S64x4096x128 ![] bcast_S_S64x4096x128 : (⟨S_, .i32⟩ : BufTy).Contents (Elt F) → (⟨S64x4096x128, .i32⟩ : BufTy).Contents (Elt F)),
    binary main_v17 main_v23 main_v24 (maxsi : (⟨S64x4096x128, .i32⟩ : BufTy).Contents (Elt F) → (⟨S64x4096x128, .i32⟩ : BufTy).Contents (Elt F) → (⟨S64x4096x128, .i32⟩ : BufTy).Contents (Elt F)),
    unary main_v24 main_v25 (sitofp .f32 : (⟨S64x4096x128, .i32⟩ : BufTy).Contents (Elt F) → (⟨S64x4096x128, .f32⟩ : BufTy).Contents (Elt F)),
    binary main_v22 main_v25 main_v26 (Host.divf : (⟨S64x4096x128, .f32⟩ : BufTy).Contents (Elt F) → (⟨S64x4096x128, .f32⟩ : BufTy).Contents (Elt F) → (⟨S64x4096x128, .f32⟩ : BufTy).Contents (Elt F)),
    binary main_v13 main_v26 main_v27 (addf : (⟨S64x4096x128, .f32⟩ : BufTy).Contents (Elt F) → (⟨S64x4096x128, .f32⟩ : BufTy).Contents (Elt F) → (⟨S64x4096x128, .f32⟩ : BufTy).Contents (Elt F)),
    nullary main_c_6 (constantI S_ 32 0#32),
    unary main_c_6 main_v28 (broadcastInDim S64x4096x128 ![] bcast_S_S64x4096x128 : (⟨S_, .i32⟩ : BufTy).Contents (Elt F) → (⟨S64x4096x128, .i32⟩ : BufTy).Contents (Elt F)),
    binary main_v17 main_v28 main_v29 (cmpi .sgt : (⟨S64x4096x128, .i32⟩ : BufTy).Contents (Elt F) → (⟨S64x4096x128, .i32⟩ : BufTy).Contents (Elt F) → (⟨S64x4096x128, .i1⟩ : BufTy).Contents (Elt F)),
    TRef.ternary (TRef.of (T := ⟨S64x4096x128, .i1⟩) main_v29) (TRef.of (T := ⟨S64x4096x128, .f32⟩) main_v27) (TRef.of (T := ⟨S64x4096x128, .f32⟩) main_v13) (TRef.of (T := ⟨S64x4096x128, .f32⟩) main_v30) select,
    binary main_v9 main_v12 main_v31 (cmpi .sge : (⟨S64x4096x128, .i32⟩ : BufTy).Contents (Elt F) → (⟨S64x4096x128, .i32⟩ : BufTy).Contents (Elt F) → (⟨S64x4096x128, .i1⟩ : BufTy).Contents (Elt F)),
    binary main_v1 main_v31 main_v32 (ori : (⟨S64x4096x128, .i1⟩ : BufTy).Contents (Elt F) → (⟨S64x4096x128, .i1⟩ : BufTy).Contents (Elt F) → (⟨S64x4096x128, .i1⟩ : BufTy).Contents (Elt F)),
    unary main_v3 main_v33 (broadcastInDim S64x4096x128 ![0, 1, 2] bcast_S1x4096x1_S64x4096x128_0_1_2 : (⟨S1x4096x1, .i32⟩ : BufTy).Contents (Elt F) → (⟨S64x4096x128, .i32⟩ : BufTy).Contents (Elt F)),
    binary main_v33 main_v12 main_v34 (cmpi .sge : (⟨S64x4096x128, .i32⟩ : BufTy).Contents (Elt F) → (⟨S64x4096x128, .i32⟩ : BufTy).Contents (Elt F) → (⟨S64x4096x128, .i1⟩ : BufTy).Contents (Elt F)),
    binary main_v32 main_v34 main_v35 (ori : (⟨S64x4096x128, .i1⟩ : BufTy).Contents (Elt F) → (⟨S64x4096x128, .i1⟩ : BufTy).Contents (Elt F) → (⟨S64x4096x128, .i1⟩ : BufTy).Contents (Elt F)),
    TRef.ternary (TRef.of (T := ⟨S64x4096x128, .i1⟩) main_v35) (TRef.of (T := ⟨S64x4096x128, .f32⟩) main_arg0) (TRef.of (T := ⟨S64x4096x128, .f32⟩) main_v30) (TRef.of (T := ⟨S64x4096x128, .f32⟩) main_v36) select ]

/-- The same operations over plain references. -/
abbrev opsP : List (HloOp τ sig (Elt F)) :=
  [ nullary main_cst (constant S_ .f32 0x00000000#32),
    unary main_cst main_v0 (broadcastInDim S64x4096x128 ![] bcast_S_S64x4096x128 : (⟨S_, .f32⟩ : BufTy).Contents (Elt F) → (⟨S64x4096x128, .f32⟩ : BufTy).Contents (Elt F)),
    binary main_arg0 main_v0 main_v1 (cmpf .une : (⟨S64x4096x128, .f32⟩ : BufTy).Contents (Elt F) → (⟨S64x4096x128, .f32⟩ : BufTy).Contents (Elt F) → (⟨S64x4096x128, .i1⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    nullary main_c (constantI S_ 32 4294967295#32),
    unary main_c main_call0_v0 (id : (⟨S_, .i32⟩ : BufTy).Contents (Elt F) → (⟨S_, .i32⟩ : BufTy).Contents (Elt F)),
    unary main_v3 main_call0_v1 ((broadcastInDim S64x4096x128 ![0, 1, 2] bcast_S1x4096x1_S64x4096x128_0_1_2) : (⟨S1x4096x1, .i32⟩ : BufTy).Contents (Elt F) → (⟨S64x4096x128, .i32⟩ : BufTy).Contents (Elt F)),
    unary main_call0_v0 main_call0_v2 ((broadcastInDim S64x4096x128 ![] bcast_S_S64x4096x128) : (⟨S_, .i32⟩ : BufTy).Contents (Elt F) → (⟨S64x4096x128, .i32⟩ : BufTy).Contents (Elt F)),
    ternary main_v1 main_call0_v1 main_call0_v2 main_v4 (select : (⟨S64x4096x128, .i1⟩ : BufTy).Contents (Elt F) → (⟨S64x4096x128, .i32⟩ : BufTy).Contents (Elt F) → (⟨S64x4096x128, .i32⟩ : BufTy).Contents (Elt F) → (⟨S64x4096x128, .i32⟩ : BufTy).Contents (Elt F)),
    nullary main_call1_c ((constantI S_ 32 2147483648#32) : (⟨S_, .i32⟩ : BufTy).Contents (Elt F)),
    unary main_call1_c main_call1_v0 ((broadcastInDim S_ ![] bcast_S_S_) : (⟨S_, .i32⟩ : BufTy).Contents (Elt F) → (⟨S_, .i32⟩ : BufTy).Contents (Elt F)),
    binary main_v4 main_call1_v0 main_v5 ((fun x v => Host.reduceWindow IntOp.maxsi ![1, 4096, 1] ![1, 1, 1] ![0, 4095, 0] ![0, 0, 0] x v reduceWindows_S64x4096x128_S64x4096x128_w1s1p0_0_w4096s1p4095_0_w1s1p0_0 h_S_) : (⟨S64x4096x128, .i32⟩ : BufTy).Contents (Elt F) → (⟨S_, .i32⟩ : BufTy).Contents (Elt F) → (⟨S64x4096x128, .i32⟩ : BufTy).Contents (Elt F)),
    nullary main_c_0 (constantI S_ 32 4096#32),
    unary main_c_0 main_call2_v0 (id : (⟨S_, .i32⟩ : BufTy).Contents (Elt F) → (⟨S_, .i32⟩ : BufTy).Contents (Elt F)),
    unary main_v3 main_call2_v1 ((broadcastInDim S64x4096x128 ![0, 1, 2] bcast_S1x4096x1_S64x4096x128_0_1_2) : (⟨S1x4096x1, .i32⟩ : BufTy).Contents (Elt F) → (⟨S64x4096x128, .i32⟩ : BufTy).Contents (Elt F)),
    unary main_call2_v0 main_call2_v2 ((broadcastInDim S64x4096x128 ![] bcast_S_S64x4096x128) : (⟨S_, .i32⟩ : BufTy).Contents (Elt F) → (⟨S64x4096x128, .i32⟩ : BufTy).Contents (Elt F)),
    ternary main_v1 main_call2_v1 main_call2_v2 main_v6 (select : (⟨S64x4096x128, .i1⟩ : BufTy).Contents (Elt F) → (⟨S64x4096x128, .i32⟩ : BufTy).Contents (Elt F) → (⟨S64x4096x128, .i32⟩ : BufTy).Contents (Elt F) → (⟨S64x4096x128, .i32⟩ : BufTy).Contents (Elt F)),
    nullary main_call3_c ((constantI S_ 32 2147483647#32) : (⟨S_, .i32⟩ : BufTy).Contents (Elt F)),
    unary main_call3_c main_call3_v0 ((broadcastInDim S_ ![] bcast_S_S_) : (⟨S_, .i32⟩ : BufTy).Contents (Elt F) → (⟨S_, .i32⟩ : BufTy).Contents (Elt F)),
    binary main_v6 main_call3_v0 main_v7 ((fun x v => Host.reduceWindow IntOp.minsi ![1, 4096, 1] ![1, 1, 1] ![0, 0, 0] ![0, 4095, 0] x v reduceWindows_S64x4096x128_S64x4096x128_w1s1p0_0_w4096s1p0_4095_w1s1p0_0 h_S_) : (⟨S64x4096x128, .i32⟩ : BufTy).Contents (Elt F) → (⟨S_, .i32⟩ : BufTy).Contents (Elt F) → (⟨S64x4096x128, .i32⟩ : BufTy).Contents (Elt F)),
    nullary main_c_1 (constantI S_ 32 0#32),
    unary main_c_1 main_v8 (broadcastInDim S64x4096x128 ![] bcast_S_S64x4096x128 : (⟨S_, .i32⟩ : BufTy).Contents (Elt F) → (⟨S64x4096x128, .i32⟩ : BufTy).Contents (Elt F)),
    binary main_v5 main_v8 main_v9 (maxsi : (⟨S64x4096x128, .i32⟩ : BufTy).Contents (Elt F) → (⟨S64x4096x128, .i32⟩ : BufTy).Contents (Elt F) → (⟨S64x4096x128, .i32⟩ : BufTy).Contents (Elt F)),
    nullary main_c_2 (constantI S_ 32 4096#32),
    unary main_c_2 main_v10 (broadcastInDim S64x4096x128 ![] bcast_S_S64x4096x128 : (⟨S_, .i32⟩ : BufTy).Contents (Elt F) → (⟨S64x4096x128, .i32⟩ : BufTy).Contents (Elt F)),
    binary main_v7 main_v10 main_v11 (cmpi .slt : (⟨S64x4096x128, .i32⟩ : BufTy).Contents (Elt F) → (⟨S64x4096x128, .i32⟩ : BufTy).Contents (Elt F) → (⟨S64x4096x128, .i1⟩ : BufTy).Contents (Elt F)),
    nullary main_c_3 (constantI S_ 32 4095#32),
    unary main_c_3 main_call4_v0 (id : (⟨S_, .i32⟩ : BufTy).Contents (Elt F) → (⟨S_, .i32⟩ : BufTy).Contents (Elt F)),
    unary main_call4_v0 main_call4_v1 ((broadcastInDim S64x4096x128 ![] bcast_S_S64x4096x128) : (⟨S_, .i32⟩ : BufTy).Contents (Elt F) → (⟨S64x4096x128, .i32⟩ : BufTy).Contents (Elt F)),
    ternary main_v11 main_v7 main_call4_v1 main_v12 (select : (⟨S64x4096x128, .i1⟩ : BufTy).Contents (Elt F) → (⟨S64x4096x128, .i32⟩ : BufTy).Contents (Elt F) → (⟨S64x4096x128, .i32⟩ : BufTy).Contents (Elt F) → (⟨S64x4096x128, .i32⟩ : BufTy).Contents (Elt F)),
    nullary main_call5_c ((constantI S_ 32 0#32) : (⟨S_, .i32⟩ : BufTy).Contents (Elt F)),
    unary main_call5_c main_call5_v0 ((broadcastInDim S64x4096x128 ![] bcast_S_S64x4096x128) : (⟨S_, .i32⟩ : BufTy).Contents (Elt F) → (⟨S64x4096x128, .i32⟩ : BufTy).Contents (Elt F)),
    binary main_v9 main_call5_v0 main_call5_v1 ((cmpi .slt) : (⟨S64x4096x128, .i32⟩ : BufTy).Contents (Elt F) → (⟨S64x4096x128, .i32⟩ : BufTy).Contents (Elt F) → (⟨S64x4096x128, .i1⟩ : BufTy).Contents (Elt F)),
    nullary main_call5_c_0 ((constantI S_ 32 4096#32) : (⟨S_, .i32⟩ : BufTy).Contents (Elt F)),
    unary main_call5_c_0 main_call5_v2 ((broadcastInDim S64x4096x128 ![] bcast_S_S64x4096x128) : (⟨S_, .i32⟩ : BufTy).Contents (Elt F) → (⟨S64x4096x128, .i32⟩ : BufTy).Contents (Elt F)),
    binary main_v9 main_call5_v2 main_call5_v3 (addi : (⟨S64x4096x128, .i32⟩ : BufTy).Contents (Elt F) → (⟨S64x4096x128, .i32⟩ : BufTy).Contents (Elt F) → (⟨S64x4096x128, .i32⟩ : BufTy).Contents (Elt F)),
    ternary main_call5_v1 main_call5_v3 main_v9 main_call5_v4 (select : (⟨S64x4096x128, .i1⟩ : BufTy).Contents (Elt F) → (⟨S64x4096x128, .i32⟩ : BufTy).Contents (Elt F) → (⟨S64x4096x128, .i32⟩ : BufTy).Contents (Elt F) → (⟨S64x4096x128, .i32⟩ : BufTy).Contents (Elt F)),
    TRef.reshape (TRef.of (T := ⟨S64x4096x128, .i32⟩) main_call5_v4) (TRef.of (T := ⟨S64x4096x128x1, .i32⟩) main_call5_v5) rfl shapeCasts_S64x4096x128_S64x4096x128x1,
    nullary main_call5_c_1 ((constantI S1 32 4095#32) : (⟨S1, .i32⟩ : BufTy).Contents (Elt F)),
    nullary main_call5_c_2 ((constantI S_ 32 0#32) : (⟨S_, .i32⟩ : BufTy).Contents (Elt F)),
    unary main_call5_c_2 main_call5_v6 ((broadcastInDim S64x4096x128x1 ![] bcast_S_S64x4096x128x1) : (⟨S_, .i32⟩ : BufTy).Contents (Elt F) → (⟨S64x4096x128x1, .i32⟩ : BufTy).Contents (Elt F)),
    binary main_call5_v5 main_call5_v6 main_call5_v7 ((cmpi .sge) : (⟨S64x4096x128x1, .i32⟩ : BufTy).Contents (Elt F) → (⟨S64x4096x128x1, .i32⟩ : BufTy).Contents (Elt F) → (⟨S64x4096x128x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S64x4096x128x1 ![0, 1, 2, 3] bcast_S1x1x1x1_S64x4096x128x1_0_1_2_3) : (⟨S1x1x1x1, .i32⟩ : BufTy).Contents (Elt F) → (⟨S64x4096x128x1, .i32⟩ : BufTy).Contents (Elt F)),
    binary main_call5_v5 main_call5_v9 main_call5_v10 ((cmpi .sle) : (⟨S64x4096x128x1, .i32⟩ : BufTy).Contents (Elt F) → (⟨S64x4096x128x1, .i32⟩ : BufTy).Contents (Elt F) → (⟨S64x4096x128x1, .i1⟩ : BufTy).Contents (Elt F)),
    binary main_call5_v7 main_call5_v10 main_call5_v11 (andi : (⟨S64x4096x128x1, .i1⟩ : BufTy).Contents (Elt F) → (⟨S64x4096x128x1, .i1⟩ : BufTy).Contents (Elt F) → (⟨S64x4096x128x1, .i1⟩ : BufTy).Contents (Elt F)),
    nullary main_call5_c_3 ((constantI S_ 1 1#1) : (⟨S_, .i1⟩ : BufTy).Contents (Elt F)),
    binary main_call5_v11 main_call5_c_3 main_call5_v12 ((fun x v => Host.reduce IntOp.andi x v reducesTo_S64x4096x128x1_S64x4096x128_d3 h_S_) : (⟨S64x4096x128x1, .i1⟩ : BufTy).Contents (Elt F) → (⟨S_, .i1⟩ : BufTy).Contents (Elt F) → (⟨S64x4096x128, .i1⟩ : BufTy).Contents (Elt F)),
    binary main_arg0 main_call5_v5 main_call5_v13 ((fun x i => Host.gather gather_S64x4096x128_S64x4096x128x1_S64x4096x128_n_1_02_02_1_3_111 x i) : (⟨S64x4096x128, .f32⟩ : BufTy).Contents (Elt F) → (⟨S64x4096x128x1, .i32⟩ : BufTy).Contents (Elt F) → (⟨S64x4096x128, .f32⟩ : BufTy).Contents (Elt F)),
    nullary main_call5_cst ((constant S_ .f32 0x7FC00000#32) : (⟨S_, .f32⟩ : BufTy).Contents (Elt F)),
    unary main_call5_cst main_call5_v14 ((broadcastInDim S64x4096x128 ![] bcast_S_S64x4096x128) : (⟨S_, .f32⟩ : BufTy).Contents (Elt F) → (⟨S64x4096x128, .f32⟩ : BufTy).Contents (Elt F)),
    ternary main_call5_v12 main_call5_v13 main_call5_v14 main_v13 (select : (⟨S64x4096x128, .i1⟩ : BufTy).Contents (Elt F) → (⟨S64x4096x128, .f32⟩ : BufTy).Contents (Elt F) → (⟨S64x4096x128, .f32⟩ : BufTy).Contents (Elt F) → (⟨S64x4096x128, .f32⟩ : BufTy).Contents (Elt F)),
    nullary main_call6_c ((constantI S_ 32 0#32) : (⟨S_, .i32⟩ : BufTy).Contents (Elt F)),
    unary main_call6_c main_call6_v0 ((broadcastInDim S64x4096x128 ![] bcast_S_S64x4096x128) : (⟨S_, .i32⟩ : BufTy).Contents (Elt F) → (⟨S64x4096x128, .i32⟩ : BufTy).Contents (Elt F)),
    binary main_v12 main_call6_v0 main_call6_v1 ((cmpi .slt) : (⟨S64x4096x128, .i32⟩ : BufTy).Contents (Elt F) → (⟨S64x4096x128, .i32⟩ : BufTy).Contents (Elt F) → (⟨S64x4096x128, .i1⟩ : BufTy).Contents (Elt F)),
    nullary main_call6_c_0 ((constantI S_ 32 4096#32) : (⟨S_, .i32⟩ : BufTy).Contents (Elt F)),
    unary main_call6_c_0 main_call6_v2 ((broadcastInDim S64x4096x128 ![] bcast_S_S64x4096x128) : (⟨S_, .i32⟩ : BufTy).Contents (Elt F) → (⟨S64x4096x128, .i32⟩ : BufTy).Contents (Elt F)),
    binary main_v12 main_call6_v2 main_call6_v3 (addi : (⟨S64x4096x128, .i32⟩ : BufTy).Contents (Elt F) → (⟨S64x4096x128, .i32⟩ : BufTy).Contents (Elt F) → (⟨S64x4096x128, .i32⟩ : BufTy).Contents (Elt F)),
    ternary main_call6_v1 main_call6_v3 main_v12 main_call6_v4 (select : (⟨S64x4096x128, .i1⟩ : BufTy).Contents (Elt F) → (⟨S64x4096x128, .i32⟩ : BufTy).Contents (Elt F) → (⟨S64x4096x128, .i32⟩ : BufTy).Contents (Elt F) → (⟨S64x4096x128, .i32⟩ : BufTy).Contents (Elt F)),
    TRef.reshape (TRef.of (T := ⟨S64x4096x128, .i32⟩) main_call6_v4) (TRef.of (T := ⟨S64x4096x128x1, .i32⟩) main_call6_v5) rfl shapeCasts_S64x4096x128_S64x4096x128x1,
    nullary main_call6_c_1 ((constantI S1 32 4095#32) : (⟨S1, .i32⟩ : BufTy).Contents (Elt F)),
    nullary main_call6_c_2 ((constantI S_ 32 0#32) : (⟨S_, .i32⟩ : BufTy).Contents (Elt F)),
    unary main_call6_c_2 main_call6_v6 ((broadcastInDim S64x4096x128x1 ![] bcast_S_S64x4096x128x1) : (⟨S_, .i32⟩ : BufTy).Contents (Elt F) → (⟨S64x4096x128x1, .i32⟩ : BufTy).Contents (Elt F)),
    binary main_call6_v5 main_call6_v6 main_call6_v7 ((cmpi .sge) : (⟨S64x4096x128x1, .i32⟩ : BufTy).Contents (Elt F) → (⟨S64x4096x128x1, .i32⟩ : BufTy).Contents (Elt F) → (⟨S64x4096x128x1, .i1⟩ : BufTy).Contents (Elt F)),
    unary main_call6_c_1 main_call6_v8 ((broadcastInDim S1x1x1x1 ![3] bcast_S1_S1x1x1x1_3) : (⟨S1, .i32⟩ : BufTy).Contents (Elt F) → (⟨S1x1x1x1, .i32⟩ : BufTy).Contents (Elt F)),
    unary main_call6_v8 main_call6_v9 ((broadcastInDim S64x4096x128x1 ![0, 1, 2, 3] bcast_S1x1x1x1_S64x4096x128x1_0_1_2_3) : (⟨S1x1x1x1, .i32⟩ : BufTy).Contents (Elt F) → (⟨S64x4096x128x1, .i32⟩ : BufTy).Contents (Elt F)),
    binary main_call6_v5 main_call6_v9 main_call6_v10 ((cmpi .sle) : (⟨S64x4096x128x1, .i32⟩ : BufTy).Contents (Elt F) → (⟨S64x4096x128x1, .i32⟩ : BufTy).Contents (Elt F) → (⟨S64x4096x128x1, .i1⟩ : BufTy).Contents (Elt F)),
    binary main_call6_v7 main_call6_v10 main_call6_v11 (andi : (⟨S64x4096x128x1, .i1⟩ : BufTy).Contents (Elt F) → (⟨S64x4096x128x1, .i1⟩ : BufTy).Contents (Elt F) → (⟨S64x4096x128x1, .i1⟩ : BufTy).Contents (Elt F)),
    nullary main_call6_c_3 ((constantI S_ 1 1#1) : (⟨S_, .i1⟩ : BufTy).Contents (Elt F)),
    binary main_call6_v11 main_call6_c_3 main_call6_v12 ((fun x v => Host.reduce IntOp.andi x v reducesTo_S64x4096x128x1_S64x4096x128_d3 h_S_) : (⟨S64x4096x128x1, .i1⟩ : BufTy).Contents (Elt F) → (⟨S_, .i1⟩ : BufTy).Contents (Elt F) → (⟨S64x4096x128, .i1⟩ : BufTy).Contents (Elt F)),
    binary main_arg0 main_call6_v5 main_call6_v13 ((fun x i => Host.gather gather_S64x4096x128_S64x4096x128x1_S64x4096x128_n_1_02_02_1_3_111 x i) : (⟨S64x4096x128, .f32⟩ : BufTy).Contents (Elt F) → (⟨S64x4096x128x1, .i32⟩ : BufTy).Contents (Elt F) → (⟨S64x4096x128, .f32⟩ : BufTy).Contents (Elt F)),
    nullary main_call6_cst ((constant S_ .f32 0x7FC00000#32) : (⟨S_, .f32⟩ : BufTy).Contents (Elt F)),
    unary main_call6_cst main_call6_v14 ((broadcastInDim S64x4096x128 ![] bcast_S_S64x4096x128) : (⟨S_, .f32⟩ : BufTy).Contents (Elt F) → (⟨S64x4096x128, .f32⟩ : BufTy).Contents (Elt F)),
    ternary main_call6_v12 main_call6_v13 main_call6_v14 main_v14 (select : (⟨S64x4096x128, .i1⟩ : BufTy).Contents (Elt F) → (⟨S64x4096x128, .f32⟩ : BufTy).Contents (Elt F) → (⟨S64x4096x128, .f32⟩ : BufTy).Contents (Elt F) → (⟨S64x4096x128, .f32⟩ : BufTy).Contents (Elt F)),
    binary main_v12 main_v9 main_v15 (subi : (⟨S64x4096x128, .i32⟩ : BufTy).Contents (Elt F) → (⟨S64x4096x128, .i32⟩ : BufTy).Contents (Elt F) → (⟨S64x4096x128, .i32⟩ : BufTy).Contents (Elt F)),
    nullary main_c_4 (constantI S_ 32 1#32),
    unary main_c_4 main_v16 (broadcastInDim S64x4096x128 ![] bcast_S_S64x4096x128 : (⟨S_, .i32⟩ : BufTy).Contents (Elt F) → (⟨S64x4096x128, .i32⟩ : BufTy).Contents (Elt F)),
    binary main_v15 main_v16 main_v17 (subi : (⟨S64x4096x128, .i32⟩ : BufTy).Contents (Elt F) → (⟨S64x4096x128, .i32⟩ : BufTy).Contents (Elt F) → (⟨S64x4096x128, .i32⟩ : BufTy).Contents (Elt F)),
    unary main_v3 main_v18 (broadcastInDim S64x4096x128 ![0, 1, 2] bcast_S1x4096x1_S64x4096x128_0_1_2 : (⟨S1x4096x1, .i32⟩ : BufTy).Contents (Elt F) → (⟨S64x4096x128, .i32⟩ : BufTy).Contents (Elt F)),
    binary main_v18 main_v9 main_v19 (subi : (⟨S64x4096x128, .i32⟩ : BufTy).Contents (Elt F) → (⟨S64x4096x128, .i32⟩ : BufTy).Contents (Elt F) → (⟨S64x4096x128, .i32⟩ : BufTy).Contents (Elt F)),
    unary main_v19 main_v20 (sitofp .f32 : (⟨S64x4096x128, .i32⟩ : BufTy).Contents (Elt F) → (⟨S64x4096x128, .f32⟩ : BufTy).Contents (Elt F)),
    binary main_v14 main_v13 main_v21 (subf : (⟨S64x4096x128, .f32⟩ : BufTy).Contents (Elt F) → (⟨S64x4096x128, .f32⟩ : BufTy).Contents (Elt F) → (⟨S64x4096x128, .f32⟩ : BufTy).Contents (Elt F)),
    binary main_v20 main_v21 main_v22 (mulf : (⟨S64x4096x128, .f32⟩ : BufTy).Contents (Elt F) → (⟨S64x4096x128, .f32⟩ : BufTy).Contents (Elt F) → (⟨S64x4096x128, .f32⟩ : BufTy).Contents (Elt F)),
    nullary main_c_5 (constantI S_ 32 1#32),
    unary main_c_5 main_v23 (broadcastInDim S64x4096x128 ![] bcast_S_S64x4096x128 : (⟨S_, .i32⟩ : BufTy).Contents (Elt F) → (⟨S64x4096x128, .i32⟩ : BufTy).Contents (Elt F)),
    binary main_v17 main_v23 main_v24 (maxsi : (⟨S64x4096x128, .i32⟩ : BufTy).Contents (Elt F) → (⟨S64x4096x128, .i32⟩ : BufTy).Contents (Elt F) → (⟨S64x4096x128, .i32⟩ : BufTy).Contents (Elt F)),
    unary main_v24 main_v25 (sitofp .f32 : (⟨S64x4096x128, .i32⟩ : BufTy).Contents (Elt F) → (⟨S64x4096x128, .f32⟩ : BufTy).Contents (Elt F)),
    binary main_v22 main_v25 main_v26 (Host.divf : (⟨S64x4096x128, .f32⟩ : BufTy).Contents (Elt F) → (⟨S64x4096x128, .f32⟩ : BufTy).Contents (Elt F) → (⟨S64x4096x128, .f32⟩ : BufTy).Contents (Elt F)),
    binary main_v13 main_v26 main_v27 (addf : (⟨S64x4096x128, .f32⟩ : BufTy).Contents (Elt F) → (⟨S64x4096x128, .f32⟩ : BufTy).Contents (Elt F) → (⟨S64x4096x128, .f32⟩ : BufTy).Contents (Elt F)),
    nullary main_c_6 (constantI S_ 32 0#32),
    unary main_c_6 main_v28 (broadcastInDim S64x4096x128 ![] bcast_S_S64x4096x128 : (⟨S_, .i32⟩ : BufTy).Contents (Elt F) → (⟨S64x4096x128, .i32⟩ : BufTy).Contents (Elt F)),
    binary main_v17 main_v28 main_v29 (cmpi .sgt : (⟨S64x4096x128, .i32⟩ : BufTy).Contents (Elt F) → (⟨S64x4096x128, .i32⟩ : BufTy).Contents (Elt F) → (⟨S64x4096x128, .i1⟩ : BufTy).Contents (Elt F)),
    ternary main_v29 main_v27 main_v13 main_v30 (select : (⟨S64x4096x128, .i1⟩ : BufTy).Contents (Elt F) → (⟨S64x4096x128, .f32⟩ : BufTy).Contents (Elt F) → (⟨S64x4096x128, .f32⟩ : BufTy).Contents (Elt F) → (⟨S64x4096x128, .f32⟩ : BufTy).Contents (Elt F)),
    binary main_v9 main_v12 main_v31 (cmpi .sge : (⟨S64x4096x128, .i32⟩ : BufTy).Contents (Elt F) → (⟨S64x4096x128, .i32⟩ : BufTy).Contents (Elt F) → (⟨S64x4096x128, .i1⟩ : BufTy).Contents (Elt F)),
    binary main_v1 main_v31 main_v32 (ori : (⟨S64x4096x128, .i1⟩ : BufTy).Contents (Elt F) → (⟨S64x4096x128, .i1⟩ : BufTy).Contents (Elt F) → (⟨S64x4096x128, .i1⟩ : BufTy).Contents (Elt F)),
    unary main_v3 main_v33 (broadcastInDim S64x4096x128 ![0, 1, 2] bcast_S1x4096x1_S64x4096x128_0_1_2 : (⟨S1x4096x1, .i32⟩ : BufTy).Contents (Elt F) → (⟨S64x4096x128, .i32⟩ : BufTy).Contents (Elt F)),
    binary main_v33 main_v12 main_v34 (cmpi .sge : (⟨S64x4096x128, .i32⟩ : BufTy).Contents (Elt F) → (⟨S64x4096x128, .i32⟩ : BufTy).Contents (Elt F) → (⟨S64x4096x128, .i1⟩ : BufTy).Contents (Elt F)),
    binary main_v32 main_v34 main_v35 (ori : (⟨S64x4096x128, .i1⟩ : BufTy).Contents (Elt F) → (⟨S64x4096x128, .i1⟩ : BufTy).Contents (Elt F) → (⟨S64x4096x128, .i1⟩ : BufTy).Contents (Elt F)),
    ternary main_v35 main_arg0 main_v30 main_v36 (select : (⟨S64x4096x128, .i1⟩ : BufTy).Contents (Elt F) → (⟨S64x4096x128, .f32⟩ : BufTy).Contents (Elt F) → (⟨S64x4096x128, .f32⟩ : BufTy).Contents (Elt F) → (⟨S64x4096x128, .f32⟩ : BufTy).Contents (Elt F)) ]

set_option maxRecDepth 8192 in
set_option maxHeartbeats 4000000 in
/-- @main is the sequence of its operations: the called functions' bodies unfolded at their calls and the sequencing
    reassociated, both sides are one chain of steps. -/
theorem main_eq (c : Dev nD) : main (F := F) c = seq ops := by
  simp only [main, fn_where.body, fn_cummax.body, fn_cummin.body, fn_where_0.body, fn_take_along_axis.body, fn_where_1.body, fn_where_2.body,
    seq, bind_assoc, pure_bind]

attribute [local irreducible] Host.reduceWindow Host.gather Host.reduce in
set_option maxRecDepth 65536 in
set_option maxHeartbeats 4000000 in
/-- The two spellings list the same operations: a typed reference's transports are identities at these references. -/
theorem ops_eq : (ops : List (HloOp τ sig (Elt F))) = opsP := by
  delta ops opsP
  simp only [TRef.nullary, TRef.unary, TRef.binary, TRef.ternary, TRef.reshape, TRef.toBuf, TRef.ofBuf, cast_eq]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., unary_bufs_sub .., unary_bufs_sub .., ternary_bufs_sub .., nullary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., ternary_bufs_sub .., binary_bufs_sub .., binary_bufs_sub .., unary_bufs_sub .., binary_bufs_sub .., binary_bufs_sub .., ternary_bufs_sub ..⟩

set_option maxRecDepth 8192 in
/-- No operation writes the argument's buffer. -/
theorem arg0_eq (V : Valuation τ sig (Elt F)) :
    after opsP V (main_arg0 : DevRef τ sig) = V (main_arg0 : DevRef τ sig) := by
  after_results_simp

attribute [local irreducible] Host.reduceWindow Host.gather Host.reduce in
set_option maxRecDepth 8192 in
set_option maxHeartbeats 2000000 in
/-- The fold at the result buffer is the last stage, as a function of the argument. -/
theorem out_eq (V : Valuation τ sig (Elt F)) :
    after opsP V (main_v36 : DevRef τ sig) = Cert.ReferenceIdeal.Read.val_main_v36 (F := F) (V (main_arg0 : DevRef τ sig)) := by
  after_results_simp
  rfl

/-- On every device, for any float values, from any memory with zero counters: every weakly fair execution of @main
    terminates with the result at the last stage of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Cert.ReferenceIdeal.Read.val_main_v36 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v36).trans ((congrArg (fun l => after l (launchContents m c) (main_v36 : DevRef τ sig)) ops_eq).trans (out_eq _)),
      (h c main_arg0).trans ((congrArg (fun l => after l (launchContents m c) (main_arg0 : DevRef τ sig)) ops_eq).trans (arg0_eq _))⟩)
    (run_seq scopedRefs_eq scopedSems_eq defs main (fun _ => ops) main_eq (fun _ => ops_sub) m ρ)

end Cert.ReferenceIdeal.RunH

end
-- ==== Proof.Spec.lean ====
/-
  Gap filling along a column, as pure mathematics (no program is imported here).

  A column is a function `x : ℕ → EReal`; a position `s` is OBSERVED when `x s ≠ 0`. For a position `g` the
  two scans look for the last observed position at or before `g` (or the sentinel −1 when there is none) and for
  the first observed position at or after `g` (or the sentinel 4096). Both are characterised here by a
  predicate over a half-open window `[lo, hi)`: `IsPV` (last observed position of the window, or −1) and
  `IsNV` (first observed position of the window, or 4096). Two facts carry every scan, whatever its schedule:
  a window's answer is unique, and the answers of two adjacent windows combine into the answer of their
  union by ONE signed comparison (keep the left answer iff it is larger, for the last position; take the right
  answer iff it is smaller, for the first). Each answer travels with the column's value at it (`PV`, `NV`; the
  value is 0 at a sentinel, because an unobserved entry IS zero).

  `blend` is the final formula of one output element from the position, the two answers and the two values;
  `outSpec` is the output as a function of the column alone.
-/
import Idealize.ShloMosaic.PureOps.Ideal
import Idealize.ShloMosaic.Lib.ValueIdx

noncomputable section

namespace Cert.Impute

open Idealize.ShloMosaic

/-! ## Words -/

theorem toInt_ofNat_small (n : ℕ) (h : n < 2147483648) : (BitVec.ofNat 32 n).toInt = (n : Int) := by
  rw [BitVec.toInt_eq_toNat_cond, BitVec.toNat_ofNat]
  have h2 : n % 2 ^ 32 = n := Nat.mod_eq_of_lt (by omega)
  rw [h2]
  split <;> omega

theorem toInt_neg_one : (4294967295#32 : BitVec 32).toInt = -1 := by decide
theorem toInt_4096 : (4096#32 : BitVec 32).toInt = 4096 := by decide

theorem ofBool_eq_one_iff (b : Bool) : BitVec.ofBool b = 1 ↔ b = true := by cases b <;> decide

/-- A select on `a is greater than b` (signed). -/
theorem select_sgt {α : Type} (a b : BitVec 32) (u v : α) :
    Scalar.select (IntOp.cmpi .sgt a b) u v = if b.slt a then u else v := by
  unfold Scalar.select IntOp.cmpi
  simp only [ofBool_eq_one_iff]
/-- A select on `a is less than b` (signed). -/
theorem select_slt {α : Type} (a b : BitVec 32) (u v : α) :
    Scalar.select (IntOp.cmpi .slt a b) u v = if a.slt b then u else v := by
  unfold Scalar.select IntOp.cmpi
  simp only [ofBool_eq_one_iff]
/-- A select on `a is at least b` (signed). -/
theorem select_sge {α : Type} (a b : BitVec 32) (u v : α) :
    Scalar.select (IntOp.cmpi .sge a b) u v = if b.sle a then u else v := by
  unfold Scalar.select IntOp.cmpi
  simp only [ofBool_eq_one_iff]
/-- A select on `a equals b`. -/
theorem select_eq {α : Type} (a b : BitVec 32) (u v : α) :
    Scalar.select (IntOp.cmpi .eq a b) u v = if a = b then u else v := by
  unfold Scalar.select IntOp.cmpi
  simp only [ofBool_eq_one_iff, beq_iff_eq]
/-- A select on `x is not zero` at the extended reals. -/
theorem select_ne_zero {α : Type} (x : EReal) (u v : α) :
    Scalar.select (Ideal.cmp .one x 0) u v = if x ≠ 0 then u else v := by
  unfold Scalar.select Ideal.cmp
  simp only [ofBool_eq_one_iff, decide_eq_true_eq]

/-! ## The last observed position of a window -/

/-- `i` is the last position of `[lo, hi)` at which `V` holds, or −1 when there is none. -/
def IsPV (V : ℕ → Prop) (lo hi : ℕ) (i : BitVec 32) : Prop :=
  (i.toInt = -1 ∧ ∀ s, lo ≤ s → s < hi → ¬ V s) ∨
  (∃ n : ℕ, i.toInt = (n : Int) ∧ lo ≤ n ∧ n < hi ∧ V n ∧ ∀ s, n < s → s < hi → ¬ V s)

theorem IsPV.ge {V : ℕ → Prop} {lo hi : ℕ} {i : BitVec 32} (h : IsPV V lo hi i) : -1 ≤ i.toInt := by
  rcases h with ⟨h1, _⟩ | ⟨n, h1, _⟩ <;> omega

theorem IsPV.lt {V : ℕ → Prop} {lo hi : ℕ} {i : BitVec 32} (h : IsPV V lo hi i) : i.toInt < (hi : Int) := by
  rcases h with ⟨h1, _⟩ | ⟨n, h1, _, h3, _⟩ <;> omega

theorem IsPV.unique {V : ℕ → Prop} {lo hi : ℕ} {i j : BitVec 32} (h : IsPV V lo hi i) (g : IsPV V lo hi j) : i = j := by
  apply BitVec.eq_of_toInt_eq
  rcases h with ⟨h1, h2⟩ | ⟨n, h1, h2, h3, h4, h5⟩ <;> rcases g with ⟨g1, g2⟩ | ⟨k, g1, g2, g3, g4, g5⟩
  · omega
  · exact absurd g4 (h2 k g2 g3)
  · exact absurd h4 (g2 n h2 h3)
  · rcases Nat.lt_trichotomy n k with hh | hh | hh
    · exact absurd g4 (h5 k hh g3)
    · omega
    · exact absurd h4 (g5 n hh h3)

/-- The empty window's answer is the sentinel. -/
theorem IsPV.empty (V : ℕ → Prop) (lo : ℕ) (i : BitVec 32) (hi : i.toInt = -1) : IsPV V lo lo i :=
  Or.inl ⟨hi, fun s h1 h2 => by omega⟩

/-- Adjacent windows: the union's answer is the left one iff it is the larger (signed). -/
theorem IsPV.comb {V : ℕ → Prop} {lo mid hi : ℕ} {i j : BitVec 32} (h1 : IsPV V lo mid i) (h2 : IsPV V mid hi j)
    (hlm : lo ≤ mid) (hmh : mid ≤ hi) : IsPV V lo hi (if j.slt i then i else j) := by
  rcases h1 with ⟨a1, a2⟩ | ⟨n, a1, a2, a3, a4, a5⟩
  · have hn : ¬ (j.slt i = true) := by
      rw [BitVec.slt_iff_toInt_lt]; have := h2.ge; omega
    rw [if_neg hn]
    rcases h2 with ⟨b1, b2⟩ | ⟨k, b1, b2, b3, b4, b5⟩
    · exact Or.inl ⟨b1, fun s s1 s2 => by
        by_cases hs : s < mid
        · exact a2 s s1 hs
        · exact b2 s (by omega) s2⟩
    · exact Or.inr ⟨k, b1, by omega, b3, b4, b5⟩
  · rcases h2 with ⟨b1, b2⟩ | ⟨k, b1, b2, b3, b4, b5⟩
    · have hp : j.slt i = true := by rw [BitVec.slt_iff_toInt_lt]; omega
      rw [if_pos hp]
      exact Or.inr ⟨n, a1, a2, by omega, a4, fun s s1 s2 => by
        by_cases hs : s < mid
        · exact a5 s s1 hs
        · exact b2 s (by omega) s2⟩
    · have hn : ¬ (j.slt i = true) := by rw [BitVec.slt_iff_toInt_lt]; omega
      rw [if_neg hn]
      exact Or.inr ⟨k, b1, by omega, b3, b4, b5⟩

/-- The answer with the column's value at it: 0 at the sentinel. -/
def PV (x : ℕ → EReal) (lo hi : ℕ) (i : BitVec 32) (v : EReal) : Prop :=
  IsPV (fun s => x s ≠ 0) lo hi i ∧ v = if i.toInt < 0 then 0 else x i.toInt.toNat

/-- The same with the value constrained only off the sentinel. -/
def PVw (x : ℕ → EReal) (lo hi : ℕ) (i : BitVec 32) (v : EReal) : Prop :=
  IsPV (fun s => x s ≠ 0) lo hi i ∧ (0 ≤ i.toInt → v = x i.toInt.toNat)

theorem PV.weak {x : ℕ → EReal} {lo hi : ℕ} {i : BitVec 32} {v : EReal} (h : PV x lo hi i v) : PVw x lo hi i v :=
  ⟨h.1, fun h0 => by rw [h.2, if_neg (by omega)]⟩

/-- One position: its own index if observed, else the sentinel; the value is the entry itself. -/
theorem PV.seed (x : ℕ → EReal) (g : ℕ) (hg : g < 4096) :
    PV x g (g + 1) (if x g ≠ 0 then BitVec.ofNat 32 g else 4294967295#32) (x g) := by
  by_cases h : x g ≠ 0
  · rw [if_pos h]
    have e := toInt_ofNat_small g (by omega)
    refine ⟨Or.inr ⟨g, e, le_refl _, by omega, h, fun s s1 s2 => by omega⟩, ?_⟩
    rw [e, if_neg (by omega)]; simp
  · rw [if_neg h]
    refine ⟨Or.inl ⟨toInt_neg_one, fun s s1 s2 => by
      have : s = g := by omega
      subst this; exact h⟩, ?_⟩
    rw [toInt_neg_one, if_pos (by omega)]
    exact not_not.mp h

theorem PV.comb {x : ℕ → EReal} {lo mid hi : ℕ} {i j : BitVec 32} {v w : EReal}
    (h1 : PVw x lo mid i v) (h2 : PV x mid hi j w) (hlm : lo ≤ mid) (hmh : mid ≤ hi) :
    PV x lo hi (if j.slt i then i else j) (if j.slt i then v else w) := by
  refine ⟨h1.1.comb h2.1 hlm hmh, ?_⟩
  by_cases hp : j.slt i = true
  · rw [if_pos hp, if_pos hp]
    have hlt := BitVec.slt_iff_toInt_lt.mp hp
    have hge := h2.1.ge
    rw [if_neg (by omega)]
    exact h1.2 (by omega)
  · rw [if_neg hp, if_neg hp]; exact h2.2

/-! ## The first observed position of a window -/

/-- `i` is the first position of `[lo, hi)` at which `V` holds, or 4096 when there is none. -/
def IsNV (V : ℕ → Prop) (lo hi : ℕ) (i : BitVec 32) : Prop :=
  (i.toInt = 4096 ∧ ∀ s, lo ≤ s → s < hi → ¬ V s) ∨
  (∃ n : ℕ, i.toInt = (n : Int) ∧ lo ≤ n ∧ n < hi ∧ V n ∧ ∀ s, lo ≤ s → s < n → ¬ V s)

theorem IsNV.ge {V : ℕ → Prop} {lo hi : ℕ} {i : BitVec 32} (h : IsNV V lo hi i) (hlo : lo ≤ 4096) : (lo : Int) ≤ i.toInt := by
  rcases h with ⟨h1, _⟩ | ⟨n, h1, h2, _⟩ <;> omega

theorem IsNV.le {V : ℕ → Prop} {lo hi : ℕ} {i : BitVec 32} (h : IsNV V lo hi i) (hhi : hi ≤ 4096) : i.toInt ≤ 4096 := by
  rcases h with ⟨h1, _⟩ | ⟨n, h1, _, h3, _⟩ <;> omega

theorem IsNV.unique {V : ℕ → Prop} {lo hi : ℕ} {i j : BitVec 32} (hhi : hi ≤ 4096) (h : IsNV V lo hi i) (g : IsNV V lo hi j) : i = j := by
  apply BitVec.eq_of_toInt_eq
  rcases h with ⟨h1, h2⟩ | ⟨n, h1, h2, h3, h4, h5⟩ <;> rcases g with ⟨g1, g2⟩ | ⟨k, g1, g2, g3, g4, g5⟩
  · omega
  · exact absurd g4 (h2 k g2 g3)
  · exact absurd h4 (g2 n h2 h3)
  · rcases Nat.lt_trichotomy n k with hh | hh | hh
    · exact absurd h4 (g5 n h2 hh)
    · omega
    · exact absurd g4 (h5 k g2 hh)

theorem IsNV.empty (V : ℕ → Prop) (lo : ℕ) (i : BitVec 32) (hi : i.toInt = 4096) : IsNV V lo lo i :=
  Or.inl ⟨hi, fun s h1 h2 => by omega⟩

/-- Adjacent windows: the union's answer is the right one iff it is the smaller (signed). -/
theorem IsNV.comb {V : ℕ → Prop} {lo mid hi : ℕ} {i j : BitVec 32} (h1 : IsNV V lo mid i) (h2 : IsNV V mid hi j)
    (hlm : lo ≤ mid) (hmh : mid ≤ hi) (hhi : hi ≤ 4096) : IsNV V lo hi (if j.slt i then j else i) := by
  rcases h1 with ⟨a1, a2⟩ | ⟨n, a1, a2, a3, a4, a5⟩
  · rcases h2 with ⟨b1, b2⟩ | ⟨k, b1, b2, b3, b4, b5⟩
    · have hn : ¬ (j.slt i = true) := by rw [BitVec.slt_iff_toInt_lt]; omega
      rw [if_neg hn]
      exact Or.inl ⟨a1, fun s s1 s2 => by
        by_cases hs : s < mid
        · exact a2 s s1 hs
        · exact b2 s (by omega) s2⟩
    · have hp : j.slt i = true := by rw [BitVec.slt_iff_toInt_lt]; omega
      rw [if_pos hp]
      exact Or.inr ⟨k, b1, by omega, b3, b4, fun s s1 s2 => by
        by_cases hs : s < mid
        · exact a2 s s1 hs
        · exact b5 s (by omega) s2⟩
  · have hn : ¬ (j.slt i = true) := by
      rw [BitVec.slt_iff_toInt_lt]; have := h2.ge (by omega); omega
    rw [if_neg hn]
    exact Or.inr ⟨n, a1, a2, by omega, a4, a5⟩

/-- The answer with the column's value at it: 0 at the sentinel. -/
def NV (x : ℕ → EReal) (lo hi : ℕ) (i : BitVec 32) (v : EReal) : Prop :=
  IsNV (fun s => x s ≠ 0) lo hi i ∧ v = if 4096 ≤ i.toInt then 0 else x i.toInt.toNat

/-- The same with the value constrained only off the sentinel. -/
def NVw (x : ℕ → EReal) (lo hi : ℕ) (i : BitVec 32) (v : EReal) : Prop :=
  IsNV (fun s => x s ≠ 0) lo hi i ∧ (i.toInt < 4096 → v = x i.toInt.toNat)

theorem NV.weak {x : ℕ → EReal} {lo hi : ℕ} {i : BitVec 32} {v : EReal} (h : NV x lo hi i v) : NVw x lo hi i v :=
  ⟨h.1, fun h0 => by rw [h.2, if_neg (by omega)]⟩

theorem NV.seed (x : ℕ → EReal) (g : ℕ) (hg : g < 4096) :
    NV x g (g + 1) (if x g ≠ 0 then BitVec.ofNat 32 g else 4096#32) (x g) := by
  by_cases h : x g ≠ 0
  · rw [if_pos h]
    have e := toInt_ofNat_small g (by omega)
    refine ⟨Or.inr ⟨g, e, le_refl _, by omega, h, fun s s1 s2 => by omega⟩, ?_⟩
    rw [e, if_neg (by omega)]; simp
  · rw [if_neg h]
    refine ⟨Or.inl ⟨toInt_4096, fun s s1 s2 => by
      have : s = g := by omega
      subst this; exact h⟩, ?_⟩
    rw [toInt_4096, if_pos (by omega)]
    exact not_not.mp h

theorem NV.comb {x : ℕ → EReal} {lo mid hi : ℕ} {i j : BitVec 32} {v w : EReal}
    (h1 : NV x lo mid i v) (h2 : NVw x mid hi j w) (hlm : lo ≤ mid) (hmh : mid ≤ hi) (hhi : hi ≤ 4096) :
    NV x lo hi (if j.slt i then j else i) (if j.slt i then w else v) := by
  refine ⟨h1.1.comb h2.1 hlm hmh hhi, ?_⟩
  by_cases hp : j.slt i = true
  · rw [if_pos hp, if_pos hp]
    have hlt := BitVec.slt_iff_toInt_lt.mp hp
    have hle := h1.1.le (by omega)
    rw [if_neg (by omega)]
    exact h2.2 (by omega)
  · rw [if_neg hp, if_neg hp]; exact h1.2

/-! ## One output element -/

/-- The output at position `g` (as a word) from the entry `xg` there, the last observed position `pv` at or before it
    with its value `a`, and the first observed position `nv` at or after it with its value `b`: the interpolation
    between `a` at `start` and `b` one step before `end`, kept at the entry itself where the entry is observed or
    the run to fill is empty. -/
def blend (xg : EReal) (g pv nv : BitVec 32) (a b : EReal) : EReal :=
  let start := IntOp.maxsi pv 0#32
  let stop := Scalar.select (IntOp.cmpi .slt nv 4096#32) nv 4095#32
  let den := IntOp.subi (IntOp.subi stop start) 1#32
  let trel : EReal := (((IntOp.subi g start).toInt : ℝ) : EReal)
  let denf : EReal := (((IntOp.maxsi den 1#32).toInt : ℝ) : EReal)
  let interp : EReal := a + Ideal.div (trel * (b - a)) denf
  let fill : EReal := Scalar.select (IntOp.cmpi .sgt den 0#32) interp a
  let keep := IntOp.ori (IntOp.ori (Ideal.cmp .one xg 0) (IntOp.cmpi .sge start stop)) (IntOp.cmpi .sge g stop)
  Scalar.select keep xg fill

open Classical in
/-- The last observed position at or before `g` (−1 if none), as a function of the column. -/
def pvOf (x : ℕ → EReal) (g : ℕ) : BitVec 32 :=
  if h : ∃ i, IsPV (fun s => x s ≠ 0) 0 (g + 1) i then h.choose else 0

open Classical in
/-- The first observed position at or after `g` (4096 if none), as a function of the column. -/
def nvOf (x : ℕ → EReal) (g : ℕ) : BitVec 32 :=
  if h : ∃ i, IsNV (fun s => x s ≠ 0) g 4096 i then h.choose else 0

theorem pvOf_eq {x : ℕ → EReal} {g : ℕ} {i : BitVec 32} (h : IsPV (fun s => x s ≠ 0) 0 (g + 1) i) : pvOf x g = i := by
  have hex : ∃ i, IsPV (fun s => x s ≠ 0) 0 (g + 1) i := ⟨i, h⟩
  unfold pvOf; rw [dif_pos hex]; exact hex.choose_spec.unique h

theorem nvOf_eq {x : ℕ → EReal} {g : ℕ} {i : BitVec 32} (h : IsNV (fun s => x s ≠ 0) g 4096 i) : nvOf x g = i := by
  have hex : ∃ i, IsNV (fun s => x s ≠ 0) g 4096 i := ⟨i, h⟩
  unfold nvOf; rw [dif_pos hex]; exact IsNV.unique (le_refl _) hex.choose_spec h

/-- The output column at position `g` as a function of the input column alone. -/
def outSpec (x : ℕ → EReal) (g : ℕ) : EReal :=
  blend (x g) (BitVec.ofNat 32 g) (pvOf x g) (nvOf x g)
    (if (pvOf x g).toInt < 0 then 0 else x (pvOf x g).toInt.toNat)
    (if 4096 ≤ (nvOf x g).toInt then 0 else x (nvOf x g).toInt.toNat)

/-- Any scan that finds the two answers with their values computes `outSpec`. -/
theorem outSpec_eq {x : ℕ → EReal} {g : ℕ} {p n : BitVec 32} {a b : EReal}
    (hp : PV x 0 (g + 1) p a) (hn : NV x g 4096 n b) :
    blend (x g) (BitVec.ofNat 32 g) p n a b = outSpec x g := by
  unfold outSpec
  rw [pvOf_eq hp.1, nvOf_eq hn.1, ← hp.2, ← hn.2]

/-! ## Columns of an array, and the whole output array -/

/-- Column `(b, ·, d)` of a rank-3 array with 4096 positions on its middle axis, as a function on ℕ (zero outside). -/
def col3 {n0 n2 : ℕ} (x : (⟨3, ![n0, 4096, n2]⟩ : Shape).Idx → EReal) (b : Fin n0) (d : Fin n2) : ℕ → EReal :=
  fun s => if h : s < 4096 then x (ValueIdx.ix3 b ⟨s, h⟩ d) else 0

/-- The whole output array as a function of the whole input array: every column filled by itself. -/
def G {n0 n2 : ℕ} (x : (⟨3, ![n0, 4096, n2]⟩ : Shape).Idx → EReal) : (⟨3, ![n0, 4096, n2]⟩ : Shape).Idx → EReal :=
  fun i => outSpec (col3 x (i 0) (i 2)) (i 1).val

theorem G_apply {n0 n2 : ℕ} (x : (⟨3, ![n0, 4096, n2]⟩ : Shape).Idx → EReal) (b : Fin n0) (g : Fin 4096) (d : Fin n2) :
    G x (ValueIdx.ix3 b g d) = outSpec (col3 x b d) g.val := rfl

end Cert.Impute

end
-- ==== Proof.ScanStep.lean ====
/-
  One doubling step of a roll-and-select scan along an axis of extent 64, for any shape.

  The state is a pair of vectors: a position vector `idx` and a value vector `val`. Along the scanned axis, the
  entry at coordinate `p` of every line holds the answer (last observed position, or first observed position,
  with the column's value there) of a WINDOW of the column that line belongs to; a line's column `col j` and its
  window's origin `off j` do not depend on the coordinate along the axis, and one coordinate step is `u` column
  positions. A step rolls both vectors by `o` along the axis, masks the wrapped-around entries with the
  sentinel, and keeps whichever of the rolled and the present answer is the better one: the two windows are
  adjacent, so the result is the answer of their union (`PV.comb` / `NV.comb`): windows of `o` coordinates become
  windows of `2·o` coordinates, clipped at the line's ends.
-/
import Idealize.ShloMosaic.PureOps
import proofs.«130921_j29815662968985_2_alg».proof.Proof.Spec

noncomputable section

namespace Cert.Impute

open Idealize.ShloMosaic

/-! ## Words -/

theorem slt_ofNat (p o : ℕ) (hp : p < 4097) (ho : o < 4097) :
    (BitVec.ofNat 32 p).slt (BitVec.ofNat 32 o) = true ↔ p < o := by
  rw [BitVec.slt_iff_toInt_lt, toInt_ofNat_small p (by omega), toInt_ofNat_small o (by omega)]; omega

theorem sle_ofNat (p o : ℕ) (hp : p < 4097) (ho : o < 4097) :
    (BitVec.ofNat 32 p).sle (BitVec.ofNat 32 o) = true ↔ p ≤ o := by
  rw [BitVec.sle_iff_toInt_le, toInt_ofNat_small p (by omega), toInt_ofNat_small o (by omega)]; omega

section Step
variable {s : Shape} (a : Fin s.rank)

/-- The index `j` with its coordinate on axis `a` moved back by `n`, around the end. -/
def rotIdx (n : BitVec 32) (j : s.Idx) : s.Idx :=
  fun b => if b = a then ⟨((j b).val + s.size b - n.toNat % s.size b) % s.size b, Nat.mod_lt _ (Fin.pos (j b))⟩ else j b

/-- A rotation with no stride reads its operand at the moved index. -/
theorem rot_apply {α : Type} (n : BitVec 32) (x : s.Idx → α) (h : s.Rotates a none) (j : s.Idx) :
    dynamicRotate a n none x h j = x (rotIdx a n j) := rfl

theorem rotIdx_ne (n : BitVec 32) (j : s.Idx) (b : Fin s.rank) (hb : b ≠ a) : rotIdx a n j b = j b := by
  unfold rotIdx; rw [if_neg hb]

theorem rotIdx_val (n : BitVec 32) (j : s.Idx) :
    (rotIdx a n j a).val = ((j a).val + s.size a - n.toNat % s.size a) % s.size a := by
  unfold rotIdx; rw [if_pos rfl]

/-- The iota along one axis is the coordinate on it. -/
theorem iota_apply1 (hi : s.Iotas .tc 32 [a]) (j : s.Idx) :
    iota .tc s 32 [a] hi j = BitVec.ofNat 32 (j a).val := by
  show BitVec.ofNat 32 (0 * s.size a + (j a).val) = _
  rw [Nat.zero_mul, Nat.zero_add]

/-- `f` does not depend on the coordinate along axis `a`. -/
def Indep {β : Type} (f : s.Idx → β) : Prop := ∀ j j' : s.Idx, (∀ b, b ≠ a → j' b = j b) → f j' = f j

/-! ## The last observed position: rolling forward -/

/-- Every entry holds the answer of the window of `o` coordinates ending at its own (clipped at the line's start). -/
def InvF (col : s.Idx → ℕ → EReal) (off : s.Idx → ℕ) (u o : ℕ) (idx : IVec s 32) (val : s.Idx → EReal) : Prop :=
  ∀ j : s.Idx, PV (col j) (off j + u * ((j a).val + 1 - o)) (off j + u * ((j a).val + 1)) (idx j) (val j)

/-- The position vector rolled by `k`, the wrapped entries masked with −1. -/
def maskF (hi : s.Iotas .tc 32 [a]) (hr : s.Rotates a none) (k : BitVec 32) (idx : IVec s 32) : IVec s 32 :=
  select (cmpi .slt (iota .tc s 32 [a] hi) (broadcast s k)) (broadcast s 4294967295#32) (dynamicRotate a k none idx hr)

theorem stepF (hsz : s.size a = 64) {col : s.Idx → ℕ → EReal} {off : s.Idx → ℕ} (hcol : Indep a col) (hoff : Indep a off)
    (u o : ℕ) (ho64 : o < 64) (hi : s.Iotas .tc 32 [a]) (hr : s.Rotates a none)
    (idx : IVec s 32) (val : s.Idx → EReal) (h : InvF a col off u o idx val) :
    InvF a col off u (2 * o)
      (select (cmpi .sgt (maskF a hi hr (BitVec.ofNat 32 o) idx) idx) (maskF a hi hr (BitVec.ofNat 32 o) idx) idx)
      (select (cmpi .sgt (maskF a hi hr (BitVec.ofNat 32 o) idx) idx) (dynamicRotate a (BitVec.ofNat 32 o) none val hr) val) := by
  intro j
  obtain ⟨p, hp⟩ : ∃ p, (j a).val = p := ⟨_, rfl⟩
  have hp64 : p < 64 := by have := (j a).isLt; omega
  have hm : maskF a hi hr (BitVec.ofNat 32 o) idx j
      = if p < o then 4294967295#32 else idx (rotIdx a (BitVec.ofNat 32 o) j) := by
    show Scalar.select (IntOp.cmpi .slt (iota .tc s 32 [a] hi j) (BitVec.ofNat 32 o)) 4294967295#32
      (dynamicRotate a (BitVec.ofNat 32 o) none idx hr j) = _
    rw [select_slt, iota_apply1, rot_apply, hp]
    by_cases hlt : p < o
    · rw [if_pos hlt, if_pos ((slt_ofNat p o (by omega) (by omega)).mpr hlt)]
    · rw [if_neg hlt, if_neg (fun hh => hlt ((slt_ofNat p o (by omega) (by omega)).mp hh))]
  show PV _ _ _
    (Scalar.select (IntOp.cmpi .sgt (maskF a hi hr (BitVec.ofNat 32 o) idx j) (idx j)) (maskF a hi hr (BitVec.ofNat 32 o) idx j) (idx j))
    (Scalar.select (IntOp.cmpi .sgt (maskF a hi hr (BitVec.ofNat 32 o) idx j) (idx j)) (dynamicRotate a (BitVec.ofNat 32 o) none val hr j) (val j))
  rw [hm, select_sgt, select_sgt, rot_apply, hp]
  have hj := h j
  rw [hp] at hj
  by_cases hlt : p < o
  · rw [if_pos hlt]
    have hn : ¬ ((idx j).slt 4294967295#32 = true) := by
      rw [BitVec.slt_iff_toInt_lt, toInt_neg_one]; have := hj.1.ge; omega
    rw [if_neg hn, if_neg hn]
    have e : p + 1 - 2 * o = p + 1 - o := by omega
    rw [e]; exact hj
  · rw [if_neg hlt]
    have hj' := h (rotIdx a (BitVec.ofNat 32 o) j)
    have hv : (rotIdx a (BitVec.ofNat 32 o) j a).val = p - o := by
      rw [rotIdx_val, hp, BitVec.toNat_ofNat]
      have key : ∀ N, N = 64 → (p + N - o % 2 ^ 32 % N) % N = p - o := by
        intro N hN; subst hN; omega
      exact key _ hsz
    rw [hv, hcol _ _ (fun b hb => rotIdx_ne a _ j b hb), hoff _ _ (fun b hb => rotIdx_ne a _ j b hb)] at hj'
    have e1 : p - o + 1 = p + 1 - o := by omega
    have e2 : p + 1 - o - o = p + 1 - 2 * o := by omega
    rw [e1, e2] at hj'
    exact PV.comb hj'.weak hj (Nat.add_le_add_left (Nat.mul_le_mul_left u (by omega)) _)
      (Nat.add_le_add_left (Nat.mul_le_mul_left u (by omega)) _)

/-! ## The first observed position: rolling backward -/

/-- Every entry holds the answer of the window of `o` coordinates starting at its own (clipped at the line's end). -/
def InvB (col : s.Idx → ℕ → EReal) (off : s.Idx → ℕ) (u o : ℕ) (idx : IVec s 32) (val : s.Idx → EReal) : Prop :=
  ∀ j : s.Idx, NV (col j) (off j + u * (j a).val) (off j + u * min ((j a).val + o) 64) (idx j) (val j)

/-- The position vector rolled by `k` (that is, back by `64 − k`), the wrapped entries masked with 4096. -/
def maskB (hi : s.Iotas .tc 32 [a]) (hr : s.Rotates a none) (k : BitVec 32) (idx : IVec s 32) : IVec s 32 :=
  select (cmpi .sge (iota .tc s 32 [a] hi) (broadcast s k)) (broadcast s 4096#32) (dynamicRotate a k none idx hr)

theorem stepB (hsz : s.size a = 64) {col : s.Idx → ℕ → EReal} {off : s.Idx → ℕ} (hcol : Indep a col) (hoff : Indep a off)
    (u : ℕ) (hb : ∀ j, off j + u * 64 ≤ 4096) (k : ℕ) (hk : 0 < k) (hk64 : k < 64) (hi : s.Iotas .tc 32 [a]) (hr : s.Rotates a none)
    (idx : IVec s 32) (val : s.Idx → EReal) (h : InvB a col off u (64 - k) idx val) :
    InvB a col off u (2 * (64 - k))
      (select (cmpi .slt (maskB a hi hr (BitVec.ofNat 32 k) idx) idx) (maskB a hi hr (BitVec.ofNat 32 k) idx) idx)
      (select (cmpi .slt (maskB a hi hr (BitVec.ofNat 32 k) idx) idx) (dynamicRotate a (BitVec.ofNat 32 k) none val hr) val) := by
  intro j
  obtain ⟨p, hp⟩ : ∃ p, (j a).val = p := ⟨_, rfl⟩
  have hp64 : p < 64 := by have := (j a).isLt; omega
  have hm : maskB a hi hr (BitVec.ofNat 32 k) idx j
      = if k ≤ p then 4096#32 else idx (rotIdx a (BitVec.ofNat 32 k) j) := by
    show Scalar.select (IntOp.cmpi .sge (iota .tc s 32 [a] hi j) (BitVec.ofNat 32 k)) 4096#32
      (dynamicRotate a (BitVec.ofNat 32 k) none idx hr j) = _
    rw [select_sge, iota_apply1, rot_apply, hp]
    by_cases hle : k ≤ p
    · rw [if_pos hle, if_pos ((sle_ofNat k p (by omega) (by omega)).mpr hle)]
    · rw [if_neg hle, if_neg (fun hh => hle ((sle_ofNat k p (by omega) (by omega)).mp hh))]
  show NV _ _ _
    (Scalar.select (IntOp.cmpi .slt (maskB a hi hr (BitVec.ofNat 32 k) idx j) (idx j)) (maskB a hi hr (BitVec.ofNat 32 k) idx j) (idx j))
    (Scalar.select (IntOp.cmpi .slt (maskB a hi hr (BitVec.ofNat 32 k) idx j) (idx j)) (dynamicRotate a (BitVec.ofNat 32 k) none val hr j) (val j))
  rw [hm, select_slt, select_slt, rot_apply, hp]
  have hj := h j
  rw [hp] at hj
  have hbj := hb j
  by_cases hle : k ≤ p
  · rw [if_pos hle]
    have hhi : off j + u * min (p + (64 - k)) 64 ≤ 4096 :=
      le_trans (Nat.add_le_add_left (Nat.mul_le_mul_left u (by omega)) _) hbj
    have hn : ¬ ((4096#32 : BitVec 32).slt (idx j) = true) := by
      rw [BitVec.slt_iff_toInt_lt, toInt_4096]; have := hj.1.le hhi; omega
    rw [if_neg hn, if_neg hn]
    have e : min (p + 2 * (64 - k)) 64 = min (p + (64 - k)) 64 := by omega
    rw [e]; exact hj
  · rw [if_neg hle]
    have hj' := h (rotIdx a (BitVec.ofNat 32 k) j)
    have hv : (rotIdx a (BitVec.ofNat 32 k) j a).val = p + (64 - k) := by
      rw [rotIdx_val, hp, BitVec.toNat_ofNat]
      have key : ∀ N, N = 64 → (p + N - k % 2 ^ 32 % N) % N = p + (64 - k) := by
        intro N hN; subst hN; omega
      exact key _ hsz
    rw [hv, hcol _ _ (fun b hb => rotIdx_ne a _ j b hb), hoff _ _ (fun b hb => rotIdx_ne a _ j b hb)] at hj'
    have e1 : min (p + (64 - k)) 64 = p + (64 - k) := by omega
    have e2 : p + (64 - k) + (64 - k) = p + 2 * (64 - k) := by omega
    rw [e1] at hj
    rw [e2] at hj'
    exact NV.comb hj hj'.weak (Nat.add_le_add_left (Nat.mul_le_mul_left u (by omega)) _)
      (Nat.add_le_add_left (Nat.mul_le_mul_left u (by omega)) _)
      (le_trans (Nat.add_le_add_left (Nat.mul_le_mul_left u (by omega)) _) hbj)

end Step

end Cert.Impute

end
-- ==== Proof.Layout.lean ====
/-
  The re-layings between a block [1, 4096, 128] and its chunked form [1, 64, 64, 128] (position g = 64·c + t),
  the slice of one position of every chunk, the casts that drop or insert that unit axis, and the broadcast of a
  per-chunk value back over the chunk: each read at an index given by its coordinates.
-/
import Idealize.ShloMosaic.Lib.Pipeline.Value
import Idealize.ShloMosaic.Lib.ValueIdx

noncomputable section

namespace Cert.Impute

open Idealize.ShloMosaic Idealize.ShloMosaic.ValueIdx

variable {α : Type}

/-- A rank-4 index whose leading axis has extent one. -/
theorem eq_ix4_unit {n1 n2 n3 : ℕ} (j : (⟨4, ![1, n1, n2, n3]⟩ : Shape).Idx) : j = ix4 (0 : Fin 1) (j 1) (j 2) (j 3) := by
  funext a
  match a with
  | ⟨0, _⟩ => exact Fin.ext (by have h : (j 0).val < 1 := (j 0).isLt; show (j 0).val = 0; omega)
  | ⟨1, _⟩ => rfl
  | ⟨2, _⟩ => rfl
  | ⟨3, _⟩ => rfl

/-- A rank-3 index whose leading axis has extent one. -/
theorem eq_ix3_unit {n1 n2 : ℕ} (j : (⟨3, ![1, n1, n2]⟩ : Shape).Idx) : j = ix3 (0 : Fin 1) (j 1) (j 2) := by
  funext a
  match a with
  | ⟨0, _⟩ => exact Fin.ext (by have h : (j 0).val < 1 := (j 0).isLt; show (j 0).val = 0; omega)
  | ⟨1, _⟩ => rfl
  | ⟨2, _⟩ => rfl

/-- The position word of chunk `c`, place `t`: `c · 64 + t` computed in 32-bit words is the word of `64·c + t`. -/
theorem word_pos (c t : ℕ) : IntOp.addi (IntOp.muli (BitVec.ofNat 32 c) 64#32) (BitVec.ofNat 32 t) = BitVec.ofNat 32 (64 * c + t) := by
  unfold IntOp.addi IntOp.muli
  rw [Nat.mul_comm 64 c, BitVec.ofNat_add, BitVec.ofNat_mul]

/-- A block read in chunked form: chunk `c`, position `t` of it, is position `64·c + t`. -/
theorem cast_chunks_apply (x : (⟨3, ![1, 4096, 128]⟩ : Shape).Idx → α)
    (h : (⟨3, ![1, 4096, 128]⟩ : Shape).ShapeCasts ⟨4, ![1, 64, 64, 128]⟩) (c t : Fin 64) (d : Fin 128) :
    shapeCast (⟨4, ![1, 64, 64, 128]⟩ : Shape) x h (ix4 (0 : Fin 1) c t d)
      = x (ix3 (0 : Fin 1) ⟨64 * c.val + t.val, by omega⟩ d) := by
  refine shapeCast_apply x h _ _ ?_
  rewrite [Shape.rowMajor_val_three, Shape.rowMajor_val_four]
  show ((0 : ℕ) * 4096 + (64 * c.val + t.val)) * 128 + d.val = ((((0 : ℕ) * 64 + c.val) * 64 + t.val) * 128 + d.val)
  omega

/-- The chunked form read back as a block: position `g` is chunk `g / 64`, position `g % 64` of it. -/
theorem cast_flat_apply (y : (⟨4, ![1, 64, 64, 128]⟩ : Shape).Idx → α)
    (h : (⟨4, ![1, 64, 64, 128]⟩ : Shape).ShapeCasts ⟨3, ![1, 4096, 128]⟩) (g : Fin 4096) (d : Fin 128) :
    shapeCast (⟨3, ![1, 4096, 128]⟩ : Shape) y h (ix3 (0 : Fin 1) g d)
      = y (ix4 (0 : Fin 1) ⟨g.val / 64, by omega⟩ ⟨g.val % 64, by omega⟩ d) := by
  refine shapeCast_apply y h _ _ ?_
  rewrite [Shape.rowMajor_val_three, Shape.rowMajor_val_four]
  show ((((0 : ℕ) * 64 + g.val / 64) * 64 + g.val % 64) * 128 + d.val) = ((0 : ℕ) * 4096 + g.val) * 128 + d.val
  omega

/-- The chunked form read back as a block, at the position of chunk `c`, place `t`. -/
theorem cast_flat_apply' (y : (⟨4, ![1, 64, 64, 128]⟩ : Shape).Idx → α)
    (h : (⟨4, ![1, 64, 64, 128]⟩ : Shape).ShapeCasts ⟨3, ![1, 4096, 128]⟩) (c t : Fin 64) (d : Fin 128) :
    shapeCast (⟨3, ![1, 4096, 128]⟩ : Shape) y h (ix3 (0 : Fin 1) ⟨64 * c.val + t.val, by omega⟩ d)
      = y (ix4 (0 : Fin 1) c t d) := by
  refine shapeCast_apply y h _ _ ?_
  rewrite [Shape.rowMajor_val_three, Shape.rowMajor_val_four]
  show ((((0 : ℕ) * 64 + c.val) * 64 + t.val) * 128 + d.val) = ((0 : ℕ) * 4096 + (64 * c.val + t.val)) * 128 + d.val
  omega

/-- The slice of position `p` of every chunk. -/
theorem slice_pos_apply (p : ℕ) (hp : p < 64) (y : (⟨4, ![1, 64, 64, 128]⟩ : Shape).Idx → α)
    (h : (⟨4, ![1, 64, 64, 128]⟩ : Shape).Slices ![0, 0, p, 0] ⟨4, ![1, 64, 1, 128]⟩) (c : Fin 64) (d : Fin 128) :
    extractStridedSlice (⟨4, ![1, 64, 1, 128]⟩ : Shape) ![0, 0, p, 0] y h (ix4 (0 : Fin 1) c (0 : Fin 1) d)
      = y (ix4 (0 : Fin 1) c ⟨p, hp⟩ d) := by
  refine extractStridedSlice_apply _ y h _ _ fun a => ?_
  match a with
  | ⟨0, _⟩ => rfl
  | ⟨1, _⟩ => show c.val = 0 + c.val; omega
  | ⟨2, _⟩ => show p = p + 0; omega
  | ⟨3, _⟩ => show d.val = 0 + d.val; omega

/-- Dropping the unit axis of a per-chunk value. -/
theorem cast_drop_apply (z : (⟨4, ![1, 64, 1, 128]⟩ : Shape).Idx → α)
    (h : (⟨4, ![1, 64, 1, 128]⟩ : Shape).ShapeCasts ⟨3, ![1, 64, 128]⟩) (c : Fin 64) (d : Fin 128) :
    shapeCast (⟨3, ![1, 64, 128]⟩ : Shape) z h (ix3 (0 : Fin 1) c d) = z (ix4 (0 : Fin 1) c (0 : Fin 1) d) := by
  refine shapeCast_apply z h _ _ ?_
  rewrite [Shape.rowMajor_val_three, Shape.rowMajor_val_four]
  show ((((0 : ℕ) * 64 + c.val) * 1 + 0) * 128 + d.val) = ((0 : ℕ) * 64 + c.val) * 128 + d.val
  omega

/-- Inserting the unit axis of a per-chunk value. -/
theorem cast_insert_apply (w : (⟨3, ![1, 64, 128]⟩ : Shape).Idx → α)
    (h : (⟨3, ![1, 64, 128]⟩ : Shape).ShapeCasts ⟨4, ![1, 64, 1, 128]⟩) (c : Fin 64) (d : Fin 128) :
    shapeCast (⟨4, ![1, 64, 1, 128]⟩ : Shape) w h (ix4 (0 : Fin 1) c (0 : Fin 1) d) = w (ix3 (0 : Fin 1) c d) := by
  refine shapeCast_apply w h _ _ ?_
  rewrite [Shape.rowMajor_val_three, Shape.rowMajor_val_four]
  show ((0 : ℕ) * 64 + c.val) * 128 + d.val = ((((0 : ℕ) * 64 + c.val) * 1 + 0) * 128 + d.val)
  omega

/-- A per-chunk value broadcast over the chunk's positions. -/
theorem bcast_chunk_apply (z : (⟨4, ![1, 64, 1, 128]⟩ : Shape).Idx → α)
    (h : (⟨4, ![1, 64, 1, 128]⟩ : Shape).Broadcasts ⟨4, ![1, 64, 64, 128]⟩) (c t : Fin 64) (d : Fin 128) :
    broadcastTo (⟨4, ![1, 64, 64, 128]⟩ : Shape) z h (ix4 (0 : Fin 1) c t d) = z (ix4 (0 : Fin 1) c (0 : Fin 1) d) := by
  refine broadcastTo_apply z h _ _ fun a => ?_
  match a with
  | ⟨0, _⟩ => rfl
  | ⟨1, _⟩ => show c.val = if (64 : ℕ) = 1 then 0 else c.val; rw [if_neg (by decide)]
  | ⟨2, _⟩ => rfl
  | ⟨3, _⟩ => show d.val = if (128 : ℕ) = 1 then 0 else d.val; rw [if_neg (by decide)]

end Cert.Impute

end
-- ==== Proof.KernelLocal.lean ====
/-
  The scan inside each chunk. The block [1, 4096, 128] is read as 64 chunks of 64 positions; along a chunk
  (axis 2 of [1, 64, 64, 128]) six doubling steps turn each entry's one-position answer into the answer of the
  window from the chunk's start to the entry (last observed position), and from the entry to the chunk's end (first
  observed position). A line's column is the lane's column of the block, its origin is 64 times the chunk.
-/
import proofs.«130921_j29815662968985_2_alg».proof.Proof.Gen.KernelIdeal.Skeleton
import proofs.«130921_j29815662968985_2_alg».proof.Proof.ScanStep
import proofs.«130921_j29815662968985_2_alg».proof.Proof.Layout
import Idealize.ShloMosaic.PureOps.Ideal.Laws

noncomputable section

namespace Cert.Impute

open Idealize.ShloMosaic Idealize.ShloMosaic.ValueIdx Cert.KernelIdeal Cert.KernelIdeal.Gen

variable (x0 : Vec Ideal S1x4096x128 .f32)

/-- The lane of an index of the chunked block. -/
def lane4 (j : S1x64x64x128.Idx) : Fin 128 := ⟨(j 3).val, (j 3).isLt⟩
/-- The column a line of the chunked block belongs to: the lane's. -/
def colL : S1x64x64x128.Idx → ℕ → EReal := fun j => col3 x0 0 (lane4 j)
/-- The origin of a line of the chunked block: 64 times its chunk. -/
def offL : S1x64x64x128.Idx → ℕ := fun j => 64 * (j 1).val

theorem colL_indep : Indep (s := S1x64x64x128) 2 (colL x0) := fun j j' h => by
  have e : lane4 j' = lane4 j := Fin.ext (congrArg Fin.val (h 3 (by decide)))
  show col3 x0 0 (lane4 j') = col3 x0 0 (lane4 j)
  rw [e]
theorem offL_indep : Indep (s := S1x64x64x128) 2 offL := fun j j' h => by
  unfold offL; rw [h 1 (by decide)]
theorem offL_le (j : S1x64x64x128.Idx) : offL j + 1 * 64 ≤ 4096 := by
  have h : (j 1).val < 64 := (j 1).isLt
  unfold offL; omega

/-- The zero the body compares against is 0. -/
theorem zero_lit : (Scalar.ofBits (F := Ideal) .f32 0x00000000#32 : Ideal .f32) = 0 := Ideal.ofBits_zero_f32

/-- The chunked block at chunk `c`, place `t` is the column at `64·c + t`. -/
theorem chunked_apply (c t : Fin 64) (d : Fin 128) :
    k0_pay2 (F := Ideal) x0 (ix4 (0 : Fin 1) c t d) = col3 x0 0 d (64 * c.val + t.val) := by
  unfold col3
  rw [dif_pos (by omega)]
  exact cast_chunks_apply x0 _ c t d

/-- The global position word. -/
theorem pos_apply (c t : Fin 64) (d : Fin 128) :
    k0_pay4 (ix4 (0 : Fin 1) c t d) = BitVec.ofNat 32 (64 * c.val + t.val) := by
  show IntOp.addi (IntOp.muli (iota .tc S1x64x64x128 32 [1] _ (ix4 (0 : Fin 1) c t d)) 64#32)
    (iota .tc S1x64x64x128 32 [2] _ (ix4 (0 : Fin 1) c t d)) = _
  rw [iota_apply1, iota_apply1]
  exact word_pos c.val t.val

/-- The observed mask. -/
theorem mask_apply (c t : Fin 64) (d : Fin 128) (u v : BitVec 32) :
    Scalar.select (k0_pay3 (F := Ideal) x0 (ix4 (0 : Fin 1) c t d)) u v
      = if col3 x0 0 d (64 * c.val + t.val) ≠ 0 then u else v := by
  show Scalar.select (Ideal.cmp .one (k0_pay2 (F := Ideal) x0 (ix4 (0 : Fin 1) c t d)) (Scalar.ofBits (F := Ideal) .f32 0x00000000#32)) u v = _
  rw [chunked_apply, zero_lit, select_ne_zero]

/-- One position each: the forward seed. -/
theorem seedF : InvF (s := S1x64x64x128) 2 (colL x0) offL 1 1 (k0_pay5 (F := Ideal) x0) (k0_pay2 (F := Ideal) x0) := by
  intro j
  obtain ⟨c, t, d, rfl⟩ : ∃ (c t : Fin 64) (d : Fin 128), j = ix4 (0 : Fin 1) c t d := ⟨j 1, j 2, j 3, eq_ix4_unit j⟩
  show PV (col3 x0 0 d) (64 * c.val + 1 * (t.val + 1 - 1)) (64 * c.val + 1 * (t.val + 1))
    (Scalar.select (k0_pay3 (F := Ideal) x0 (ix4 (0 : Fin 1) c t d)) (k0_pay4 (ix4 (0 : Fin 1) c t d)) 4294967295#32)
    (k0_pay2 (F := Ideal) x0 (ix4 (0 : Fin 1) c t d))
  rw [mask_apply, pos_apply, chunked_apply]
  have e1 : 64 * c.val + 1 * (t.val + 1 - 1) = 64 * c.val + t.val := by omega
  have e2 : 64 * c.val + 1 * (t.val + 1) = 64 * c.val + t.val + 1 := by omega
  rw [e1, e2]
  exact PV.seed (col3 x0 0 d) (64 * c.val + t.val) (by omega)

/-- One position each: the backward seed. -/
theorem seedB : InvB (s := S1x64x64x128) 2 (colL x0) offL 1 1 (k0_pay6 (F := Ideal) x0) (k0_pay2 (F := Ideal) x0) := by
  intro j
  obtain ⟨c, t, d, rfl⟩ : ∃ (c t : Fin 64) (d : Fin 128), j = ix4 (0 : Fin 1) c t d := ⟨j 1, j 2, j 3, eq_ix4_unit j⟩
  show NV (col3 x0 0 d) (64 * c.val + 1 * t.val) (64 * c.val + 1 * min (t.val + 1) 64)
    (Scalar.select (k0_pay3 (F := Ideal) x0 (ix4 (0 : Fin 1) c t d)) (k0_pay4 (ix4 (0 : Fin 1) c t d)) 4096#32)
    (k0_pay2 (F := Ideal) x0 (ix4 (0 : Fin 1) c t d))
  rw [mask_apply, pos_apply, chunked_apply]
  have e1 : 64 * c.val + 1 * t.val = 64 * c.val + t.val := by omega
  have e2 : 64 * c.val + 1 * min (t.val + 1) 64 = 64 * c.val + t.val + 1 := by omega
  rw [e1, e2]
  exact NV.seed (col3 x0 0 d) (64 * c.val + t.val) (by omega)

/-- The place of an entry within its chunk, as a word. -/
abbrev I4 : IVec S1x64x64x128 32 := iota .tc S1x64x64x128 32 [2] iota_S1x64x64x128_d2_w32

/-- After the six forward steps every entry holds the last observed position from its chunk's start to itself. -/
theorem localF :
    InvF (s := S1x64x64x128) 2 (colL x0) offL 1 64
      (k0_pay43 I4 (k0_pay30 I4 (k0_pay16 (F := Ideal) x0)))
      (k0_pay44 (F := Ideal) I4 (k0_pay30 I4 (k0_pay16 (F := Ideal) x0)) (k0_pay31 (F := Ideal) I4 (k0_pay16 (F := Ideal) x0) (k0_pay17 (F := Ideal) x0))) := by
  have st := fun (o : ℕ) (ho : o < 64) (idx : IVec S1x64x64x128 32) (val : S1x64x64x128.Idx → EReal) =>
    stepF (s := S1x64x64x128) 2 rfl (colL_indep x0) offL_indep 1 o ho iota_S1x64x64x128_d2_w32 rotates_S1x64x64x128_d2 idx val
  have h0 := seedF x0
  have h1 : InvF (s := S1x64x64x128) 2 (colL x0) offL 1 2 (k0_pay9 (F := Ideal) x0)
      (select (k0_pay8 (F := Ideal) x0) (dynamicRotate 2 1#32 none (k0_pay2 (F := Ideal) x0) rotates_S1x64x64x128_d2) (k0_pay2 (F := Ideal) x0)) :=
    st 1 (by decide) _ _ h0
  have h2 : InvF (s := S1x64x64x128) 2 (colL x0) offL 1 4 (k0_pay16 (F := Ideal) x0) (k0_pay17 (F := Ideal) x0) :=
    st 2 (by decide) _ _ h1
  have h3 : InvF (s := S1x64x64x128) 2 (colL x0) offL 1 8 (k0_pay23 I4 (k0_pay16 (F := Ideal) x0))
      (select (k0_pay22 I4 (k0_pay16 (F := Ideal) x0)) (dynamicRotate 2 4#32 none (k0_pay17 (F := Ideal) x0) rotates_S1x64x64x128_d2) (k0_pay17 (F := Ideal) x0)) :=
    st 4 (by decide) _ _ h2
  have h4 : InvF (s := S1x64x64x128) 2 (colL x0) offL 1 16 (k0_pay30 I4 (k0_pay16 (F := Ideal) x0))
      (k0_pay31 (F := Ideal) I4 (k0_pay16 (F := Ideal) x0) (k0_pay17 (F := Ideal) x0)) :=
    st 8 (by decide) _ _ h3
  generalize k0_pay30 I4 (k0_pay16 (F := Ideal) x0) = v74 at h4 ⊢
  generalize k0_pay31 (F := Ideal) I4 (k0_pay16 (F := Ideal) x0) (k0_pay17 (F := Ideal) x0) = v75 at h4 ⊢
  have h5 : InvF (s := S1x64x64x128) 2 (colL x0) offL 1 32 (k0_pay37 I4 v74)
      (select (k0_pay36 I4 v74) (dynamicRotate 2 16#32 none v75 rotates_S1x64x64x128_d2) v75) :=
    st 16 (by decide) _ _ h4
  exact st 32 (by decide) _ _ h5

/-- After the six backward steps every entry holds the first observed position from itself to its chunk's end. -/
theorem localB :
    InvB (s := S1x64x64x128) 2 (colL x0) offL 1 64
      (k0_pay47 I4 (k0_pay26 I4 (k0_pay12 (F := Ideal) x0)) (k0_pay32 I4 (k0_pay12 (F := Ideal) x0)))
      (k0_pay48 (F := Ideal) I4 (k0_pay26 I4 (k0_pay12 (F := Ideal) x0)) (k0_pay27 (F := Ideal) I4 (k0_pay12 (F := Ideal) x0) (k0_pay13 (F := Ideal) x0)) (k0_pay32 I4 (k0_pay12 (F := Ideal) x0))) := by
  have st := fun (k : ℕ) (hk : 0 < k) (hk64 : k < 64) (idx : IVec S1x64x64x128 32) (val : S1x64x64x128.Idx → EReal) =>
    stepB (s := S1x64x64x128) 2 rfl (colL_indep x0) offL_indep 1 offL_le k hk hk64 iota_S1x64x64x128_d2_w32 rotates_S1x64x64x128_d2 idx val
  have h0 := seedB x0
  have h1 : InvB (s := S1x64x64x128) 2 (colL x0) offL 1 2 (k0_pay12 (F := Ideal) x0) (k0_pay13 (F := Ideal) x0) :=
    st 63 (by decide) (by decide) _ _ h0
  generalize k0_pay12 (F := Ideal) x0 = v29 at h1 ⊢
  generalize k0_pay13 (F := Ideal) x0 = v30 at h1 ⊢
  have h2 : InvB (s := S1x64x64x128) 2 (colL x0) offL 1 4 (k0_pay20 I4 v29)
      (select (k0_pay19 I4 v29) (dynamicRotate 2 62#32 none v30 rotates_S1x64x64x128_d2) v30) :=
    st 62 (by decide) (by decide) _ _ h1
  have h3 : InvB (s := S1x64x64x128) 2 (colL x0) offL 1 8 (k0_pay26 I4 v29) (k0_pay27 (F := Ideal) I4 v29 v30) :=
    st 60 (by decide) (by decide) _ _ h2
  have h4 : InvB (s := S1x64x64x128) 2 (colL x0) offL 1 16 (k0_pay34 (k0_pay26 I4 v29) (k0_pay32 I4 v29))
      (select (k0_pay33 (k0_pay26 I4 v29) (k0_pay32 I4 v29)) (dynamicRotate 2 56#32 none (k0_pay27 (F := Ideal) I4 v29 v30) rotates_S1x64x64x128_d2) (k0_pay27 (F := Ideal) I4 v29 v30)) :=
    st 56 (by decide) (by decide) _ _ h3
  generalize k0_pay26 I4 v29 = v65 at h4 ⊢
  generalize k0_pay32 I4 v29 = v80 at h4 ⊢
  generalize k0_pay27 (F := Ideal) I4 v29 v30 = v66 at h4 ⊢
  have h5 : InvB (s := S1x64x64x128) 2 (colL x0) offL 1 32 (k0_pay40 I4 v65 v80)
      (select (k0_pay39 I4 v65 v80) (dynamicRotate 2 48#32 none (select (k0_pay33 v65 v80) (dynamicRotate 2 56#32 none v66 rotates_S1x64x64x128_d2) v66) rotates_S1x64x64x128_d2)
        (select (k0_pay33 v65 v80) (dynamicRotate 2 56#32 none v66 rotates_S1x64x64x128_d2) v66)) :=
    st 48 (by decide) (by decide) _ _ h4
  exact st 32 (by decide) (by decide) _ _ h5

end Cert.Impute

end
-- ==== Proof.KernelChunk.lean ====
/-
  The scan across chunks. Each chunk's last entry of the forward scan (its first entry of the backward scan) is
  the chunk's own answer; along the chunk axis (axis 1 of [1, 64, 128]; one coordinate step is 64 positions) six
  doubling steps give every chunk the answer from the column's start to the chunk's end (from the chunk's start to
  the column's end), and one more roll by a single chunk gives the answer of everything strictly before the
  chunk (strictly after it), the sentinel for the first (last) chunk.
-/
import proofs.«130921_j29815662968985_2_alg».proof.Proof.KernelLocal

noncomputable section

namespace Cert.Impute

open Idealize.ShloMosaic Idealize.ShloMosaic.ValueIdx Cert.KernelIdeal Cert.KernelIdeal.Gen

variable (x0 : Vec Ideal S1x4096x128 .f32)

/-- The lane of an index of the per-chunk vectors. -/
def lane3 (j : S1x64x128.Idx) : Fin 128 := ⟨(j 2).val, (j 2).isLt⟩
/-- The column a line of the per-chunk vectors belongs to: the lane's. -/
def colC : S1x64x128.Idx → ℕ → EReal := fun j => col3 x0 0 (lane3 j)
/-- Every line of the per-chunk vectors starts at the column's start. -/
def offC : S1x64x128.Idx → ℕ := fun _ => 0

theorem colC_indep : Indep (s := S1x64x128) 1 (colC x0) := fun j j' h => by
  have e : lane3 j' = lane3 j := Fin.ext (congrArg Fin.val (h 2 (by decide)))
  show col3 x0 0 (lane3 j') = col3 x0 0 (lane3 j)
  rw [e]
theorem offC_indep : Indep (s := S1x64x128) 1 offC := fun _ _ _ => rfl
theorem offC_le (j : S1x64x128.Idx) : offC j + 64 * 64 ≤ 4096 := by unfold offC; omega

/-- The chunk of an entry of the per-chunk vectors, as a word. -/
abbrev I3 : IVec S1x64x128 32 := iota .tc S1x64x128 32 [1] iota_S1x64x128_d1_w32

/-- A chunk's place `p` of a chunked vector, as a per-chunk vector. -/
theorem pick_apply {α : Type} (p : ℕ) (hp : p < 64) (y : S1x64x64x128.Idx → α)
    (hs : S1x64x64x128.Slices ![0, 0, p, 0] S1x64x1x128) (c : Fin 64) (d : Fin 128) :
    shapeCast S1x64x128 (extractStridedSlice S1x64x1x128 ![0, 0, p, 0] y hs) shapeCasts_S1x64x1x128_S1x64x128 (ix3 (0 : Fin 1) c d)
      = y (ix4 (0 : Fin 1) c ⟨p, hp⟩ d) :=
  (cast_drop_apply _ _ c d).trans (slice_pos_apply p hp y hs c d)

/-- The forward seeds across chunks: each chunk's last entry. -/
theorem seedCF (idx : IVec S1x64x64x128 32) (val : S1x64x64x128.Idx → EReal)
    (h : InvF (s := S1x64x64x128) 2 (colL x0) offL 1 64 idx val) :
    InvF (s := S1x64x128) 1 (colC x0) offC 64 1
      (shapeCast S1x64x128 (extractStridedSlice S1x64x1x128 ![0, 0, 63, 0] idx slices_S1x64x64x128_o0_0_63_0_S1x64x1x128) shapeCasts_S1x64x1x128_S1x64x128)
      (shapeCast S1x64x128 (extractStridedSlice S1x64x1x128 ![0, 0, 63, 0] val slices_S1x64x64x128_o0_0_63_0_S1x64x1x128) shapeCasts_S1x64x1x128_S1x64x128) := by
  intro j
  obtain ⟨c, d, rfl⟩ : ∃ (c : Fin 64) (d : Fin 128), j = ix3 (0 : Fin 1) c d := ⟨j 1, j 2, eq_ix3_unit j⟩
  rw [pick_apply 63 (by decide), pick_apply 63 (by decide)]
  have hj := h (ix4 (0 : Fin 1) c ⟨63, by decide⟩ d)
  show PV (col3 x0 0 d) (0 + 64 * (c.val + 1 - 1)) (0 + 64 * (c.val + 1)) _ _
  have hj' : PV (col3 x0 0 d) (64 * c.val + 1 * (63 + 1 - 64)) (64 * c.val + 1 * (63 + 1)) (idx (ix4 (0 : Fin 1) c ⟨63, by decide⟩ d)) (val (ix4 (0 : Fin 1) c ⟨63, by decide⟩ d)) := hj
  have e1 : 0 + 64 * (c.val + 1 - 1) = 64 * c.val + 1 * (63 + 1 - 64) := by omega
  have e2 : 0 + 64 * (c.val + 1) = 64 * c.val + 1 * (63 + 1) := by omega
  rw [e1, e2]; exact hj'

/-- The backward seeds across chunks: each chunk's first entry. -/
theorem seedCB (idx : IVec S1x64x64x128 32) (val : S1x64x64x128.Idx → EReal)
    (h : InvB (s := S1x64x64x128) 2 (colL x0) offL 1 64 idx val) :
    InvB (s := S1x64x128) 1 (colC x0) offC 64 1
      (shapeCast S1x64x128 (extractStridedSlice S1x64x1x128 ![0, 0, 0, 0] idx slices_S1x64x64x128_o0_0_0_0_S1x64x1x128) shapeCasts_S1x64x1x128_S1x64x128)
      (shapeCast S1x64x128 (extractStridedSlice S1x64x1x128 ![0, 0, 0, 0] val slices_S1x64x64x128_o0_0_0_0_S1x64x1x128) shapeCasts_S1x64x1x128_S1x64x128) := by
  intro j
  obtain ⟨c, d, rfl⟩ : ∃ (c : Fin 64) (d : Fin 128), j = ix3 (0 : Fin 1) c d := ⟨j 1, j 2, eq_ix3_unit j⟩
  rw [pick_apply 0 (by decide), pick_apply 0 (by decide)]
  have hj := h (ix4 (0 : Fin 1) c ⟨0, by decide⟩ d)
  show NV (col3 x0 0 d) (0 + 64 * c.val) (0 + 64 * min (c.val + 1) 64) _ _
  have hj' : NV (col3 x0 0 d) (64 * c.val + 1 * 0) (64 * c.val + 1 * min (0 + 64) 64) (idx (ix4 (0 : Fin 1) c ⟨0, by decide⟩ d)) (val (ix4 (0 : Fin 1) c ⟨0, by decide⟩ d)) := hj
  have e1 : 0 + 64 * c.val = 64 * c.val + 1 * 0 := by omega
  have e2 : 0 + 64 * min (c.val + 1) 64 = 64 * c.val + 1 * min (0 + 64) 64 := by omega
  rw [e1, e2]; exact hj'

/-- After the six forward steps across chunks: the last observed position from the column's start to the chunk's end. -/
theorem chunkF (v74 : IVec S1x64x64x128 32) (v75 : FVec Ideal S1x64x64x128 .f32)
    (h : InvF (s := S1x64x64x128) 2 (colL x0) offL 1 64 (k0_pay43 I4 v74) (k0_pay44 (F := Ideal) I4 v74 v75)) :
    InvF (s := S1x64x128) 1 (colC x0) offC 64 64
      (select (k0_pay89 I3 (k0_pay75 I3 (k0_pay60 (k0_pay49 I4 v74)) k0_pay66) (k0_pay81 I3 (k0_pay60 (k0_pay49 I4 v74)) k0_pay66))
        (k0_pay88 I3 (k0_pay75 I3 (k0_pay60 (k0_pay49 I4 v74)) k0_pay66) (k0_pay81 I3 (k0_pay60 (k0_pay49 I4 v74)) k0_pay66))
        (k0_pay84 (k0_pay75 I3 (k0_pay60 (k0_pay49 I4 v74)) k0_pay66) (k0_pay81 I3 (k0_pay60 (k0_pay49 I4 v74)) k0_pay66)))
      (select (k0_pay89 I3 (k0_pay75 I3 (k0_pay60 (k0_pay49 I4 v74)) k0_pay66) (k0_pay81 I3 (k0_pay60 (k0_pay49 I4 v74)) k0_pay66))
        (dynamicRotate 1 32#32 none
          (select (k0_pay83 (k0_pay75 I3 (k0_pay60 (k0_pay49 I4 v74)) k0_pay66) (k0_pay81 I3 (k0_pay60 (k0_pay49 I4 v74)) k0_pay66))
            (k0_pay82 (F := Ideal) I3 (k0_pay60 (k0_pay49 I4 v74)) (k0_pay61 (F := Ideal) (k0_pay49 I4 v74) (k0_pay50 (F := Ideal) I4 v74 v75)) k0_pay66)
            (k0_pay76 (F := Ideal) I3 (k0_pay60 (k0_pay49 I4 v74)) (k0_pay61 (F := Ideal) (k0_pay49 I4 v74) (k0_pay50 (F := Ideal) I4 v74 v75)) k0_pay66)) rotates_S1x64x128_d1)
        (select (k0_pay83 (k0_pay75 I3 (k0_pay60 (k0_pay49 I4 v74)) k0_pay66) (k0_pay81 I3 (k0_pay60 (k0_pay49 I4 v74)) k0_pay66))
            (k0_pay82 (F := Ideal) I3 (k0_pay60 (k0_pay49 I4 v74)) (k0_pay61 (F := Ideal) (k0_pay49 I4 v74) (k0_pay50 (F := Ideal) I4 v74 v75)) k0_pay66)
            (k0_pay76 (F := Ideal) I3 (k0_pay60 (k0_pay49 I4 v74)) (k0_pay61 (F := Ideal) (k0_pay49 I4 v74) (k0_pay50 (F := Ideal) I4 v74 v75)) k0_pay66))) := by
  have st := fun (o : ℕ) (ho : o < 64) (idx : IVec S1x64x128 32) (val : S1x64x128.Idx → EReal) =>
    stepF (s := S1x64x128) 1 rfl (colC_indep x0) offC_indep 64 o ho iota_S1x64x128_d1_w32 rotates_S1x64x128_d1 idx val
  have g0 : InvF (s := S1x64x128) 1 (colC x0) offC 64 1 (k0_pay49 I4 v74)
      (shapeCast S1x64x128 (k0_pay50 (F := Ideal) I4 v74 v75) shapeCasts_S1x64x1x128_S1x64x128) := seedCF x0 _ _ h
  generalize k0_pay49 I4 v74 = v122 at g0 ⊢
  generalize k0_pay50 (F := Ideal) I4 v74 v75 = v123 at g0 ⊢
  have g1 : InvF (s := S1x64x128) 1 (colC x0) offC 64 2 (k0_pay54 v122)
      (select (k0_pay53 v122) (dynamicRotate 1 1#32 none (shapeCast S1x64x128 v123 shapeCasts_S1x64x1x128_S1x64x128) rotates_S1x64x128_d1) (shapeCast S1x64x128 v123 shapeCasts_S1x64x1x128_S1x64x128)) :=
    st 1 (by decide) _ _ g0
  have g2 : InvF (s := S1x64x128) 1 (colC x0) offC 64 4 (k0_pay60 v122) (k0_pay61 (F := Ideal) v122 v123) :=
    st 2 (by decide) _ _ g1
  generalize k0_pay60 v122 = v155 at g2 ⊢
  generalize k0_pay61 (F := Ideal) v122 v123 = v156 at g2 ⊢
  have g3 : InvF (s := S1x64x128) 1 (colC x0) offC 64 8 (k0_pay69 I3 v155 k0_pay66)
      (select (k0_pay68 I3 v155 k0_pay66) (dynamicRotate 1 4#32 none v156 rotates_S1x64x128_d1) v156) :=
    st 4 (by decide) _ _ g2
  have g4 : InvF (s := S1x64x128) 1 (colC x0) offC 64 16 (k0_pay75 I3 v155 k0_pay66) (k0_pay76 (F := Ideal) I3 v155 v156 k0_pay66) :=
    st 8 (by decide) _ _ g3
  have g5 : InvF (s := S1x64x128) 1 (colC x0) offC 64 32 (k0_pay84 (k0_pay75 I3 v155 k0_pay66) (k0_pay81 I3 v155 k0_pay66))
      (select (k0_pay83 (k0_pay75 I3 v155 k0_pay66) (k0_pay81 I3 v155 k0_pay66)) (k0_pay82 (F := Ideal) I3 v155 v156 k0_pay66) (k0_pay76 (F := Ideal) I3 v155 v156 k0_pay66)) :=
    st 16 (by decide) (k0_pay75 I3 v155 k0_pay66) (k0_pay76 (F := Ideal) I3 v155 v156 k0_pay66) g4
  exact st 32 (by decide) _ _ g5

/-- After the six backward steps across chunks: the first observed position from the chunk's start to the column's end. -/
theorem chunkB (v119 : IVec S1x64x64x128 32) (v120 : FVec Ideal S1x64x64x128 .f32)
    (h : InvB (s := S1x64x64x128) 2 (colL x0) offL 1 64 v119 v120) :
    InvB (s := S1x64x128) 1 (colC x0) offC 64 64
      (select (k0_pay91 I3 (k0_pay79 I3 (k0_pay64 v119))) (k0_pay90 I3 (k0_pay79 I3 (k0_pay64 v119))) (k0_pay87 I3 (k0_pay79 I3 (k0_pay64 v119))))
      (k0_pay92 (F := Ideal) I3 (k0_pay79 I3 (k0_pay64 v119)) (k0_pay80 (F := Ideal) I3 (k0_pay64 v119) (k0_pay65 (F := Ideal) v119 v120))) := by
  have st := fun (k : ℕ) (hk : 0 < k) (hk64 : k < 64) (idx : IVec S1x64x128 32) (val : S1x64x128.Idx → EReal) =>
    stepB (s := S1x64x128) 1 rfl (colC_indep x0) offC_indep 64 offC_le k hk hk64 iota_S1x64x128_d1_w32 rotates_S1x64x128_d1 idx val
  have b0 : InvB (s := S1x64x128) 1 (colC x0) offC 64 1 (k0_pay51 v119)
      (shapeCast S1x64x128 (extractStridedSlice S1x64x1x128 ![0, 0, 0, 0] v120 slices_S1x64x64x128_o0_0_0_0_S1x64x1x128) shapeCasts_S1x64x1x128_S1x64x128) :=
    seedCB x0 _ _ h
  have b1 : InvB (s := S1x64x128) 1 (colC x0) offC 64 2 (k0_pay57 v119)
      (select (k0_pay56 v119)
        (dynamicRotate 1 63#32 none (shapeCast S1x64x128 (extractStridedSlice S1x64x1x128 ![0, 0, 0, 0] v120 slices_S1x64x64x128_o0_0_0_0_S1x64x1x128) shapeCasts_S1x64x1x128_S1x64x128) rotates_S1x64x128_d1)
        (shapeCast S1x64x128 (extractStridedSlice S1x64x1x128 ![0, 0, 0, 0] v120 slices_S1x64x64x128_o0_0_0_0_S1x64x1x128) shapeCasts_S1x64x1x128_S1x64x128)) :=
    st 63 (by decide) (by decide) _ _ b0
  have b2 : InvB (s := S1x64x128) 1 (colC x0) offC 64 4 (k0_pay64 v119) (k0_pay65 (F := Ideal) v119 v120) :=
    st 62 (by decide) (by decide) _ _ b1
  generalize k0_pay64 v119 = v164 at b2 ⊢
  generalize k0_pay65 (F := Ideal) v119 v120 = v165 at b2 ⊢
  have b3 : InvB (s := S1x64x128) 1 (colC x0) offC 64 8 (k0_pay72 I3 v164)
      (select (k0_pay71 I3 v164) (dynamicRotate 1 60#32 none v165 rotates_S1x64x128_d1) v165) :=
    st 60 (by decide) (by decide) _ _ b2
  have b4 : InvB (s := S1x64x128) 1 (colC x0) offC 64 16 (k0_pay79 I3 v164) (k0_pay80 (F := Ideal) I3 v164 v165) :=
    st 56 (by decide) (by decide) _ _ b3
  generalize k0_pay79 I3 v164 = v200 at b4 ⊢
  generalize k0_pay80 (F := Ideal) I3 v164 v165 = v201 at b4 ⊢
  have b5 : InvB (s := S1x64x128) 1 (colC x0) offC 64 32 (k0_pay87 I3 v200)
      (select (k0_pay86 I3 v200) (dynamicRotate 1 48#32 none v201 rotates_S1x64x128_d1) v201) :=
    st 48 (by decide) (by decide) _ _ b4
  exact st 32 (by decide) (by decide) _ _ b5

theorem ofNat_eq_iff (p q : ℕ) (hp : p < 4097) (hq : q < 4097) : BitVec.ofNat 32 p = BitVec.ofNat 32 q ↔ p = q := by
  constructor
  · intro h
    have := congrArg BitVec.toInt h
    rw [toInt_ofNat_small p (by omega), toInt_ofNat_small q (by omega)] at this
    omega
  · intro h; rw [h]

/-- The carry into a chunk from the chunks before it: the scan across chunks rolled on by one chunk, −1 into the first. -/
theorem carryF (idx : IVec S1x64x128 32) (val : S1x64x128.Idx → EReal)
    (h : InvF (s := S1x64x128) 1 (colC x0) offC 64 64 idx val) (c : Fin 64) (d : Fin 128) :
    PVw (col3 x0 0 d) 0 (64 * c.val)
      ((select (cmpi .eq I3 (broadcast S1x64x128 0#32)) (broadcast S1x64x128 4294967295#32)
        (dynamicRotate 1 1#32 none idx rotates_S1x64x128_d1)) (ix3 (0 : Fin 1) c d))
      ((dynamicRotate 1 1#32 none val rotates_S1x64x128_d1) (ix3 (0 : Fin 1) c d)) := by
  show PVw _ _ _ (Scalar.select (IntOp.cmpi .eq (I3 (ix3 (0 : Fin 1) c d)) 0#32) 4294967295#32
      (dynamicRotate 1 1#32 none idx rotates_S1x64x128_d1 (ix3 (0 : Fin 1) c d))) _
  rw [select_eq, rot_apply, rot_apply, show I3 (ix3 (0 : Fin 1) c d) = BitVec.ofNat 32 c.val from iota_apply1 1 _ _]
  by_cases hc : c.val = 0
  · rw [if_pos ((ofNat_eq_iff c.val 0 (by omega) (by omega)).mpr hc), hc]
    exact ⟨IsPV.empty _ 0 _ toInt_neg_one, fun h0 => by rw [toInt_neg_one] at h0; omega⟩
  · rw [if_neg (fun hh => hc ((ofNat_eq_iff c.val 0 (by omega) (by omega)).mp hh))]
    have hj := h (rotIdx 1 1#32 (ix3 (0 : Fin 1) c d))
    have hv : (rotIdx (s := S1x64x128) 1 1#32 (ix3 (0 : Fin 1) c d) 1).val = c.val - 1 := by
      rw [rotIdx_val]
      show (c.val + 64 - 1 % 64) % 64 = c.val - 1
      omega
    rw [hv, colC_indep x0 _ _ (fun b hb => rotIdx_ne 1 _ _ b hb)] at hj
    have hj' : PV (col3 x0 0 d) (0 + 64 * (c.val - 1 + 1 - 64)) (0 + 64 * (c.val - 1 + 1)) _ _ := hj
    have e1 : 0 + 64 * (c.val - 1 + 1 - 64) = 0 := by omega
    have e2 : 0 + 64 * (c.val - 1 + 1) = 64 * c.val := by omega
    rw [e1, e2] at hj'
    exact hj'.weak

/-- The carry into a chunk from the chunks after it: the scan across chunks rolled back by one chunk, 4096 into the last. -/
theorem carryB (idx : IVec S1x64x128 32) (val : S1x64x128.Idx → EReal)
    (h : InvB (s := S1x64x128) 1 (colC x0) offC 64 64 idx val) (c : Fin 64) (d : Fin 128) :
    NVw (col3 x0 0 d) (64 * (c.val + 1)) 4096
      ((select (cmpi .eq I3 (broadcast S1x64x128 63#32)) (broadcast S1x64x128 4096#32)
        (dynamicRotate 1 63#32 none idx rotates_S1x64x128_d1)) (ix3 (0 : Fin 1) c d))
      ((dynamicRotate 1 63#32 none val rotates_S1x64x128_d1) (ix3 (0 : Fin 1) c d)) := by
  show NVw _ _ _ (Scalar.select (IntOp.cmpi .eq (I3 (ix3 (0 : Fin 1) c d)) 63#32) 4096#32
      (dynamicRotate 1 63#32 none idx rotates_S1x64x128_d1 (ix3 (0 : Fin 1) c d))) _
  rw [select_eq, rot_apply, rot_apply, show I3 (ix3 (0 : Fin 1) c d) = BitVec.ofNat 32 c.val from iota_apply1 1 _ _]
  by_cases hc : c.val = 63
  · rw [if_pos ((ofNat_eq_iff c.val 63 (by omega) (by omega)).mpr hc), hc]
    exact ⟨IsNV.empty _ 4096 _ toInt_4096, fun h0 => by rw [toInt_4096] at h0; omega⟩
  · rw [if_neg (fun hh => hc ((ofNat_eq_iff c.val 63 (by omega) (by omega)).mp hh))]
    have hj := h (rotIdx 1 63#32 (ix3 (0 : Fin 1) c d))
    have hv : (rotIdx (s := S1x64x128) 1 63#32 (ix3 (0 : Fin 1) c d) 1).val = c.val + 1 := by
      rw [rotIdx_val]
      show (c.val + 64 - 63 % 64) % 64 = c.val + 1
      omega
    rw [hv, colC_indep x0 _ _ (fun b hb => rotIdx_ne 1 _ _ b hb)] at hj
    have hj' : NV (col3 x0 0 d) (0 + 64 * (c.val + 1)) (0 + 64 * min (c.val + 1 + 64) 64) _ _ := hj
    have e1 : 0 + 64 * (c.val + 1) = 64 * (c.val + 1) := by omega
    have e2 : 0 + 64 * min (c.val + 1 + 64) 64 = 4096 := by omega
    rw [e1, e2] at hj'
    exact hj'.weak

end Cert.Impute

end
-- ==== Proof.KernelMerge.lean ====
/-
  Joining the two levels. The carry of a chunk (the answer of everything before it, or after it) is spread over the
  chunk's places and compared once with each entry's answer inside the chunk: the windows are adjacent, so the
  result is the answer from the column's start to the entry (from the entry to the column's end).
-/
import proofs.«130921_j29815662968985_2_alg».proof.Proof.KernelChunk

noncomputable section

namespace Cert.Impute

open Idealize.ShloMosaic Idealize.ShloMosaic.ValueIdx Cert.KernelIdeal Cert.KernelIdeal.Gen

variable (x0 : Vec Ideal S1x4096x128 .f32)

/-- A per-chunk vector spread over the places of every chunk reads the chunk's entry. -/
theorem spread_apply {α : Type} (z : S1x64x128.Idx → α) (c t : Fin 64) (d : Fin 128) :
    broadcastTo S1x64x64x128
      (shapeCast S1x64x1x128 (shapeCast S1x64x1x128 z shapeCasts_S1x64x128_S1x64x1x128) shapeCasts_S1x64x1x128_S1x64x1x128)
      broadcasts_S1x64x1x128_S1x64x64x128 (ix4 (0 : Fin 1) c t d) = z (ix3 (0 : Fin 1) c d) := by
  rw [bcast_chunk_apply, shapeCast_self]
  exact cast_insert_apply z _ c d

/-- Forward: the carry from the earlier chunks joined with the answer inside the chunk. -/
theorem mergeF (v110 : IVec S1x64x64x128 32) (v111 : S1x64x64x128.Idx → EReal) (v242 : IVec S1x64x128 32) (v243 : S1x64x128.Idx → EReal)
    (hl : InvF (s := S1x64x64x128) 2 (colL x0) offL 1 64 v110 v111)
    (hc : ∀ (c : Fin 64) (d : Fin 128), PVw (col3 x0 0 d) 0 (64 * c.val) (v242 (ix3 (0 : Fin 1) c d)) (v243 (ix3 (0 : Fin 1) c d)))
    (c t : Fin 64) (d : Fin 128) :
    PV (col3 x0 0 d) 0 (64 * c.val + t.val + 1)
      (select (k0_pay98 v110 v242) (k0_pay96 v242) v110 (ix4 (0 : Fin 1) c t d))
      (select (k0_pay98 v110 v242)
        (broadcastTo S1x64x64x128 (shapeCast S1x64x1x128 (shapeCast S1x64x1x128 v243 shapeCasts_S1x64x128_S1x64x1x128) shapeCasts_S1x64x1x128_S1x64x1x128) broadcasts_S1x64x1x128_S1x64x64x128)
        v111 (ix4 (0 : Fin 1) c t d)) := by
  show PV _ _ _
    (Scalar.select (IntOp.cmpi .sgt (k0_pay96 v242 (ix4 (0 : Fin 1) c t d)) (v110 (ix4 (0 : Fin 1) c t d))) (k0_pay96 v242 (ix4 (0 : Fin 1) c t d)) (v110 (ix4 (0 : Fin 1) c t d)))
    (Scalar.select (IntOp.cmpi .sgt (k0_pay96 v242 (ix4 (0 : Fin 1) c t d)) (v110 (ix4 (0 : Fin 1) c t d)))
      (broadcastTo S1x64x64x128 (shapeCast S1x64x1x128 (shapeCast S1x64x1x128 v243 shapeCasts_S1x64x128_S1x64x1x128) shapeCasts_S1x64x1x128_S1x64x1x128) broadcasts_S1x64x1x128_S1x64x64x128 (ix4 (0 : Fin 1) c t d))
      (v111 (ix4 (0 : Fin 1) c t d)))
  rw [show k0_pay96 v242 (ix4 (0 : Fin 1) c t d) = v242 (ix3 (0 : Fin 1) c d) from spread_apply v242 c t d,
    spread_apply v243 c t d, select_sgt, select_sgt]
  have hl' : PV (col3 x0 0 d) (64 * c.val + 1 * (t.val + 1 - 64)) (64 * c.val + 1 * (t.val + 1))
      (v110 (ix4 (0 : Fin 1) c t d)) (v111 (ix4 (0 : Fin 1) c t d)) := hl (ix4 (0 : Fin 1) c t d)
  have e1 : 64 * c.val + 1 * (t.val + 1 - 64) = 64 * c.val := by omega
  have e2 : 64 * c.val + 1 * (t.val + 1) = 64 * c.val + t.val + 1 := by omega
  rw [e1, e2] at hl'
  exact PV.comb (hc c d) hl' (by omega) (by omega)

/-- Backward: the carry from the later chunks joined with the answer inside the chunk. -/
theorem mergeB (v119 : IVec S1x64x64x128 32) (v120 : S1x64x64x128.Idx → EReal) (v248 : IVec S1x64x128 32) (v249 : S1x64x128.Idx → EReal)
    (hl : InvB (s := S1x64x64x128) 2 (colL x0) offL 1 64 v119 v120)
    (hc : ∀ (c : Fin 64) (d : Fin 128), NVw (col3 x0 0 d) (64 * (c.val + 1)) 4096 (v248 (ix3 (0 : Fin 1) c d)) (v249 (ix3 (0 : Fin 1) c d)))
    (c t : Fin 64) (d : Fin 128) :
    NV (col3 x0 0 d) (64 * c.val + t.val) 4096
      (select (k0_pay99 v119 v248) (k0_pay97 v248) v119 (ix4 (0 : Fin 1) c t d))
      (select (k0_pay99 v119 v248)
        (broadcastTo S1x64x64x128 (shapeCast S1x64x1x128 (shapeCast S1x64x1x128 v249 shapeCasts_S1x64x128_S1x64x1x128) shapeCasts_S1x64x1x128_S1x64x1x128) broadcasts_S1x64x1x128_S1x64x64x128)
        v120 (ix4 (0 : Fin 1) c t d)) := by
  show NV _ _ _
    (Scalar.select (IntOp.cmpi .slt (k0_pay97 v248 (ix4 (0 : Fin 1) c t d)) (v119 (ix4 (0 : Fin 1) c t d))) (k0_pay97 v248 (ix4 (0 : Fin 1) c t d)) (v119 (ix4 (0 : Fin 1) c t d)))
    (Scalar.select (IntOp.cmpi .slt (k0_pay97 v248 (ix4 (0 : Fin 1) c t d)) (v119 (ix4 (0 : Fin 1) c t d)))
      (broadcastTo S1x64x64x128 (shapeCast S1x64x1x128 (shapeCast S1x64x1x128 v249 shapeCasts_S1x64x128_S1x64x1x128) shapeCasts_S1x64x1x128_S1x64x1x128) broadcasts_S1x64x1x128_S1x64x64x128 (ix4 (0 : Fin 1) c t d))
      (v120 (ix4 (0 : Fin 1) c t d)))
  rw [show k0_pay97 v248 (ix4 (0 : Fin 1) c t d) = v248 (ix3 (0 : Fin 1) c d) from spread_apply v248 c t d,
    spread_apply v249 c t d, select_slt, select_slt]
  have hl' : NV (col3 x0 0 d) (64 * c.val + 1 * t.val) (64 * c.val + 1 * min (t.val + 64) 64)
      (v119 (ix4 (0 : Fin 1) c t d)) (v120 (ix4 (0 : Fin 1) c t d)) := hl (ix4 (0 : Fin 1) c t d)
  have e1 : 64 * c.val + 1 * t.val = 64 * c.val + t.val := by omega
  have e2 : 64 * c.val + 1 * min (t.val + 64) 64 = 64 * (c.val + 1) := by omega
  rw [e1, e2] at hl'
  exact NV.comb hl' (hc c d) (by omega) (by omega) (le_refl _)

end Cert.Impute

end
-- ==== Proof.KernelEntry.lean ====
/-
  One element of the block the kernel body writes, as the column's gap filling: the two-level scan finds, for
  position g = 64·c + t of lane d, the last observed position of [0, g] and the first observed position of
  [g, 4096) with the column's values there, and the stored element is their blend.
-/
import proofs.«130921_j29815662968985_2_alg».proof.Proof.Gen.KernelIdeal.Frame
import proofs.«130921_j29815662968985_2_alg».proof.Proof.KernelMerge
import Idealize.ShloMosaic.Lib.Pipeline.Value

noncomputable section

namespace Cert.Impute

open Idealize.ShloMosaic Idealize.ShloMosaic.ValueIdx Cert.KernelIdeal Cert.KernelIdeal.Gen

variable (x0 : Vec Ideal S1x4096x128 .f32)

/-! The scan's states, named (each is the body's own term). -/
abbrev A74 : IVec S1x64x64x128 32 := k0_pay30 I4 (k0_pay16 (F := Ideal) x0)
abbrev A75 : FVec Ideal S1x64x64x128 .f32 := k0_pay31 (F := Ideal) I4 (k0_pay16 (F := Ideal) x0) (k0_pay17 (F := Ideal) x0)
abbrev A110 : IVec S1x64x64x128 32 := k0_pay43 I4 (A74 x0)
abbrev A111 : FVec Ideal S1x64x64x128 .f32 := k0_pay44 (F := Ideal) I4 (A74 x0) (A75 x0)
abbrev A29 : IVec S1x64x64x128 32 := k0_pay12 (F := Ideal) x0
abbrev A30 : FVec Ideal S1x64x64x128 .f32 := k0_pay13 (F := Ideal) x0
abbrev A65 : IVec S1x64x64x128 32 := k0_pay26 I4 (A29 x0)
abbrev A66 : FVec Ideal S1x64x64x128 .f32 := k0_pay27 (F := Ideal) I4 (A29 x0) (A30 x0)
abbrev A80 : IVec S1x64x64x128 32 := k0_pay32 I4 (A29 x0)
abbrev A119 : IVec S1x64x64x128 32 := k0_pay47 I4 (A65 x0) (A80 x0)
abbrev A120 : FVec Ideal S1x64x64x128 .f32 := k0_pay48 (F := Ideal) I4 (A65 x0) (A66 x0) (A80 x0)
abbrev A122 : IVec S1x64x128 32 := k0_pay49 I4 (A74 x0)
abbrev A123 : FVec Ideal S1x64x1x128 .f32 := k0_pay50 (F := Ideal) I4 (A74 x0) (A75 x0)
abbrev A155 : IVec S1x64x128 32 := k0_pay60 (A122 x0)
abbrev A156 : FVec Ideal S1x64x128 .f32 := k0_pay61 (F := Ideal) (A122 x0) (A123 x0)
abbrev A191 : IVec S1x64x128 32 := k0_pay75 I3 (A155 x0) k0_pay66
abbrev A192 : FVec Ideal S1x64x128 .f32 := k0_pay76 (F := Ideal) I3 (A155 x0) (A156 x0) k0_pay66
abbrev A206 : IVec S1x64x128 32 := k0_pay81 I3 (A155 x0) k0_pay66
abbrev A207 : FVec Ideal S1x64x128 .f32 := k0_pay82 (F := Ideal) I3 (A155 x0) (A156 x0) k0_pay66
abbrev A242 : IVec S1x64x128 32 := k0_pay93 I3 (A191 x0) (A206 x0)
abbrev A243 : FVec Ideal S1x64x128 .f32 := k0_pay94 (F := Ideal) I3 (A191 x0) (A192 x0) (A206 x0) (A207 x0)
abbrev A164 : IVec S1x64x128 32 := k0_pay64 (A119 x0)
abbrev A165 : FVec Ideal S1x64x128 .f32 := k0_pay65 (F := Ideal) (A119 x0) (A120 x0)
abbrev A200 : IVec S1x64x128 32 := k0_pay79 I3 (A164 x0)
abbrev A201 : FVec Ideal S1x64x128 .f32 := k0_pay80 (F := Ideal) I3 (A164 x0) (A165 x0)
abbrev A237 : FVec Ideal S1x64x128 .f32 := k0_pay92 (F := Ideal) I3 (A200 x0) (A201 x0)
abbrev A248 : IVec S1x64x128 32 := k0_pay95 I3 (A200 x0)
/-- The merged last observed position and its value, in chunked form. -/
abbrev PF : IVec S1x64x64x128 32 := select (k0_pay98 (A110 x0) (A242 x0)) (k0_pay96 (A242 x0)) (A110 x0)
abbrev AF : FVec Ideal S1x64x64x128 .f32 := select (k0_pay98 (A110 x0) (A242 x0))
  (broadcastTo S1x64x64x128 (shapeCast S1x64x1x128 (shapeCast S1x64x1x128 (A243 x0) shapeCasts_S1x64x128_S1x64x1x128) shapeCasts_S1x64x1x128_S1x64x1x128) broadcasts_S1x64x1x128_S1x64x64x128)
  (A111 x0)
/-- The merged first observed position and its value, in chunked form. -/
abbrev PB : IVec S1x64x64x128 32 := select (k0_pay99 (A119 x0) (A248 x0)) (k0_pay97 (A248 x0)) (A119 x0)
abbrev BB : FVec Ideal S1x64x64x128 .f32 := select (k0_pay99 (A119 x0) (A248 x0))
  (broadcastTo S1x64x64x128 (shapeCast S1x64x1x128 (shapeCast S1x64x1x128 (dynamicRotate 1 63#32 none (A237 x0) rotates_S1x64x128_d1) shapeCasts_S1x64x128_S1x64x1x128) shapeCasts_S1x64x1x128_S1x64x1x128) broadcasts_S1x64x1x128_S1x64x64x128)
  (A120 x0)

/-- The two scans' results at chunk `c`, place `t`, lane `d`. -/
theorem scans (c t : Fin 64) (d : Fin 128) :
    PV (col3 x0 0 d) 0 (64 * c.val + t.val + 1) (PF x0 (ix4 (0 : Fin 1) c t d)) (AF x0 (ix4 (0 : Fin 1) c t d))
    ∧ NV (col3 x0 0 d) (64 * c.val + t.val) 4096 (PB x0 (ix4 (0 : Fin 1) c t d)) (BB x0 (ix4 (0 : Fin 1) c t d)) := by
  have hLF : InvF (s := S1x64x64x128) 2 (colL x0) offL 1 64 (A110 x0) (A111 x0) := localF x0
  have hLB : InvB (s := S1x64x64x128) 2 (colL x0) offL 1 64 (A119 x0) (A120 x0) := localB x0
  have hCF := chunkF x0 (A74 x0) (A75 x0) hLF
  have hCB := chunkB x0 (A119 x0) (A120 x0) hLB
  have hcF : ∀ (c : Fin 64) (d : Fin 128), PVw (col3 x0 0 d) 0 (64 * c.val) (A242 x0 (ix3 (0 : Fin 1) c d)) (A243 x0 (ix3 (0 : Fin 1) c d)) :=
    fun c d => carryF x0 _ _ hCF c d
  have hcB : ∀ (c : Fin 64) (d : Fin 128), NVw (col3 x0 0 d) (64 * (c.val + 1)) 4096 (A248 x0 (ix3 (0 : Fin 1) c d))
      (dynamicRotate 1 63#32 none (A237 x0) rotates_S1x64x128_d1 (ix3 (0 : Fin 1) c d)) :=
    fun c d => carryB x0 _ _ hCB c d
  exact ⟨mergeF x0 (A110 x0) (A111 x0) (A242 x0) (A243 x0) hLF hcF c t d,
    mergeB x0 (A119 x0) (A120 x0) (A248 x0) (dynamicRotate 1 63#32 none (A237 x0) rotates_S1x64x128_d1) hLB hcB c t d⟩

/-- The final formula with the zero it compares against, the start and the stop as given. -/
def blendRaw (xg lit : EReal) (gi start stop : BitVec 32) (a b : EReal) : EReal :=
  Scalar.select (IntOp.ori (IntOp.ori (Ideal.cmp .one xg lit) (IntOp.cmpi .sge start stop)) (IntOp.cmpi .sge gi stop)) xg
    (Scalar.select (IntOp.cmpi .sgt (IntOp.subi (IntOp.subi stop start) 1#32) 0#32)
      (a + Ideal.div ((((IntOp.subi gi start).toInt : ℝ) : EReal) * (b - a))
        (((IntOp.maxsi (IntOp.subi (IntOp.subi stop start) 1#32) 1#32).toInt : ℝ) : EReal))
      a)

theorem blend_eq_raw (xg : EReal) (g pv nv : BitVec 32) (a b : EReal) :
    blend xg g pv nv a b = blendRaw xg 0 g (IntOp.maxsi pv 0#32) (Scalar.select (IntOp.cmpi .slt nv 4096#32) nv 4095#32) a b := rfl

/-! The body's last operations read at an index (each is the definition applied). -/
section Reads
variable (v272 : Vec Ideal S1x4096x128 .f32) (v274 v297 : IVec S1x4096x128 1) (v275 v281 : IVec S1x4096x128 32) (v296 : FVec Ideal S1x4096x128 .f32)
  (v110 v119 : IVec S1x64x64x128 32) (v111 v120 : FVec Ideal S1x64x64x128 .f32) (v237 v243 : FVec Ideal S1x64x128 .f32) (v242 v248 : IVec S1x64x128 32)
  (j : S1x4096x128.Idx)

theorem pay1_apply : k0_pay1 (F := Ideal) v272 v274 v275 v281 v296 v297 j
    = Scalar.select (IntOp.ori (IntOp.ori (v274 j) (v297 j)) (IntOp.cmpi .sge (v275 j) (v281 j))) (v272 j) (v296 j) := rfl
theorem pay100_apply : k0_pay100 (F := Ideal) v272 j = Ideal.cmp .one (v272 j) (Scalar.ofBits (F := Ideal) .f32 0x00000000#32) := rfl
theorem pay101_apply : k0_pay101 v110 v242 j
    = IntOp.maxsi (shapeCast S1x4096x128 (select (k0_pay98 v110 v242) (k0_pay96 v242) v110) shapeCasts_S1x64x64x128_S1x4096x128 j) 0#32 := rfl
theorem pay102_apply : k0_pay102 v119 v248 j
    = Scalar.select (IntOp.cmpi .slt (shapeCast S1x4096x128 (select (k0_pay99 v119 v248) (k0_pay97 v248) v119) shapeCasts_S1x64x64x128_S1x4096x128 j) 4096#32)
        (shapeCast S1x4096x128 (select (k0_pay99 v119 v248) (k0_pay97 v248) v119) shapeCasts_S1x64x64x128_S1x4096x128 j) 4095#32 := rfl
theorem pay104_apply : k0_pay104 v110 v119 v242 v248 j = IntOp.cmpi .sge (k0_pay101 v110 v242 j) (k0_pay102 v119 v248 j) := rfl
theorem pay103_apply : k0_pay103 (F := Ideal) v110 v111 v119 v120 v237 v242 v243 v248 j
    = Scalar.select (IntOp.cmpi .sgt (IntOp.subi (IntOp.subi (k0_pay102 v119 v248 j) (k0_pay101 v110 v242 j)) 1#32) 0#32)
        (shapeCast S1x4096x128 (select (k0_pay98 v110 v242)
            (broadcastTo S1x64x64x128 (shapeCast S1x64x1x128 (shapeCast S1x64x1x128 v243 shapeCasts_S1x64x128_S1x64x1x128) shapeCasts_S1x64x1x128_S1x64x1x128) broadcasts_S1x64x1x128_S1x64x64x128)
            v111) shapeCasts_S1x64x64x128_S1x4096x128 j
          + Ideal.div ((((IntOp.subi (iota .tc S1x4096x128 32 [1] iota_S1x4096x128_d1_w32 j) (k0_pay101 v110 v242 j)).toInt : ℝ) : EReal)
              * (shapeCast S1x4096x128 (select (k0_pay99 v119 v248)
                  (broadcastTo S1x64x64x128 (shapeCast S1x64x1x128 (shapeCast S1x64x1x128 (dynamicRotate 1 63#32 none v237 rotates_S1x64x128_d1) shapeCasts_S1x64x128_S1x64x1x128) shapeCasts_S1x64x1x128_S1x64x1x128) broadcasts_S1x64x1x128_S1x64x64x128)
                  v120) shapeCasts_S1x64x64x128_S1x4096x128 j
                - shapeCast S1x4096x128 (select (k0_pay98 v110 v242)
                  (broadcastTo S1x64x64x128 (shapeCast S1x64x1x128 (shapeCast S1x64x1x128 v243 shapeCasts_S1x64x128_S1x64x1x128) shapeCasts_S1x64x1x128_S1x64x1x128) broadcasts_S1x64x1x128_S1x64x64x128)
                  v111) shapeCasts_S1x64x64x128_S1x4096x128 j))
            (((IntOp.maxsi (IntOp.subi (IntOp.subi (k0_pay102 v119 v248 j) (k0_pay101 v110 v242 j)) 1#32) 1#32).toInt : ℝ) : EReal))
        (shapeCast S1x4096x128 (select (k0_pay98 v110 v242)
            (broadcastTo S1x64x64x128 (shapeCast S1x64x1x128 (shapeCast S1x64x1x128 v243 shapeCasts_S1x64x128_S1x64x1x128) shapeCasts_S1x64x1x128_S1x64x1x128) broadcasts_S1x64x1x128_S1x64x64x128)
            v111) shapeCasts_S1x64x64x128_S1x4096x128 j) := rfl
end Reads

theorem hz3 : (![0, 0, 0] : Fin 3 → Nat) = fun _ => 0 := funext fun a => by fin_cases a <;> rfl

/-- The body's stored block at row `g`, lane `d` is the gap filling of lane `d`'s column of the loaded block at `g`. -/
theorem kernel_entry (x0 : Vec Ideal S1x4096x128 .f32) (g : Fin 4096) (d : Fin 128) :
    out0_1 (F := Ideal) x0 (ix3 (0 : Fin 1) g d) = outSpec (col3 x0 0 d) g.val := by
  obtain ⟨c, t, rfl⟩ : ∃ (c t : Fin 64), g = ⟨64 * c.val + t.val, by omega⟩ :=
    ⟨⟨g.val / 64, by omega⟩, ⟨g.val % 64, by omega⟩, Fin.ext (by show g.val = 64 * (g.val / 64) + g.val % 64; omega)⟩
  obtain ⟨hF, hB⟩ := scans x0 c t d
  show _ = outSpec (col3 x0 0 d) (64 * c.val + t.val)
  rw [← outSpec_eq hF hB, blend_eq_raw]
  unfold out0_1
  rw [View.canon_unit_zero hz3]
  simp only [View.ld_unit_zero (S := S1x4096x128) hz3]
  rw [pay1_apply, pay100_apply, pay104_apply, pay103_apply, pay101_apply, pay102_apply]
  rw [cast_flat_apply' _ _ c t d, cast_flat_apply' _ _ c t d, cast_flat_apply' _ _ c t d, cast_flat_apply' _ _ c t d,
    iota_apply1, show (FloatOps.ofBits (F := Ideal) .f32 0x00000000#32 : Ideal .f32) = 0 from Ideal.ofBits_zero_f32]
  have hx : col3 x0 0 d (64 * c.val + t.val) = x0 (ix3 (0 : Fin 1) ⟨64 * c.val + t.val, by omega⟩ d) := by
    unfold col3; rw [dif_pos (by omega)]
  rw [hx]
  rfl

end Cert.Impute

end
-- ==== Proof.KernelValue.lean ====
/-
  From blocks to the array, on the kernel side.

  The kernel's grid has 64 points. Point `t` reads block `t` of the input array — the slab `x(t, ·, ·)`, of shape
  [1, 4096, 128] — and writes block `t` of the output array. What it writes at row `g`, lane `d` is the gap filling
  of the slab's column `d` at position `g`; a column of the slab at point `t` is the column `x(t, ·, d)` of the whole
  array, so the point writes block `t` of the whole-array function `G x` (every column filled by itself). The 64 blocks
  tile the output array — the block that holds the index `(b, g, d)` is the one of point `b` — so after the run the
  output array is `G x`.
-/
import proofs.«130921_j29815662968985_2_alg».proof.Proof.Gen.KernelIdeal.Value
import proofs.«130921_j29815662968985_2_alg».proof.Proof.KernelEntry
import Idealize.ShloMosaic.Lib.Pipeline.Value
import Idealize.ShloMosaic.Lib.ValueIdx

noncomputable section

namespace Cert.Impute

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The index maps -/

/-- The two index maps, decided over the grid: point `t` stages block `(t, 0, 0)` of the input and of the output. -/
theorem slab_index : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0 :=
  (by decide +kernel : ∀ t : Fin grid0.N, _)

/-! ## One element of a slab -/

/-- Every index of a slab has first coordinate 0. -/
theorem slab_idx (y : S1x4096x128.Idx) : y = ix3 (0 : Fin 1) (y 1) (y 2) := by
  funext a
  match a with
  | ⟨0, _⟩ =>
    apply Fin.ext
    show (y 0).val = 0
    have h : (y 0).val < 1 := (y 0).isLt
    omega
  | ⟨1, _⟩ => rfl
  | ⟨2, _⟩ => rfl

/-- The body's stored block at any index of the slab: the gap filling of the index's lane at the index's row. -/
theorem out_apply (x0 : Vec Ideal S1x4096x128 .f32) (y : S1x4096x128.Idx) :
    out0_1 (F := Ideal) x0 y = outSpec (col3 x0 (0 : Fin 1) (y 2)) (y 1).val :=
  (congrArg (out0_1 (F := Ideal) x0) (slab_idx y)).trans (kernel_entry x0 (y 1) (y 2))

/-- The input slab at point `t`, at `(0, s, d)`, is the input array at `(t, s, d)`. -/
theorem iblk_apply (c : Dev nD) (t : Fin cfg0.N) (x : S1x4096x128.Idx) (k : S64x4096x128.Idx)
    (hk0 : (k 0).val = t.val) (hk1 : (k 1).val = (x 1).val) (hk2 : (k 2).val = (x 2).val) :
    (iblk m c 0 t : Vec Ideal S1x4096x128 .f32) x = (m ((c : Thread nD τ).loc main_arg0) : S64x4096x128.Idx → Elt Ideal .f32) k := by
  obtain ⟨e0, e1, e2, -, -, -⟩ := slab_index t
  unfold iblk
  rw [View.read_apply]
  show V m c main_arg0 _ = m (c.tc.loc main_arg0) _
  unfold V
  congr 1
  funext a
  apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 4096 + 1 * (x 1).val = (k 1).val; omega
  | ⟨2, _⟩ => show win0_0.index t (2 : Fin 3) * 128 + 1 * (x 2).val = (k 2).val; omega

/-- A slab `x0` that is slab `b` of an array `X` has the array's columns, so the gap filling of its column at a
    row is the whole-array function at the matching index. -/
theorem G_of_slab (X : S64x4096x128.Idx → EReal) (x0 : S1x4096x128.Idx → EReal) (b : Fin 64)
    (hx : ∀ (s : Fin 4096) (d : Fin 128), x0 (ix3 (0 : Fin 1) s d) = X (ix3 b s d))
    (g : Fin 4096) (d : Fin 128) :
    outSpec (col3 x0 (0 : Fin 1) d) g.val = G X (ix3 b g d) := by
  rw [G_apply]
  have hc : col3 x0 (0 : Fin 1) d = col3 X b d := by
    funext s
    unfold col3
    split
    · exact hx _ _
    · rfl
  rw [hc]

/-! ## What a point writes back, the cover, the array after the run -/

/-- WHAT POINT `t` WRITES BACK is block `t` of `G` of the input array. -/
theorem flushed_eq (c : Dev nD) (t : Fin cfg0.N) :
    (dats m 0 c).flushed 1 t = ((cfg0.win 1).blk t).view.read (Elt Ideal) (G (V m c main_arg0)) := by
  rw [Cert.KernelIdeal.Value.flushed1]
  obtain ⟨-, -, -, e0, e1, e2⟩ := slab_index t
  have hN : t.val < 64 := t.isLt.trans_eq N_0
  funext y
  show out0_1 (F := Ideal) (iblk m c 0 t) y = G (V m c main_arg0) (((cfg0.win 1).blk t).view.emb y)
  have hy0 : (y 0).val < 1 := (y 0).isLt
  have hemb : ((cfg0.win 1).blk t).view.emb y = ix3 (⟨t.val, hN⟩ : Fin 64) (y 1) (y 2) := by
    funext a
    apply Fin.ext
    match a with
    | ⟨0, _⟩ => show win0_1.index t (0 : Fin 3) * 1 + 1 * (y 0).val = t.val; omega
    | ⟨1, _⟩ => show win0_1.index t (1 : Fin 3) * 4096 + 1 * (y 1).val = (y 1).val; omega
    | ⟨2, _⟩ => show win0_1.index t (2 : Fin 3) * 128 + 1 * (y 2).val = (y 2).val; omega
  refine (out_apply _ y).trans ?_
  exact (G_of_slab (V m c main_arg0) _ ⟨t.val, hN⟩ (fun s d => iblk_apply m c t _ _ rfl rfl rfl) (y 1) (y 2)).trans
    (congrArg (G (V m c main_arg0)) hemb.symm)

/-- An index of the array is in point `t`'s block iff each coordinate is in the block's range on its axis. -/
theorem mem_blk (t : Fin cfg0.N) (i : S64x4096x128.Idx) :
    i ∈ ((cfg0.win 1).blk t).view.set ↔ ∀ a : Fin 3, win0_1.index t a * S1x4096x128.size a ≤ (i a).val ∧ (i a).val < win0_1.index t a * S1x4096x128.size a + S1x4096x128.size a := by
  show i ∈ ((View.whole main_v0).slice (win0_1.rect t)).set ↔ _
  rw [View.set_slice_whole, Rect.mem_set_unit]
  exact Iff.rfl

/-- THE COVER: the index `(b, g, d)` is in the block of point `b`. -/
theorem cover (i : S64x4096x128.Idx) :
    ∃ t : Fin cfg0.N, (cfg0.win 1).flush t = true ∧ i ∈ ((cfg0.win 1).blk t).view.set := by
  have hi0 : (i 0).val < 64 := (i 0).isLt
  have hi1 : (i 1).val < 4096 := (i 1).isLt
  have hi2 : (i 2).val < 128 := (i 2).isLt
  have hN : (i 0).val < cfg0.N := by rw [show cfg0.N = 64 from N_0]; exact hi0
  obtain ⟨t, ht⟩ : ∃ t : Fin cfg0.N, t.val = (i 0).val := ⟨⟨(i 0).val, hN⟩, rfl⟩
  obtain ⟨-, -, -, e0, e1, e2⟩ := slab_index t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- THE ARRAY after the run: `G` of the input array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-! ## The run, read -/

/-- The kernel's run: the output array ends at the whole-array gap filling of the input array, the input unchanged. -/
theorem kernel_run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Impute

end
-- ==== Proof.RefFold.lean ====
/-
  A left fold over the positions 0, 1, …, N − 1 taken in order, carried by an invariant indexed by the number
  of positions already folded; and the positions of the window shape [1, 4096, 1] in row-major order.
-/
import Idealize.ShloMosaic.PureOps.Contract
import Idealize.ShloMosaic.Lib.ValueIdx

namespace Cert.Impute

open Idealize.ShloMosaic Idealize.ShloMosaic.ValueIdx

/-- An invariant P k r (after k positions the accumulator is r) that holds at the start and is kept by
    every step holds at the end of the fold over all N positions. -/
theorem foldl_finRange_inv {β : Type} (P : ℕ → β → Prop) :
    ∀ (N M : ℕ) (_ : N = M) (f : β → Fin N → β) (init : β), P 0 init →
      (∀ (k : Fin N) (r : β), P k.val r → P (k.val + 1) (f r k)) →
      P M ((List.finRange N).foldl f init)
  | 0, M, hM, f, init, h0, _ => by subst hM; simpa using h0
  | N + 1, M, hM, f, init, h0, hs => by
    subst hM
    rw [List.finRange_succ_last, List.foldl_append, List.foldl_map]
    have ih := foldl_finRange_inv P N N rfl (fun r k => f r k.castSucc) init h0 (fun k r hk => hs k.castSucc r hk)
    exact hs (Fin.last N) _ ih

/-- The window shape [1, 4096, 1] has 4096 positions … -/
theorem winNumel : (⟨3, ![1, 4096, 1]⟩ : Shape).numel = 4096 := by
  simp [Shape.numel, Fin.prod_univ_succ]

/-- … and its position n, in row-major order, is coordinate n of the middle axis. -/
theorem winCoord (n : Fin (⟨3, ![1, 4096, 1]⟩ : Shape).numel) :
    (((⟨3, ![1, 4096, 1]⟩ : Shape).rowMajor.symm n) 0).val = 0 ∧
    (((⟨3, ![1, 4096, 1]⟩ : Shape).rowMajor.symm n) 1).val = n.val ∧
    (((⟨3, ![1, 4096, 1]⟩ : Shape).rowMajor.symm n) 2).val = 0 := by
  generalize hi : (⟨3, ![1, 4096, 1]⟩ : Shape).rowMajor.symm n = i
  have e : (⟨3, ![1, 4096, 1]⟩ : Shape).rowMajor i = n := by rw [← hi]; exact Equiv.apply_symm_apply _ _
  have h0 : (i 0).val < 1 := (i 0).isLt
  have h2 : (i 2).val < 1 := (i 2).isLt
  have hv : n.val = ((i 0).val * 4096 + (i 1).val) * 1 + (i 2).val := by
    rw [← e]; exact Shape.rowMajor_val_three i
  omega

/-- A window reduction along the middle axis of a [64, 4096, 128] array (window [1, 4096, 1], stride 1, low
    padding L on the middle axis), read at the result element (b, g, d): the window visits the middle-axis
    positions g + n − L for n = 0, …, 4095 in order; a position outside [0, 4096) is padding and contributes the
    initial value v. So an invariant that holds of v at the start, is kept when a padding position folds v in and
    when a real position folds its element in, holds of the result after all 4096 positions. -/
theorem reduceWindow_col_inv (f : BitVec 32 → BitVec 32 → BitVec 32) (L : ℕ) (hi : Fin 3 → ℕ)
    (X : (⟨3, ![64, 4096, 128]⟩ : Shape).Idx → BitVec 32) {u : Shape} (init : u.Idx → BitVec 32)
    (h : (⟨3, ![64, 4096, 128]⟩ : Shape).ReduceWindows ![1, 4096, 1] ![1, 1, 1] ![0, L, 0] hi ⟨3, ![64, 4096, 128]⟩)
    (hu : 0 < u.numel) (b : Fin 64) (g : Fin 4096) (d : Fin 128) (P : ℕ → BitVec 32 → Prop)
    (h0 : P 0 (init (Shape.Idx.first hu)))
    (hpad : ∀ (k : ℕ) (r : BitVec 32), k < 4096 → ¬ (L ≤ g.val + k ∧ g.val + k - L < 4096) → P k r →
      P (k + 1) (f r (init (Shape.Idx.first hu))))
    (hin : ∀ (k : ℕ) (r : BitVec 32), k < 4096 → L ≤ g.val + k → ∀ hr : g.val + k - L < 4096, P k r →
      P (k + 1) (f r (X (ix3 b ⟨g.val + k - L, hr⟩ d)))) :
    P 4096 (Host.reduceWindow f ![1, 4096, 1] ![1, 1, 1] ![0, L, 0] hi X init h hu (ix3 b g d)) := by
  unfold Host.reduceWindow
  refine foldl_finRange_inv P _ 4096 winNumel _ _ h0 ?_
  intro k r hP
  have hk : k.val < 4096 := lt_of_lt_of_eq k.isLt winNumel
  obtain ⟨c0, c1, c2⟩ := winCoord k
  dsimp only
  split
  · rename_i hc
    have h1 := hc 1
    have e1 : (ix3 b g d (Fin.cast h.1.symm 1)).val * (![1, 1, 1] : Fin 3 → ℕ) 1
        + (((⟨3, ![1, 4096, 1]⟩ : Shape).rowMajor.symm k) 1).val = g.val + k.val := by
      rw [c1]; show g.val * 1 + k.val = _; omega
    have hl : L ≤ g.val + k.val := by have h' := h1.1; rw [e1] at h'; exact h'
    have hr : g.val + k.val - L < 4096 := by have h' := h1.2; rw [e1] at h'; exact h'
    refine (congrArg (fun i => P (k.val + 1) (f r (X i))) ?_).mpr (hin k.val r hk hl hr hP)
    funext a
    refine Fin.ext ?_
    match a with
    | ⟨0, _⟩ =>
      show b.val * 1 + (((⟨3, ![1, 4096, 1]⟩ : Shape).rowMajor.symm k) 0).val - 0 = b.val
      rw [c0]; omega
    | ⟨1, _⟩ =>
      show g.val * 1 + (((⟨3, ![1, 4096, 1]⟩ : Shape).rowMajor.symm k) 1).val - L = g.val + k.val - L
      rw [c1]; omega
    | ⟨2, _⟩ =>
      show d.val * 1 + (((⟨3, ![1, 4096, 1]⟩ : Shape).rowMajor.symm k) 2).val - 0 = d.val
      rw [c2]; omega
  · rename_i hc
    refine hpad k.val r hk (fun hcond => hc ?_) hP
    intro a
    match a with
    | ⟨0, _⟩ =>
      show 0 ≤ b.val * 1 + (((⟨3, ![1, 4096, 1]⟩ : Shape).rowMajor.symm k) 0).val ∧
        b.val * 1 + (((⟨3, ![1, 4096, 1]⟩ : Shape).rowMajor.symm k) 0).val - 0 < 64
      rw [c0]; have := b.isLt; omega
    | ⟨1, _⟩ =>
      show L ≤ g.val * 1 + (((⟨3, ![1, 4096, 1]⟩ : Shape).rowMajor.symm k) 1).val ∧
        g.val * 1 + (((⟨3, ![1, 4096, 1]⟩ : Shape).rowMajor.symm k) 1).val - L < 4096
      rw [c1]; omega
    | ⟨2, _⟩ =>
      show 0 ≤ d.val * 1 + (((⟨3, ![1, 4096, 1]⟩ : Shape).rowMajor.symm k) 2).val ∧
        d.val * 1 + (((⟨3, ![1, 4096, 1]⟩ : Shape).rowMajor.symm k) 2).val - 0 < 128
      rw [c2]; have := d.isLt; omega

end Cert.Impute
-- ==== Proof.RefScan.lean ====
/-
  The two scans of the reference, as window reductions read at one column.

  Along a column c the running maximum of "own position where the entry is observed, else −1" over the positions
  0, …, g is the last observed position at or before g (−1 if none); the running minimum, taken from the far end, of
  "own position where observed, else 4096" over g, …, 4095 is the first observed position at or after g (4096 if none).
  Each is proved along the window's fold: the padding positions hold the fold's initial value (the least word for the
  maximum, the greatest for the minimum) and change nothing; every real position extends the window already scanned by
  the one-position window next to it.
-/
import proofs.«130921_j29815662968985_2_alg».proof.Proof.Spec
import proofs.«130921_j29815662968985_2_alg».proof.Proof.RefFold

namespace Cert.Impute

open Idealize.ShloMosaic Idealize.ShloMosaic.ValueIdx

/-! ## Words -/

theorem toInt_intMin : (2147483648#32 : BitVec 32).toInt = -2147483648 := by decide
theorem toInt_intMax : (2147483647#32 : BitVec 32).toInt = 2147483647 := by decide

theorem toInt_ge_intMin (e : BitVec 32) : -2147483648 ≤ e.toInt := by
  rw [BitVec.toInt_eq_toNat_cond]; have := e.isLt; split <;> omega
theorem toInt_le_intMax (e : BitVec 32) : e.toInt ≤ 2147483647 := by
  rw [BitVec.toInt_eq_toNat_cond]; have := e.isLt; split <;> omega

/-- The signed maximum with the least word is the other operand. -/
theorem maxsi_intMin (e : BitVec 32) : IntOp.maxsi 2147483648#32 e = e := by
  unfold IntOp.maxsi
  rw [if_neg]
  rw [BitVec.slt_iff_toInt_lt, toInt_intMin]
  have := toInt_ge_intMin e; omega

/-- The signed minimum with the greatest word is the other operand, on either side. -/
theorem minsi_intMax_left (e : BitVec 32) : IntOp.minsi 2147483647#32 e = e := by
  unfold IntOp.minsi
  by_cases h : (2147483647#32 : BitVec 32).slt e = true
  · rw [if_pos h]
    rw [BitVec.slt_iff_toInt_lt, toInt_intMax] at h
    have := toInt_le_intMax e; omega
  · rw [if_neg h]
theorem minsi_intMax_right (r : BitVec 32) : IntOp.minsi r 2147483647#32 = r := by
  unfold IntOp.minsi
  by_cases h : r.slt (2147483647#32 : BitVec 32) = true
  · rw [if_pos h]
  · rw [if_neg h]
    rw [BitVec.slt_iff_toInt_lt, toInt_intMax] at h
    have := toInt_le_intMax r
    exact BitVec.eq_of_toInt_eq (by rw [toInt_intMax]; omega)

/-- The signed minimum does not depend on the order of its operands. -/
theorem minsi_comm (r e : BitVec 32) : IntOp.minsi r e = if e.slt r then e else r := by
  unfold IntOp.minsi
  by_cases h1 : r.slt e = true
  · rw [if_pos h1]
    have := BitVec.slt_iff_toInt_lt.mp h1
    rw [if_neg]; rw [BitVec.slt_iff_toInt_lt]; omega
  · rw [if_neg h1]
    by_cases h2 : e.slt r = true
    · rw [if_pos h2]
    · rw [if_neg h2]
      rw [BitVec.slt_iff_toInt_lt] at h1 h2
      exact BitVec.eq_of_toInt_eq (by omega)

/-! ## The window fold, with a real position named by a witness -/

/-- The column reading of the window reduction, a real position m named through g + k = L + m. -/
theorem reduceWindow_col_inv' (f : BitVec 32 → BitVec 32 → BitVec 32) (L : ℕ) (hi : Fin 3 → ℕ)
    (X : (⟨3, ![64, 4096, 128]⟩ : Shape).Idx → BitVec 32) {u : Shape} (init : u.Idx → BitVec 32)
    (h : (⟨3, ![64, 4096, 128]⟩ : Shape).ReduceWindows ![1, 4096, 1] ![1, 1, 1] ![0, L, 0] hi ⟨3, ![64, 4096, 128]⟩)
    (hu : 0 < u.numel) (b : Fin 64) (g : Fin 4096) (d : Fin 128) (P : ℕ → BitVec 32 → Prop)
    (h0 : P 0 (init (Shape.Idx.first hu)))
    (hpad : ∀ (k : ℕ) (r : BitVec 32), k < 4096 → (g.val + k < L ∨ L + 4096 ≤ g.val + k) → P k r →
      P (k + 1) (f r (init (Shape.Idx.first hu))))
    (hin : ∀ (k : ℕ) (r : BitVec 32) (m : ℕ), k < 4096 → g.val + k = L + m → ∀ hm : m < 4096, P k r →
      P (k + 1) (f r (X (ix3 b ⟨m, hm⟩ d)))) :
    P 4096 (Host.reduceWindow f ![1, 4096, 1] ![1, 1, 1] ![0, L, 0] hi X init h hu (ix3 b g d)) :=
  reduceWindow_col_inv f L hi X init h hu b g d P h0
    (fun k r hk hno hP => hpad k r hk (by omega) hP)
    (fun k r hk hl hr hP => hin k r (g.val + k - L) hk (by omega) hr hP)

/-! ## The running maximum -/

/-- The window reduction by signed maximum with low padding 4095, of an array that holds along column (b, ·, d)
    "own position where c is not zero, else −1", from the least word: at (b, g, d) it is the last position of
    [0, g] where c is not zero, or −1. -/
theorem cummax_isPV (c : ℕ → EReal) (X : (⟨3, ![64, 4096, 128]⟩ : Shape).Idx → BitVec 32) {u : Shape}
    (init : u.Idx → BitVec 32)
    (h : (⟨3, ![64, 4096, 128]⟩ : Shape).ReduceWindows ![1, 4096, 1] ![1, 1, 1] ![0, 4095, 0] ![0, 0, 0] ⟨3, ![64, 4096, 128]⟩)
    (hu : 0 < u.numel) (b : Fin 64) (g : Fin 4096) (d : Fin 128)
    (hX : ∀ (s : ℕ) (hs : s < 4096), X (ix3 b ⟨s, hs⟩ d) = if c s ≠ 0 then BitVec.ofNat 32 s else 4294967295#32)
    (hinit : init (Shape.Idx.first hu) = 2147483648#32) :
    IsPV (fun s => c s ≠ 0) 0 (g.val + 1)
      (Host.reduceWindow IntOp.maxsi ![1, 4096, 1] ![1, 1, 1] ![0, 4095, 0] ![0, 0, 0] X init h hu (ix3 b g d)) := by
  have hg := g.isLt
  have key := reduceWindow_col_inv' IntOp.maxsi 4095 ![0, 0, 0] X init h hu b g d
    (fun k r => (g.val + k ≤ 4095 ∧ r = 2147483648#32) ∨
      (∃ n, g.val + k = 4095 + n ∧ 0 < n ∧ IsPV (fun s => c s ≠ 0) 0 n r))
    (Or.inl ⟨by omega, hinit⟩) ?pad ?inn
  · rcases key with ⟨hk, _⟩ | ⟨n, hn, _, hpv⟩
    · omega
    · have e : n = g.val + 1 := by omega
      subst e; exact hpv
  case pad =>
    intro k r hk hno hP
    rcases hP with ⟨h1, hr⟩ | ⟨n, hn, _, _⟩
    · left
      refine ⟨by omega, ?_⟩
      rw [hr, hinit]; exact maxsi_intMin _
    · exfalso; omega
  case inn =>
    intro k r m hk hm hm' hP
    rw [hX m hm']
    have hs := (PV.seed c m hm').1
    right
    refine ⟨m + 1, by omega, by omega, ?_⟩
    rcases hP with ⟨h1, hr0⟩ | ⟨n, hn, _, hpv⟩
    · rw [hr0, maxsi_intMin]
      have m0 : m = 0 := by omega
      subst m0; exact hs
    · have e : n = m := by omega
      subst e
      exact hpv.comb hs (Nat.zero_le _) (Nat.le_succ _)

/-! ## The running minimum from the far end -/

/-- The window reduction by signed minimum with high padding 4095, of an array that holds along column (b, ·, d)
    "own position where c is not zero, else 4096", from the greatest word: at (b, g, d) it is the first position
    of [g, 4095] where c is not zero, or 4096. -/
theorem cummin_isNV (c : ℕ → EReal) (X : (⟨3, ![64, 4096, 128]⟩ : Shape).Idx → BitVec 32) {u : Shape}
    (init : u.Idx → BitVec 32)
    (h : (⟨3, ![64, 4096, 128]⟩ : Shape).ReduceWindows ![1, 4096, 1] ![1, 1, 1] ![0, 0, 0] ![0, 4095, 0] ⟨3, ![64, 4096, 128]⟩)
    (hu : 0 < u.numel) (b : Fin 64) (g : Fin 4096) (d : Fin 128)
    (hX : ∀ (s : ℕ) (hs : s < 4096), X (ix3 b ⟨s, hs⟩ d) = if c s ≠ 0 then BitVec.ofNat 32 s else 4096#32)
    (hinit : init (Shape.Idx.first hu) = 2147483647#32) :
    IsNV (fun s => c s ≠ 0) g.val 4096
      (Host.reduceWindow IntOp.minsi ![1, 4096, 1] ![1, 1, 1] ![0, 0, 0] ![0, 4095, 0] X init h hu (ix3 b g d)) := by
  have hg := g.isLt
  have key := reduceWindow_col_inv' IntOp.minsi 0 ![0, 4095, 0] X init h hu b g d
    (fun k r => (k = 0 ∧ r = 2147483647#32) ∨
      (∃ n, 0 < k ∧ n = g.val + k ∧ n ≤ 4096 ∧ IsNV (fun s => c s ≠ 0) g.val n r) ∨
      (4096 < g.val + k ∧ IsNV (fun s => c s ≠ 0) g.val 4096 r))
    (Or.inl ⟨rfl, hinit⟩) ?pad ?inn
  · rcases key with ⟨hk, _⟩ | ⟨n, _, hn, hle, hnv⟩ | ⟨_, hnv⟩
    · omega
    · have e : n = 4096 := by omega
      subst e; exact hnv
    · exact hnv
  case pad =>
    intro k r hk hno hP
    rw [hinit, minsi_intMax_right]
    rcases hP with ⟨h1, _⟩ | ⟨n, _, hn, hle, hnv⟩ | ⟨h1, hnv⟩
    · exfalso; omega
    · right; right
      have e : n = 4096 := by omega
      subst e
      exact ⟨by omega, hnv⟩
    · right; right
      exact ⟨by omega, hnv⟩
  case inn =>
    intro k r m hk hm hm' hP
    rw [hX m hm']
    have hs := (NV.seed c m hm').1
    right; left
    refine ⟨m + 1, by omega, by omega, by omega, ?_⟩
    rcases hP with ⟨h1, hr0⟩ | ⟨n, _, hn, hle, hnv⟩ | ⟨h1, _⟩
    · rw [hr0, minsi_intMax_left]
      have m0 : m = g.val := by omega
      subst m0; exact hs
    · have e : n = m := by omega
      subst e
      rw [minsi_comm]
      exact hnv.comb hs (by omega) (Nat.le_succ _) (by omega)
    · exfalso; omega

end Cert.Impute
-- ==== Proof.RefColumn.lean ====
/-
  The reference's two scans at one element. The first scan's input holds, along a column, "own position where the
  entry is observed, else −1", and its running maximum at (b, g, d) is the last observed position of column (b, ·, d)
  at or before g (−1 if none); the second holds "own position where observed, else 4096", and its running minimum from
  the far end is the first observed position at or after g (4096 if none).
-/
import proofs.«130921_j29815662968985_2_alg».proof.Proof.RefRead
import proofs.«130921_j29815662968985_2_alg».proof.Proof.Spec
import proofs.«130921_j29815662968985_2_alg».proof.Proof.RefScan
import Idealize.ShloMosaic.PureOps.Ideal.Laws

noncomputable section

namespace Cert.Impute

open Idealize.ShloMosaic Idealize.ShloMosaic.ValueIdx Cert.ReferenceIdeal Cert.ReferenceIdeal.Read

variable (x : (⟨S64x4096x128, .f32⟩ : BufTy).Contents (Elt Ideal))

/-- The column's entry at a position inside the array is the array's. -/
theorem col3_apply (b : Fin 64) (d : Fin 128) (s : ℕ) (hs : s < 4096) : col3 x b d s = x (ix3 b ⟨s, hs⟩ d) := by
  unfold col3; rw [dif_pos hs]

/-- The reference's "observed" bit at an element: the entry is not zero. -/
theorem v1_read (i : S64x4096x128.Idx) : val_main_v1 (F := Ideal) x i = Ideal.cmp .one (x i) 0 := by
  rw [val_main_v1_apply, val_main_v0_apply, val_main_cst_apply]
  show Ideal.cmp .une (x i) (Ideal.ofBits .f32 0x00000000#32) = _
  rw [Ideal.ofBits_zero_f32]
  rfl

/-- The position array of the first scan at an element: the middle coordinate as a word. -/
theorem pos0_read (b : Fin 64) (s : ℕ) (hs : s < 4096) (d : Fin 128) :
    val_main_call0_v1 (F := Ideal) (ix3 b ⟨s, hs⟩ d) = BitVec.ofNat 32 s := by
  rw [val_main_call0_v1_apply, val_main_v3_apply, val_main_v2_apply]

/-- The position array of the second scan at an element: the middle coordinate as a word. -/
theorem pos2_read (b : Fin 64) (s : ℕ) (hs : s < 4096) (d : Fin 128) :
    val_main_call2_v1 (F := Ideal) (ix3 b ⟨s, hs⟩ d) = BitVec.ofNat 32 s := by
  rw [val_main_call2_v1_apply, val_main_v3_apply, val_main_v2_apply]

/-- The first scan's input along a column: own position where the entry is observed, else −1. -/
theorem v4_col (b : Fin 64) (d : Fin 128) (s : ℕ) (hs : s < 4096) :
    val_main_v4 (F := Ideal) x (ix3 b ⟨s, hs⟩ d)
      = if col3 x b d s ≠ 0 then BitVec.ofNat 32 s else 4294967295#32 := by
  rw [val_main_v4_apply, v1_read, pos0_read, val_main_call0_v2_apply, val_main_call0_v0_apply, val_main_c_apply,
    col3_apply x b d s hs]
  exact select_ne_zero _ _ _

/-- The second scan's input along a column: own position where the entry is observed, else 4096. -/
theorem v6_col (b : Fin 64) (d : Fin 128) (s : ℕ) (hs : s < 4096) :
    val_main_v6 (F := Ideal) x (ix3 b ⟨s, hs⟩ d)
      = if col3 x b d s ≠ 0 then BitVec.ofNat 32 s else 4096#32 := by
  rw [val_main_v6_apply, v1_read, pos2_read, val_main_call2_v2_apply, val_main_call2_v0_apply, val_main_c_0_apply,
    col3_apply x b d s hs]
  exact select_ne_zero _ _ _

/-- The reference's running maximum at (b, g, d) is the last observed position of column (b, ·, d) at or before g,
    or −1. -/
theorem v5_isPV (b : Fin 64) (g : Fin 4096) (d : Fin 128) :
    IsPV (fun s => col3 x b d s ≠ 0) 0 (g.val + 1) (val_main_v5 (F := Ideal) x (ix3 b g d)) := by
  unfold val_main_v5
  exact cummax_isPV (col3 x b d) (val_main_v4 (F := Ideal) x) (val_main_call1_v0 (F := Ideal)) _ _ b g d
    (fun s hs => v4_col x b d s hs)
    (by rw [val_main_call1_v0_apply, val_main_call1_c_apply])

/-- The reference's running minimum from the far end at (b, g, d) is the first observed position of column
    (b, ·, d) at or after g, or 4096. -/
theorem v7_isNV (b : Fin 64) (g : Fin 4096) (d : Fin 128) :
    IsNV (fun s => col3 x b d s ≠ 0) g.val 4096 (val_main_v7 (F := Ideal) x (ix3 b g d)) := by
  unfold val_main_v7
  exact cummin_isNV (col3 x b d) (val_main_v6 (F := Ideal) x) (val_main_call3_v0 (F := Ideal)) _ _ b g d
    (fun s hs => v6_col x b d s hs)
    (by rw [val_main_call3_v0_apply, val_main_call3_c_apply])

end Cert.Impute

end
-- ==== Proof.RefGather.lean ====
/-
  Reading along the middle axis at computed positions: the gather that takes, for every (b, g, d), the element of
  column (b, ·, d) at the position a second array holds at (b, g, d, 0) — read signed and clamped into [0, 4095] —
  and the reduction by "and" over a trailing axis of extent one, which is 1 wherever its one element is 1.
-/
import Idealize.ShloMosaic.PureOps.Reduce
import Idealize.ShloMosaic.Lib.ValueIdx
import Idealize.ShloMosaic.Lib.Affine

namespace Cert.Impute

open Idealize.ShloMosaic Idealize.ShloMosaic.ValueIdx

/-! ## The gather along the middle axis -/

/-- The dimension numbers of taking along the middle axis of a [64, 4096, 128] operand at a [64, 4096, 128, 1]
    array of positions: axes 0 and 2 are batching axes, axis 1 is collapsed and indexed by the one-component
    position vector on axis 3. -/
abbrev takeMidDims
    (wf : GatherDims.WF (⟨3, ![64, 4096, 128]⟩ : Shape) ⟨4, ![64, 4096, 128, 1]⟩ ⟨3, ![64, 4096, 128]⟩
      [] [1] [0, 2] [1] [0, 2] 3 ![1, 1, 1]) :
    GatherDims ⟨3, ![64, 4096, 128]⟩ ⟨4, ![64, 4096, 128, 1]⟩ ⟨3, ![64, 4096, 128]⟩ where
  offsetDims := []
  collapsedSliceDims := [1]
  operandBatchingDims := [0, 2]
  startIndicesBatchingDims := [0, 2]
  startIndexMap := [1]
  indexVectorDim := 3
  sliceSizes := ![1, 1, 1]
  wf := wf

/-- The gather read at (b, g, d): the operand at (b, p, d), where p is the position the second array holds at
    (b, g, d, 0), read signed and clamped into [0, 4095]. -/
theorem gather_mid_apply {α : Type} {w : ℕ}
    (wf : GatherDims.WF (⟨3, ![64, 4096, 128]⟩ : Shape) ⟨4, ![64, 4096, 128, 1]⟩ ⟨3, ![64, 4096, 128]⟩
      [] [1] [0, 2] [1] [0, 2] 3 ![1, 1, 1])
    (x : (⟨3, ![64, 4096, 128]⟩ : Shape).Idx → α) (idx : IVec ⟨4, ![64, 4096, 128, 1]⟩ w)
    (b : Fin 64) (g : Fin 4096) (d : Fin 128) :
    Host.gather (takeMidDims wf) x idx (ix3 b g d)
      = x (ix3 b ⟨min (idx (ix4 b g d ⟨0, Nat.one_pos⟩)).toInt.toNat 4095, by omega⟩ d) := by
  unfold Host.gather
  refine congrArg x ?_
  funext a
  refine Fin.ext ?_
  have c0 : (takeMidDims wf).start (ix3 b g d) idx 0 + (takeMidDims wf).batchCoord (ix3 b g d) 0
      + (takeMidDims wf).offCoord (ix3 b g d) 0 = b.val := by
    rw [GatherDims.start_batching _ _ _ _ (show (0 : Fin 3) ∈ [0, 2] by decide),
      GatherDims.offCoord_eq_zero _ _ _
        (fun h => ((GatherDims.mem_sKept _ _).mp h).2 (show (0 : Fin 3) ∈ [0, 2] by decide)),
      Nat.zero_add, Nat.add_zero]
    rfl
  have c2 : (takeMidDims wf).start (ix3 b g d) idx 2 + (takeMidDims wf).batchCoord (ix3 b g d) 2
      + (takeMidDims wf).offCoord (ix3 b g d) 2 = d.val := by
    rw [GatherDims.start_batching _ _ _ _ (show (2 : Fin 3) ∈ [0, 2] by decide),
      GatherDims.offCoord_eq_zero _ _ _
        (fun h => ((GatherDims.mem_sKept _ _).mp h).2 (show (2 : Fin 3) ∈ [0, 2] by decide)),
      Nat.zero_add, Nat.add_zero]
    rfl
  have c1 : (takeMidDims wf).start (ix3 b g d) idx 1 + (takeMidDims wf).batchCoord (ix3 b g d) 1
      + (takeMidDims wf).offCoord (ix3 b g d) 1 = min (idx (ix4 b g d ⟨0, Nat.one_pos⟩)).toInt.toNat 4095 := by
    rw [GatherDims.batchCoord_eq_zero _ _ _ (show (1 : Fin 3) ∉ [0, 2] by decide),
      GatherDims.offCoord_eq_zero _ _ _
        (fun h => ((GatherDims.mem_sKept _ _).mp h).1 (show (1 : Fin 3) ∈ [1] by decide))]
    simp only [Nat.add_zero]
    unfold GatherDims.start
    rw [dif_pos (show (1 : Fin 3) ∈ (takeMidDims wf).startIndexMap from List.mem_singleton.mpr rfl)]
    have hsi : (takeMidDims wf).siIdx (ix3 b g d) ⟨List.idxOf (1 : Fin 3) (takeMidDims wf).startIndexMap,
        List.idxOf_lt_length_iff.2 (List.mem_singleton.mpr rfl)⟩ = ix4 b g d ⟨0, Nat.one_pos⟩ := by
      funext c; refine Fin.ext ?_
      match c with
      | ⟨0, _⟩ => rfl
      | ⟨1, _⟩ => rfl
      | ⟨2, _⟩ => rfl
      | ⟨3, _⟩ => rfl
    rw [hsi]
    rfl
  match a with
  | ⟨0, _⟩ => exact c0
  | ⟨1, _⟩ => exact c1
  | ⟨2, _⟩ => exact c2

/-! ## The reduction by "and" over a trailing unit axis -/

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- An index of the [64, 4096, 128, 1] shape with coordinates b, g, d is (b, g, d, 0). -/
theorem idx4_eq (i : (⟨4, ![64, 4096, 128, 1]⟩ : Shape).Idx) (b : Fin 64) (g : Fin 4096) (d : Fin 128)
    (h0 : (i 0).val = b.val) (h1 : (i 1).val = g.val) (h2 : (i 2).val = d.val) :
    i = ix4 b g d ⟨0, Nat.one_pos⟩ := by
  funext a; refine Fin.ext ?_
  match a with
  | ⟨0, _⟩ => exact h0
  | ⟨1, _⟩ => exact h1
  | ⟨2, _⟩ => exact h2
  | ⟨3, _⟩ =>
    have h3 : (i 3).val < 1 := (i 3).isLt
    show (i 3).val = 0
    omega

/-- The reduction by "and", from 1, over the trailing unit axis of a [64, 4096, 128, 1] array of bits is 1 at
    (b, g, d) when the array's bit at (b, g, d, 0) is 1. -/
theorem reduce_and_unit (p : (⟨4, ![64, 4096, 128, 1]⟩ : Shape).Idx → BitVec 1) {u : Shape} (init : u.Idx → BitVec 1)
    (h : (⟨4, ![64, 4096, 128, 1]⟩ : Shape).ReducesTo [3] ⟨3, ![64, 4096, 128]⟩) (hu : 0 < u.numel)
    (b : Fin 64) (g : Fin 4096) (d : Fin 128) (hinit : init (Shape.Idx.first hu) = 1#1)
    (hp : p (ix4 b g d ⟨0, Nat.one_pos⟩) = 1#1) :
    Host.reduce IntOp.andi p init h hu (ix3 b g d) = 1#1 := by
  rw [Host.reduce_eq_foldl, hinit]
  refine foldl_andi_one p _ ?_
  intro i hi
  rw [List.mem_filter] at hi
  have hd : h.drop i = ix3 b g d := by simpa using hi.2
  have e0 : (i 0).val = b.val := by
    have := Shape.ReducesTo.drop_apply_val_of_eq h i 0 0
    rw [hd] at this; exact this.symm
  have e1 : (i 1).val = g.val := by
    have := Shape.ReducesTo.drop_apply_val_of_eq h i 1 1
    rw [hd] at this; exact this.symm
  have e2 : (i 2).val = d.val := by
    have := Shape.ReducesTo.drop_apply_val_of_eq h i 2 2
    rw [hd] at this; exact this.symm
  rw [idx4_eq i b g d e0 e1 e2]; exact hp

/-! ## The guarded take -/

/-- Taking along the middle axis with the out-of-range guard: where the position word S held at (b, g, d, 0) lies in
    [0, 4095], the guard bit (the "and" over the unit axis of "0 ≤ S and S ≤ 4095") is 1, the clamp does nothing, and
    the selected value is the operand at (b, S, d). -/
theorem take_guarded {α : Type}
    (wf : GatherDims.WF (⟨3, ![64, 4096, 128]⟩ : Shape) ⟨4, ![64, 4096, 128, 1]⟩ ⟨3, ![64, 4096, 128]⟩
      [] [1] [0, 2] [1] [0, 2] 3 ![1, 1, 1])
    (x : (⟨3, ![64, 4096, 128]⟩ : Shape).Idx → α) (W : IVec ⟨4, ![64, 4096, 128, 1]⟩ 32)
    (p : (⟨4, ![64, 4096, 128, 1]⟩ : Shape).Idx → BitVec 1) {u : Shape} (init : u.Idx → BitVec 1)
    (hred : (⟨4, ![64, 4096, 128, 1]⟩ : Shape).ReducesTo [3] ⟨3, ![64, 4096, 128]⟩) (hu : 0 < u.numel) (other : α)
    (b : Fin 64) (g : Fin 4096) (d : Fin 128) (S : BitVec 32) (hS0 : 0 ≤ S.toInt) (hS1 : S.toInt ≤ 4095)
    (hW : W (ix4 b g d ⟨0, Nat.one_pos⟩) = S) (hinit : init (Shape.Idx.first hu) = 1#1)
    (hp : p (ix4 b g d ⟨0, Nat.one_pos⟩) = IntOp.andi (IntOp.cmpi .sge S 0#32) (IntOp.cmpi .sle S 4095#32)) :
    Scalar.select (Host.reduce IntOp.andi p init hred hu (ix3 b g d)) (Host.gather (takeMidDims wf) x W (ix3 b g d)) other
      = x (ix3 b ⟨S.toInt.toNat, by omega⟩ d) := by
  subst hW
  have h1 : Host.reduce IntOp.andi p init hred hu (ix3 b g d) = 1#1 := by
    refine reduce_and_unit p init hred hu b g d hinit ?_
    rw [hp, IntOp.andi_eq_one, IntOp.cmpi_sge, IntOp.cmpi_sle]
    exact ⟨hS0, hS1⟩
  rw [h1, select_one, gather_mid_apply]
  refine congrArg (fun s => x (ix3 b s d)) (Fin.ext ?_)
  show min (W (ix4 b g d ⟨0, Nat.one_pos⟩)).toInt.toNat 4095 = (W (ix4 b g d ⟨0, Nat.one_pos⟩)).toInt.toNat
  omega

end Cert.Impute
-- ==== Proof.RefTake.lean ====
/-
  The reference's two gathers at one element. The start position max(pv, 0) and the end position (nv if nv < 4096,
  else 4095) both lie in [0, 4095], so the out-of-range guard of each gather passes and the gathered values are the
  column's entries at those positions. Where pv is the sentinel −1 no position of [0, g] is observed, so the entry
  at 0 is zero; where nv is the sentinel 4096 no position of [g, 4095] is observed, so the entry at 4095 is zero:
  the two scans' answers travel with the column's values at them.
-/
import proofs.«130921_j29815662968985_2_alg».proof.Proof.RefColumn
import proofs.«130921_j29815662968985_2_alg».proof.Proof.RefGather

noncomputable section

namespace Cert.Impute

open Idealize.ShloMosaic Idealize.ShloMosaic.ValueIdx Cert.ReferenceIdeal Cert.ReferenceIdeal.Read

/-! ## The two position words -/

theorem toInt_zero32 : (0#32 : BitVec 32).toInt = 0 := by decide
theorem toInt_4095 : (4095#32 : BitVec 32).toInt = 4095 := by decide

/-- The signed maximum of two words, as integers. -/
theorem maxsi_toInt (a c : BitVec 32) : (IntOp.maxsi a c).toInt = max a.toInt c.toInt := by
  unfold IntOp.maxsi
  by_cases h : c.slt a = true
  · rw [if_pos h]; have := BitVec.slt_iff_toInt_lt.mp h; omega
  · rw [if_neg h]; rw [BitVec.slt_iff_toInt_lt] at h; omega

/-- The start position max(pv, 0), as an integer. -/
theorem start_toInt (pv : BitVec 32) : (IntOp.maxsi pv 0#32).toInt = max pv.toInt 0 := by
  rw [maxsi_toInt, toInt_zero32]

/-- The end position (nv if nv < 4096, else 4095), as an integer. -/
theorem stop_toInt (nv : BitVec 32) :
    (Scalar.select (IntOp.cmpi .slt nv 4096#32) nv 4095#32).toInt = if nv.toInt < 4096 then nv.toInt else 4095 := by
  rw [select_slt]
  by_cases h : nv.slt 4096#32 = true
  · rw [if_pos h]; have := BitVec.slt_iff_toInt_lt.mp h; rw [toInt_4096] at this; rw [if_pos this]
  · rw [if_neg h]; rw [BitVec.slt_iff_toInt_lt, toInt_4096] at h; rw [if_neg h, toInt_4095]

variable (x : (⟨S64x4096x128, .f32⟩ : BufTy).Contents (Elt Ideal))

/-- The start array at an element: max(pv, 0). -/
theorem v9_read (i : S64x4096x128.Idx) :
    val_main_v9 (F := Ideal) x i = IntOp.maxsi (val_main_v5 (F := Ideal) x i) 0#32 := by
  rw [val_main_v9_apply, val_main_v8_apply, val_main_c_1_apply]

/-- The end array at an element: nv if nv < 4096, else 4095. -/
theorem v12_read (i : S64x4096x128.Idx) :
    val_main_v12 (F := Ideal) x i
      = Scalar.select (IntOp.cmpi .slt (val_main_v7 (F := Ideal) x i) 4096#32) (val_main_v7 (F := Ideal) x i) 4095#32 := by
  rw [val_main_v12_apply, val_main_v11_apply, val_main_v10_apply, val_main_c_2_apply, val_main_call4_v1_apply,
    val_main_call4_v0_apply, val_main_c_3_apply]

/-! ## The reshape of the position array: (b, g, d, 0) reads (b, g, d) -/

theorem idx5_read (b : Fin 64) (g : Fin 4096) (d : Fin 128) :
    idx_main_call5_v5 (ix4 b g d ⟨0, Nat.one_pos⟩) = ix3 b g d := by
  have hb := b.isLt; have hg := g.isLt; have hd := d.isLt
  funext a; refine Fin.ext ?_
  match a with
  | ⟨0, _⟩ => show (((b.val * 4096 + g.val) * 128 + d.val) * 1 + 0) / 524288 = b.val; omega
  | ⟨1, _⟩ => show (((b.val * 4096 + g.val) * 128 + d.val) * 1 + 0) / 128 % 4096 = g.val; omega
  | ⟨2, _⟩ => show (((b.val * 4096 + g.val) * 128 + d.val) * 1 + 0) % 128 = d.val; omega

theorem idx6_read (b : Fin 64) (g : Fin 4096) (d : Fin 128) :
    idx_main_call6_v5 (ix4 b g d ⟨0, Nat.one_pos⟩) = ix3 b g d := by
  have hb := b.isLt; have hg := g.isLt; have hd := d.isLt
  funext a; refine Fin.ext ?_
  match a with
  | ⟨0, _⟩ => show (((b.val * 4096 + g.val) * 128 + d.val) * 1 + 0) / 524288 = b.val; omega
  | ⟨1, _⟩ => show (((b.val * 4096 + g.val) * 128 + d.val) * 1 + 0) / 128 % 4096 = g.val; omega
  | ⟨2, _⟩ => show (((b.val * 4096 + g.val) * 128 + d.val) * 1 + 0) % 128 = d.val; omega

/-! ## The two gathers -/

/-- The value gathered at the start position: where the start word S = max(pv, 0) lies in [0, 4095], the entry
    at (b, S, d). -/
theorem v13_read (b : Fin 64) (g : Fin 4096) (d : Fin 128) (S : BitVec 32)
    (hS : IntOp.maxsi (val_main_v5 (F := Ideal) x (ix3 b g d)) 0#32 = S) (hS0 : 0 ≤ S.toInt) (hS1 : S.toInt ≤ 4095) :
    val_main_v13 (F := Ideal) x (ix3 b g d) = x (ix3 b ⟨S.toInt.toNat, by omega⟩ d) := by
  have hW : val_main_call5_v5 (F := Ideal) x (ix4 b g d ⟨0, Nat.one_pos⟩) = S := by
    rw [val_main_call5_v5_apply, idx5_read, val_main_call5_v4_apply, val_main_call5_v1_apply, val_main_call5_v0_apply,
      val_main_call5_c_apply, v9_read, hS, select_slt, if_neg]
    rw [BitVec.slt_iff_toInt_lt, toInt_zero32]; omega
  have hp : val_main_call5_v11 (F := Ideal) x (ix4 b g d ⟨0, Nat.one_pos⟩)
      = IntOp.andi (IntOp.cmpi .sge S 0#32) (IntOp.cmpi .sle S 4095#32) := by
    rw [val_main_call5_v11_apply, val_main_call5_v7_apply, val_main_call5_v10_apply, hW, val_main_call5_v6_apply,
      val_main_call5_c_2_apply, val_main_call5_v9_apply, val_main_call5_v8_apply, val_main_call5_c_1_apply]
  rw [val_main_v13_apply]
  unfold val_main_call5_v12 val_main_call5_v13
  exact take_guarded _ x (val_main_call5_v5 (F := Ideal) x) (val_main_call5_v11 (F := Ideal) x)
    (val_main_call5_c_3 (F := Ideal)) _ _ _ b g d S hS0 hS1 hW (by rw [val_main_call5_c_3_apply]) hp

/-- The value gathered at the end position: where the end word E lies in [0, 4095], the entry at (b, E, d). -/
theorem v14_read (b : Fin 64) (g : Fin 4096) (d : Fin 128) (E : BitVec 32)
    (hE : Scalar.select (IntOp.cmpi .slt (val_main_v7 (F := Ideal) x (ix3 b g d)) 4096#32)
      (val_main_v7 (F := Ideal) x (ix3 b g d)) 4095#32 = E) (hE0 : 0 ≤ E.toInt) (hE1 : E.toInt ≤ 4095) :
    val_main_v14 (F := Ideal) x (ix3 b g d) = x (ix3 b ⟨E.toInt.toNat, by omega⟩ d) := by
  have hW : val_main_call6_v5 (F := Ideal) x (ix4 b g d ⟨0, Nat.one_pos⟩) = E := by
    rw [val_main_call6_v5_apply, idx6_read, val_main_call6_v4_apply, val_main_call6_v1_apply, val_main_call6_v0_apply,
      val_main_call6_c_apply, v12_read, hE, select_slt, if_neg]
    rw [BitVec.slt_iff_toInt_lt, toInt_zero32]; omega
  have hp : val_main_call6_v11 (F := Ideal) x (ix4 b g d ⟨0, Nat.one_pos⟩)
      = IntOp.andi (IntOp.cmpi .sge E 0#32) (IntOp.cmpi .sle E 4095#32) := by
    rw [val_main_call6_v11_apply, val_main_call6_v7_apply, val_main_call6_v10_apply, hW, val_main_call6_v6_apply,
      val_main_call6_c_2_apply, val_main_call6_v9_apply, val_main_call6_v8_apply, val_main_call6_c_1_apply]
  rw [val_main_v14_apply]
  unfold val_main_call6_v12 val_main_call6_v13
  exact take_guarded _ x (val_main_call6_v5 (F := Ideal) x) (val_main_call6_v11 (F := Ideal) x)
    (val_main_call6_c_3 (F := Ideal)) _ _ _ b g d E hE0 hE1 hW (by rw [val_main_call6_c_3_apply]) hp

/-! ## The two answers with their values -/

/-- The reference's last observed position at or before g, with the value it gathers there. -/
theorem ref_pv (b : Fin 64) (g : Fin 4096) (d : Fin 128) :
    PV (col3 x b d) 0 (g.val + 1) (val_main_v5 (F := Ideal) x (ix3 b g d)) (val_main_v13 (F := Ideal) x (ix3 b g d)) := by
  have hg := g.isLt
  have hpv := v5_isPV x b g d
  generalize hpvE : val_main_v5 (F := Ideal) x (ix3 b g d) = pv at hpv ⊢
  have h1 := hpv.ge
  have h2 := hpv.lt
  have hS := start_toInt pv
  refine ⟨hpv, ?_⟩
  rw [v13_read x b g d (IntOp.maxsi pv 0#32) (by rw [hpvE]) (by omega) (by omega)]
  by_cases hneg : pv.toInt < 0
  · rw [if_pos hneg]
    rcases hpv with ⟨_, hall⟩ | ⟨n, hn, _⟩
    · have h0 : col3 x b d 0 = 0 := not_not.mp (hall 0 (le_refl _) (by omega))
      rw [← h0, col3_apply x b d 0 (by omega)]
      refine congrArg (fun s => x (ix3 b s d)) (Fin.ext ?_)
      show (IntOp.maxsi pv 0#32).toInt.toNat = 0
      omega
    · omega
  · rw [if_neg hneg, col3_apply x b d pv.toInt.toNat (by omega)]
    refine congrArg (fun s => x (ix3 b s d)) (Fin.ext ?_)
    show (IntOp.maxsi pv 0#32).toInt.toNat = pv.toInt.toNat
    omega

/-- The reference's first observed position at or after g, with the value it gathers there. -/
theorem ref_nv (b : Fin 64) (g : Fin 4096) (d : Fin 128) :
    NV (col3 x b d) g.val 4096 (val_main_v7 (F := Ideal) x (ix3 b g d)) (val_main_v14 (F := Ideal) x (ix3 b g d)) := by
  have hg := g.isLt
  have hnv := v7_isNV x b g d
  generalize hnvE : val_main_v7 (F := Ideal) x (ix3 b g d) = nv at hnv ⊢
  have h1 := hnv.ge (by omega)
  have h2 := hnv.le (le_refl _)
  have hE := stop_toInt nv
  refine ⟨hnv, ?_⟩
  rw [v14_read x b g d (Scalar.select (IntOp.cmpi .slt nv 4096#32) nv 4095#32) (by rw [hnvE])
    (by rw [hE]; split <;> omega) (by rw [hE]; split <;> omega)]
  by_cases hbig : 4096 ≤ nv.toInt
  · rw [if_pos hbig]
    rw [if_neg (by omega)] at hE
    rcases hnv with ⟨_, hall⟩ | ⟨n, hn, _, hn2, _⟩
    · have h0 : col3 x b d 4095 = 0 := not_not.mp (hall 4095 (by omega) (by omega))
      rw [← h0, col3_apply x b d 4095 (by omega)]
      refine congrArg (fun s => x (ix3 b s d)) (Fin.ext ?_)
      show (Scalar.select (IntOp.cmpi .slt nv 4096#32) nv 4095#32).toInt.toNat = 4095
      omega
    · omega
  · rw [if_neg hbig, col3_apply x b d nv.toInt.toNat (by omega)]
    rw [if_pos (by omega)] at hE
    refine congrArg (fun s => x (ix3 b s d)) (Fin.ext ?_)
    show (Scalar.select (IntOp.cmpi .slt nv 4096#32) nv 4095#32).toInt.toNat = nv.toInt.toNat
    omega

end Cert.Impute

end
-- ==== Proof.RefEntry.lean ====
/-
  One element of the reference's result, as the column's gap filling.
-/
import proofs.«130921_j29815662968985_2_alg».proof.Proof.RefRead
import proofs.«130921_j29815662968985_2_alg».proof.Proof.Spec
import proofs.«130921_j29815662968985_2_alg».proof.Proof.RefTake

noncomputable section

namespace Cert.Impute

open Idealize.ShloMosaic Idealize.ShloMosaic.ValueIdx Cert.ReferenceIdeal

section Blend

open Cert.ReferenceIdeal.Read

variable (x : (⟨S64x4096x128, .f32⟩ : BufTy).Contents (Elt Ideal))

/-- The position array used by the interpolation weight, at an element: the middle coordinate as a word. -/
theorem pos18_read (b : Fin 64) (g : Fin 4096) (d : Fin 128) :
    val_main_v18 (F := Ideal) (ix3 b g d) = BitVec.ofNat 32 g.val := by
  rw [val_main_v18_apply, val_main_v3_apply, val_main_v2_apply]

/-- The position array used by the keep condition, at an element: the middle coordinate as a word. -/
theorem pos33_read (b : Fin 64) (g : Fin 4096) (d : Fin 128) :
    val_main_v33 (F := Ideal) (ix3 b g d) = BitVec.ofNat 32 g.val := by
  rw [val_main_v33_apply, val_main_v3_apply, val_main_v2_apply]

/-- The reference's result at (b, g, d) is the blend of the entry there, the position, the two scans' answers and
    the two gathered values: every operation after the scans and the gathers acts element by element. -/
theorem ref_value (b : Fin 64) (g : Fin 4096) (d : Fin 128) :
    val_main_v36 (F := Ideal) x (ix3 b g d)
      = blend (x (ix3 b g d)) (BitVec.ofNat 32 g.val) (val_main_v5 (F := Ideal) x (ix3 b g d))
          (val_main_v7 (F := Ideal) x (ix3 b g d)) (val_main_v13 (F := Ideal) x (ix3 b g d))
          (val_main_v14 (F := Ideal) x (ix3 b g d)) := by
  rw [val_main_v36_apply, val_main_v35_apply, val_main_v32_apply, v1_read, val_main_v31_apply, val_main_v34_apply,
    pos33_read, val_main_v30_apply, val_main_v29_apply, val_main_v28_apply, val_main_c_6_apply, val_main_v27_apply,
    val_main_v26_apply, val_main_v22_apply, val_main_v20_apply, val_main_v19_apply, pos18_read, val_main_v21_apply,
    val_main_v25_apply, val_main_v24_apply, val_main_v23_apply, val_main_c_5_apply, val_main_v17_apply,
    val_main_v16_apply, val_main_c_4_apply, val_main_v15_apply, v12_read, v9_read]
  generalize val_main_v5 (F := Ideal) x (ix3 b g d) = pv
  generalize val_main_v7 (F := Ideal) x (ix3 b g d) = nv
  generalize val_main_v13 (F := Ideal) x (ix3 b g d) = a
  generalize val_main_v14 (F := Ideal) x (ix3 b g d) = bb
  rfl

end Blend

/-- The reference's result at `(b, g, d)` is the gap filling of column `(b, ·, d)` at `g`. -/
theorem ref_entry (x : (⟨S64x4096x128, .f32⟩ : BufTy).Contents (Elt Ideal)) (b : Fin 64) (g : Fin 4096) (d : Fin 128) :
    Cert.ReferenceIdeal.Read.val_main_v36 (F := Ideal) x (ix3 b g d) = outSpec (col3 x b d) g.val := by
  have hc : col3 x b d g.val = x (ix3 b g d) := col3_apply x b d g.val g.isLt
  rw [ref_value x b g d, ← hc]
  exact outSpec_eq (ref_pv x b g d) (ref_nv x b g d)

end Cert.Impute

end
-- ==== Proof.lean ====
/-
  The claim. The kernel fills the gaps (zeros) of every column `x(b, ·, d)` of a float32[64, 4096, 128] array along
  the middle axis by a two-level scan for the last observed position at or before a row and the first observed position
  at or after it; the reference finds the same two positions by a running maximum and a running minimum over the whole
  column and gathers the values there. Both blend the row's value, the two positions and the two values by one formula,
  so both end at the same whole-array function of the input, every column filled by itself. The law that joins the two
  sides is the uniqueness of a window's last (first) observed position: whatever the schedule of the scan, the answer
  for a window is the one position the window determines.
-/
import proofs.«130921_j29815662968985_2_alg».proof.Defs
import proofs.«130921_j29815662968985_2_alg».proof.Proof.Gen.Kernel
import proofs.«130921_j29815662968985_2_alg».proof.Proof.Gen.Kernel.Skeleton
import proofs.«130921_j29815662968985_2_alg».proof.Proof.Gen.Kernel.Launch
import proofs.«130921_j29815662968985_2_alg».proof.Proof.Gen.Kernel.Points
import proofs.«130921_j29815662968985_2_alg».proof.Proof.Gen.Kernel.Frame
import proofs.«130921_j29815662968985_2_alg».proof.Proof.Gen.KernelIdeal
import proofs.«130921_j29815662968985_2_alg».proof.Proof.Gen.KernelIdeal.Skeleton
import proofs.«130921_j29815662968985_2_alg».proof.Proof.Gen.KernelIdeal.Launch
import proofs.«130921_j29815662968985_2_alg».proof.Proof.Gen.KernelIdeal.Points
import proofs.«130921_j29815662968985_2_alg».proof.Proof.Gen.KernelIdeal.Frame
import proofs.«130921_j29815662968985_2_alg».proof.Proof.Gen.ReferenceIdeal
import proofs.«130921_j29815662968985_2_alg».proof.Proof.Gen.KernelIdeal.Value
import proofs.«130921_j29815662968985_2_alg».proof.Proof.RefRun
import proofs.«130921_j29815662968985_2_alg».proof.Proof.Gen.Pre_finite_inputs
import proofs.«130921_j29815662968985_2_alg».proof.Proof.KernelValue
import proofs.«130921_j29815662968985_2_alg».proof.Proof.RefEntry
import Idealize.ShloMosaic.Adequacy
import Idealize.ShloMosaic.Init

noncomputable section

namespace Cert.Proof

open Idealize.ShloMosaic Idealize.ShloMosaic.TcCoe Idealize.SL.Sem

/-- The reference's result array is the whole-array gap filling of its input array: index by index it is the gap
    filling of the index's column at the index's row. -/
theorem ref_is_G (x : (⟨Cert.ReferenceIdeal.S64x4096x128, .f32⟩ : BufTy).Contents (Elt Ideal)) :
    Cert.ReferenceIdeal.Read.val_main_v36 (F := Ideal) x = Cert.Impute.G x := by
  funext i
  obtain ⟨b, g, d, rfl⟩ : ∃ (b : Fin 64) (g : Fin 4096) (d : Fin 128), i = ValueIdx.ix3 b g d :=
    ⟨i 0, i 1, i 2, ValueIdx.eq_ix3 i⟩
  exact (Cert.Impute.ref_entry x b g d).trans (Cert.Impute.G_apply x b g d).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

/-- At the ideal instance the kernel's output array ends at the whole-array gap filling of its input and the
    reference's result at the same function of an input that agrees: one function. -/
theorem algebraic : Cert.algebraic_KernelIdeal_ReferenceIdeal := by
  intro m ρ m' ρ' _ hagree
  refine ⟨fun c => Cert.Impute.G (m ((c.tc : Thread Cert.KernelIdeal.nD Cert.KernelIdeal.τ).loc Cert.KernelIdeal.main_arg0)),
    Cert.Impute.kernel_run m ρ, ?_⟩
  refine (θ_run Cert.ReferenceIdeal.defs _ _).mono (fun _ h c => ⟨(h c).1.trans ?_, (h c).2⟩)
    (Cert.ReferenceIdeal.RunH.run (F := Ideal) m' ρ')
  rw [ref_is_G, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
